-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x256 : Shape := ⟨4, ![4, 64, 64, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S4x64x64x256 : S_.BroadcastsInDim S4x64x64x256 (![] : Fin 0 → Fin S4x64x64x256.rank)
  reducesTo_S4x64x64x256_S_d0_1_2_3 : S4x64x64x256.ReducesTo [0, 1, 2, 3] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S128x256 .f32) (main_arg8 : FVec F S256 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S128 .f32) (main_arg5 : FVec F S256x128 .f32) (main_arg6 : FVec F S128 .f32) (main_arg7 : FVec F S128x256 .f32) (main_arg8 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S4x64x64x256 .f32) (main_arg1 : FVec F S256x128 .f32) (main_arg2 : FVec F S128 .f32) (main_arg3 : FVec F S256x128 .f32) (main_arg4 : FVec F S128 .f32) (main_arg5 : FVec F S256x128 .f32) (main_arg6 : FVec F S128 .f32) (main_arg7 : FVec F S128x256 .f32) (main_arg8 : FVec F S256 .f32) : IVec S_ 1 :=
  let main_v0 : FVec F S4x64x64x256 .f32 := Host.absf main_arg0
  let main_cst : FVec F S_ .f32 := constant S_ .f32 0x7F800000#32
  let main_v1 : FVec F S4x64x64x256 .f32 := broadcastInDim S4x64x64x256 ![] bcast_S_S4x64x64x256 main_cst
  let main_v2 : IVec S4x64x64x256 1 := cmpf .olt main_v0 main_v1
  let main_c : IVec S_ 1 := constantI S_ 1 1#1
  let main_v3 : IVec S_ 1 := (fun x v => Host.reduce IntOp.andi x v reducesTo_S4x64x64x256_S_d0_1_2_3 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_v13 main_v16
-- ==== Kernel.lean ====
abbrev S4x64x64x256 : Shape := ⟨4, ![4, 64, 64, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S4x4096x256 : Shape := ⟨3, ![4, 4096, 256]⟩
abbrev S16384x256 : Shape := ⟨2, ![16384, 256]⟩
abbrev S256x384 : Shape := ⟨2, ![256, 384]⟩
abbrev S384 : Shape := ⟨1, ![384]⟩
abbrev S1x384 : Shape := ⟨2, ![1, 384]⟩
abbrev S1x256 : Shape := ⟨2, ![1, 256]⟩
abbrev S16384x128 : Shape := ⟨2, ![16384, 128]⟩
abbrev S2048x256 : Shape := ⟨2, ![2048, 256]⟩
abbrev S2048x128 : Shape := ⟨2, ![2048, 128]⟩
abbrev S2048x384 : Shape := ⟨2, ![2048, 384]⟩
abbrev S4x4096x128 : Shape := ⟨3, ![4, 4096, 128]⟩
abbrev S1x1024x256 : Shape := ⟨3, ![1, 1024, 256]⟩
abbrev S1x1024x128 : Shape := ⟨3, ![1, 1024, 128]⟩
abbrev S1024x128 : Shape := ⟨2, ![1024, 128]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩
abbrev S1024x256 : Shape := ⟨2, ![1024, 256]⟩

abbrev nBuf : Space → Nat
  | .hbm => 23
  | .vmem => 25
  | .smem => 0
  | _ => 0

abbrev bufTy : (tb : Table) → Fin (tcTables nBuf tb) → BufTy
  | .hbm, ⟨0, _⟩ => ⟨S4x64x64x256, .f32⟩
  | .hbm, ⟨1, _⟩ => ⟨S256x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S4x4096x256, .f32⟩
  | .hbm, ⟨10, _⟩ => ⟨S16384x256, .f32⟩
  | .hbm, ⟨11, _⟩ => ⟨S256x384, .f32⟩
  | .hbm, ⟨12, _⟩ => ⟨S384, .f32⟩
  | .hbm, ⟨13, _⟩ => ⟨S1x384, .f32⟩
  | .hbm, ⟨14, _⟩ => ⟨S1x256, .f32⟩
  | .hbm, ⟨15, _⟩ => ⟨S16384x128, .bf16⟩
  | .hbm, ⟨16, _⟩ => ⟨S16384x128, .bf16⟩
  | .hbm, ⟨17, _⟩ => ⟨S16384x128, .bf16⟩
  | .hbm, ⟨18, _⟩ => ⟨S4x4096x128, .bf16⟩
  | .hbm, ⟨19, _⟩ => ⟨S4x4096x128, .bf16⟩
  | .hbm, ⟨20, _⟩ => ⟨S4x4096x128, .bf16⟩
  | .hbm, ⟨21, _⟩ => ⟨S4x4096x256, .f32⟩
  | .hbm, ⟨22, _⟩ => ⟨S4x64x64x256, .f32⟩
  | .local _ .vmem, ⟨0, _⟩ => ⟨S2048x256, .f32⟩
  | .local _ .vmem, ⟨1, _⟩ => ⟨S2048x256, .f32⟩
  | .local _ .vmem, ⟨2, _⟩ => ⟨S256x384, .f32⟩
  | .local _ .vmem, ⟨3, _⟩ => ⟨S1x384, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x1024x256, .f32⟩
  | .local _ .vmem, ⟨11, _⟩ => ⟨S1x1024x256, .f32⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .bf16⟩
  | .local _ .vmem, ⟨16, _⟩ => ⟨S1x1024x128, .bf16⟩
  | .local _ .vmem, ⟨17, _⟩ => ⟨S1x1024x128, .bf16⟩
  | .local _ .vmem, ⟨18, _⟩ => ⟨S128x256, .f32⟩
  | .local _ .vmem, ⟨19, _⟩ => ⟨S1x256, .f32⟩
  | .local _ .vmem, ⟨20, _⟩ => ⟨S1x1024x256, .f32⟩
  | .local _ .vmem, ⟨21, _⟩ => ⟨S1x1024x256, .f32⟩
  | .local _ .vmem, ⟨22, _⟩ => ⟨S1024x128, .f32⟩
  | .local _ .vmem, ⟨23, _⟩ => ⟨S1024x1, .f32⟩
  | .local _ .vmem, ⟨24, _⟩ => ⟨S1024x1, .f32⟩
  | _, _ => ⟨S4x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_24 : BitVec 32 := 0#32
  let v42 : BitVec 1 := Scalar.cmpi .ne v41 c0_i32_24
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S4x64x64x256_S4x4096x256 : S4x64x64x256.ShapeCasts S4x4096x256
  shapeCasts_S4x4096x256_S16384x256 : S4x4096x256.ShapeCasts S16384x256
  concatenates_S256x128_S256x128_S256x128_S256x384_d1 : Shape.Concatenates [S256x128, S256x128, S256x128] S256x384 1
  concatenates_S128_S128_S128_S384_d0 : Shape.Concatenates [S128, S128, S128] S384 0
  bcast_S384_S1x384_1 : S384.BroadcastsInDim S1x384 (![1] : Fin 1 → Fin S1x384.rank)
  bcast_S256_S1x256_1 : S256.BroadcastsInDim S1x256 (![1] : Fin 1 → Fin S1x256.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  slices_S2048x384_o0_0_S2048x128 : S2048x384.Slices ![0, 0] S2048x128
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  slices_S2048x384_o0_128_S2048x128 : S2048x384.Slices ![0, 128] S2048x128
  slices_S2048x384_o0_256_S2048x128 : S2048x384.Slices ![0, 256] S2048x128
  shapeCasts_S16384x128_S4x4096x128 : S16384x128.ShapeCasts S4x4096x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  transposes_S1024x128_p1_0_S128x1024 : S1024x128.Transposes [1, 0] S128x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  shapeCasts_S4x4096x256_S4x64x64x256 : S4x4096x256.ShapeCasts S4x64x64x256
  dot_S2048x256_S256x384_S2048x384_1_0_0_1_n_n_wf : DotDims.WF S2048x256 S256x384 S2048x384 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  dot_S1024x128_S128x256_S1024x256_1_0_0_1_n_n_wf : DotDims.WF S1024x128 S128x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x384.size a ≤ S256x384.size a
  hwx0_1 : ∀ i : grid0.Coords, EltTy.bits .f32 = 32 ∨ (Rect.block (s := S256x384) S256x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .bf16 = 32 ∨ (Rect.block (s := S16384x128) S2048x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S16384x128.size a
  hwx0_4 : ∀ i : grid0.Coords, EltTy.bits .bf16 = 32 ∨ (Rect.block (s := S16384x128) S2048x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S16384x128.size a
  hwx0_5 : ∀ i : grid0.Coords, EltTy.bits .bf16 = 32 ∨ (Rect.block (s := S16384x128) S2048x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S4x4096x256.size a
  hwx1_0 : ∀ i : grid1.Coords, EltTy.bits .f32 = 32 ∨ (Rect.block (s := S4x4096x256) S1x1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S4x4096x128.size a
  hwx1_1 : ∀ i : grid1.Coords, EltTy.bits .bf16 = 32 ∨ (Rect.block (s := S4x4096x128) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S4x4096x128.size a
  hwx1_2 : ∀ i : grid1.Coords, EltTy.bits .bf16 = 32 ∨ (Rect.block (s := S4x4096x128) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S4x4096x128.size a
  hwx1_3 : ∀ i : grid1.Coords, EltTy.bits .bf16 = 32 ∨ (Rect.block (s := S4x4096x128) S1x1024x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x256.size a ≤ S4x4096x256.size a
  hwx1_6 : ∀ i : grid1.Coords, EltTy.bits .f32 = 32 ∨ (Rect.block (s := S4x4096x256) S1x1024x256.size (cc1_transform_6 i) (hinb1_6 i)).WholeWords (EltTy.packing .f32)

variable [Facts₀]

def dot_S2048x256_S256x384_S2048x384_1_0_0_1_n_n : DotDims S2048x256 S256x384 S2048x384 where
  lhsContracting := [1]
  rhsContracting := [0]
  lhsNonContracting := [0]
  rhsNonContracting := [1]
  lhsBatch := []
  rhsBatch := []
  wf := dot_S2048x256_S256x384_S2048x384_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf

abbrev win0_0 : Pipeline.Window sig grid0 :=
  Pipeline.Window.ofSpec (Memref.whole main_v1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S2048x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S2048x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x64x64x256 : Shape := ⟨4, ![4, 64, 64, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S4x4096x256 : Shape := ⟨3, ![4, 4096, 256]⟩
abbrev S4x4096x128 : Shape := ⟨3, ![4, 4096, 128]⟩
abbrev S1x1x128 : Shape := ⟨3, ![1, 1, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S1x1x256 : Shape := ⟨3, ![1, 1, 256]⟩

abbrev nBuf : Space → Nat
  | .hbm => 44
  | .vmem => 0
  | .smem => 0
  | _ => 0

abbrev bufTy : (tb : Table) → Fin (tcTables nBuf tb) → BufTy
  | .hbm, ⟨0, _⟩ => ⟨S4x64x64x256, .f32⟩
  | .hbm, ⟨1, _⟩ => ⟨S256x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S4x4096x256, .f32⟩
  | .hbm, ⟨10, _⟩ => ⟨S4x4096x128, .f32⟩
  | .hbm, ⟨11, _⟩ => ⟨S1x1x128, .f32⟩
  | .hbm, ⟨12, _⟩ => ⟨S4x4096x128, .f32⟩
  | .hbm, ⟨13, _⟩ => ⟨S4x4096x128, .f32⟩
  | .hbm, ⟨14, _⟩ => ⟨S4x4096x128, .f32⟩
  | .hbm, ⟨15, _⟩ => ⟨S1x1x128, .f32⟩
  | .hbm, ⟨16, _⟩ => ⟨S4x4096x128, .f32⟩
  | .hbm, ⟨17, _⟩ => ⟨S4x4096x128, .f32⟩
  | .hbm, ⟨18, _⟩ => ⟨S4x4096x128, .f32⟩
  | .hbm, ⟨19, _⟩ => ⟨S1x1x128, .f32⟩
  | .hbm, ⟨20, _⟩ => ⟨S4x4096x128, .f32⟩
  | .hbm, ⟨21, _⟩ => ⟨S4x4096x128, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x128, .f32⟩
  | .hbm, ⟨38, _⟩ => ⟨S4x4096x256, .f32⟩
  | .hbm, ⟨39, _⟩ => ⟨S1x1x256, .f32⟩
  | .hbm, ⟨40, _⟩ => ⟨S4x4096x256, .f32⟩
  | .hbm, ⟨41, _⟩ => ⟨S4x4096x256, .f32⟩
  | .hbm, ⟨42, _⟩ => ⟨S4x64x64x256, .f32⟩
  | .hbm, ⟨43, _⟩ => ⟨S4x64x64x256, .f32⟩
  | _, _ => ⟨S4x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  shapeCasts_S4x64x64x256_S4x4096x256 : S4x64x64x256.ShapeCasts S4x4096x256
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  shapeCasts_S4x4096x256_S4x64x64x256 : S4x4096x256.ShapeCasts S4x64x64x256
  dot_S4x4096x256_S256x128_S4x4096x128_2_0_01_1_n_n_wf : DotDims.WF S4x4096x256 S256x128 S4x4096x128 [2] [0] [0, 1] [1] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]
  dot_S4x4096x128_S128x256_S4x4096x256_2_0_01_1_n_n_wf : DotDims.WF S4x4096x128 S128x256 S4x4096x256 [2] [0] [0, 1] [1] [] []

variable [Facts₀]

def dot_S4x4096x256_S256x128_S4x4096x128_2_0_01_1_n_n : DotDims S4x4096x256 S256x128 S4x4096x128 where
  lhsContracting := [2]
  rhsContracting := [0]
  lhsNonContracting := [0, 1]
  rhsNonContracting := [1]
  lhsBatch := []
  rhsBatch := []
  wf := dot_S4x4096x256_S256x128_S4x4096x128_2_0_01_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf
def dot_S4x4096x128_S128x256_S4x4096x256_2_0_01_1_n_n : DotDims S4x4096x128 S128x256 S4x4096x256 where
  lhsContracting := [2]
  rhsContracting := [0]
  lhsNonContracting := [0, 1]
  rhsNonContracting := [1]
  lhsBatch := []
  rhsBatch := []
  wf := dot_S4x4096x128_S128x256_S4x4096x256_2_0_01_1_n_n_wf

class Facts : Prop extends Facts₀ where

variable [Facts]
-- ==== Proof.LibOnlineSoftmax.lean ====
/-
  Online (blockwise) softmax on the extended reals.

  A row of finite scores `s i` over a finite set of keys, with a finite value `v i` per key, is consumed block by
  block. The carried state is a running maximum `m`, a running normaliser `l` and a running weighted sum `a`, started at
  `m = -∞`, `l = 0`, `a = 0`. A block `B` with largest score `Mb` updates it to

      m' = max m Mb,   l' = exp (m - m') · l + ∑_{i ∈ B} exp (s i - m'),   a' = exp (m - m') · a + ∑_{i ∈ B} exp (s i - m') · v i.

  Because exp (M - M') · exp (s i - M) = exp (s i - M') on the reals, after any number of pairwise disjoint non-empty
  blocks the state is the closed form over their union `S`:

      m = M = the largest score over S,   l = ∑_{i ∈ S} exp (s i - M),   a = ∑_{i ∈ S} exp (s i - M) · v i

  (`IsState`; `IsState.first` for the first block, `IsState.step` for every later one, `run_isState` for a whole
  sequence of blocks). The normaliser is a positive real, so the quotient `a / l` is the softmax-weighted sum with the
  division taken inside the sum, which is how a plain softmax followed by a contraction states it
  (`IsState.div_eq`). The last section cuts `T · W` keys into `T` consecutive blocks of width `W` and writes each block's
  maximum and sums over the places `k : Fin W` of the block (`next_block`, `run_blocks_div_eq`). All operations are the exact ones of the extended reals (`Ideal.exp`, `Ideal.div`, EReal's
  `+`, `·`, `-`, `max`), the first step's `-∞ - M = -∞`, `exp (-∞) = 0` included.
-/
import Idealize.ShloMosaic.PureOps.Ideal

noncomputable section

namespace Cert.Lib.OnlineSoftmax

open Idealize.ShloMosaic

variable {ι : Type*} [DecidableEq ι]

/-! ## Coercions -/

/-- The coercion of a finite sum of reals is the sum of the coercions. -/
theorem coe_sum (S : Finset ι) (f : ι → ℝ) : ((∑ i ∈ S, f i : ℝ) : EReal) = ∑ i ∈ S, (f i : EReal) := by
  induction S using Finset.induction_on with
  | empty => simp
  | insert a S ha ih => rw [Finset.sum_insert ha, Finset.sum_insert ha, EReal.coe_add, ih]

/-- The exponential of a real, on the extended reals, is the real exponential. -/
theorem exp_coe (r : ℝ) : Ideal.exp (r : EReal) = ((Real.exp r : ℝ) : EReal) := rfl

/-- `exp (-∞) = 0`. -/
theorem exp_bot : Ideal.exp ⊥ = 0 := rfl

/-- The exponential of a difference of two reals. -/
theorem exp_coe_sub (x y : ℝ) : Ideal.exp ((x : EReal) - (y : EReal)) = ((Real.exp (x - y) : ℝ) : EReal) := by
  rw [← EReal.coe_sub, exp_coe]

/-- The maximum of two reals, taken on the extended reals. -/
theorem max_coe (x y : ℝ) : max (x : EReal) (y : EReal) = ((max x y : ℝ) : EReal) :=
  (EReal.coe_strictMono.monotone.map_max).symm

/-! ## The largest score of a set -/

/-- `M` bounds the scores over `S` and is one of them. -/
def IsMax (S : Finset ι) (s : ι → ℝ) (M : ℝ) : Prop := (∀ i ∈ S, s i ≤ M) ∧ ∃ i ∈ S, s i = M

theorem exists_isMax {S : Finset ι} (s : ι → ℝ) (hS : S.Nonempty) : ∃ M, IsMax S s M :=
  ⟨S.sup' hS s, fun _ hi => Finset.le_sup' s hi,
    (Finset.exists_mem_eq_sup' hS s).imp fun _ h => ⟨h.1, h.2.symm⟩⟩

theorem IsMax.nonempty {S : Finset ι} {s : ι → ℝ} {M : ℝ} (h : IsMax S s M) : S.Nonempty :=
  let ⟨i, hi, _⟩ := h.2; ⟨i, hi⟩

theorem IsMax.unique {S : Finset ι} {s : ι → ℝ} {M M' : ℝ} (h : IsMax S s M) (h' : IsMax S s M') : M = M' := by
  obtain ⟨i, hi, rfl⟩ := h.2
  obtain ⟨j, hj, rfl⟩ := h'.2
  exact le_antisymm (h'.1 i hi) (h.1 j hj)

theorem IsMax.union {S B : Finset ι} {s : ι → ℝ} {M Mb : ℝ} (h : IsMax S s M) (hB : IsMax B s Mb) :
    IsMax (S ∪ B) s (max M Mb) := by
  refine ⟨fun i hi => ?_, ?_⟩
  · rcases Finset.mem_union.1 hi with hi | hi
    · exact (h.1 i hi).trans (le_max_left _ _)
    · exact (hB.1 i hi).trans (le_max_right _ _)
  · rcases le_total Mb M with hle | hle
    · obtain ⟨i, hi, e⟩ := h.2
      exact ⟨i, Finset.mem_union_left _ hi, by rw [e, max_eq_left hle]⟩
    · obtain ⟨i, hi, e⟩ := hB.2
      exact ⟨i, Finset.mem_union_right _ hi, by rw [e, max_eq_right hle]⟩

/-- A block's maximum taken as a fold of `max` from `-∞` over the coerced scores is the block's largest score. -/
theorem fold_max_bot_eq {B : Finset ι} {s : ι → ℝ} {Mb : ℝ} (h : IsMax B s Mb) :
    B.fold max (⊥ : EReal) (fun i => ((s i : ℝ) : EReal)) = (Mb : EReal) := by
  refine le_antisymm ((Finset.fold_max_le _).2 ⟨bot_le, fun i hi => EReal.coe_le_coe_iff.2 (h.1 i hi)⟩) ?_
  obtain ⟨i, hi, e⟩ := h.2
  exact (Finset.le_fold_max _).2 (Or.inr ⟨i, hi, by rw [e]⟩)

/-! ## The carried state in closed form -/

/-- The state `(m, l, a)` is the closed form over the keys `S`: `m` their largest score `M`, `l` the sum of
    `exp (s i - M)`, `a` the sum of `exp (s i - M) · v i`, all three real. -/
def IsState (S : Finset ι) (s v : ι → ℝ) (m l a : EReal) : Prop :=
  ∃ M : ℝ, IsMax S s M ∧ m = (M : EReal)
    ∧ l = ((∑ i ∈ S, Real.exp (s i - M) : ℝ) : EReal)
    ∧ a = ((∑ i ∈ S, Real.exp (s i - M) * v i : ℝ) : EReal)

/-- The block sums of the update, read as reals. -/
theorem block_den (B : Finset ι) (s : ι → ℝ) (M' : ℝ) :
    ∑ i ∈ B, Ideal.exp ((s i : EReal) - (M' : EReal)) = ((∑ i ∈ B, Real.exp (s i - M') : ℝ) : EReal) := by
  rw [coe_sum]; exact Finset.sum_congr rfl fun i _ => exp_coe_sub _ _

theorem block_num (B : Finset ι) (s v : ι → ℝ) (M' : ℝ) :
    ∑ i ∈ B, Ideal.exp ((s i : EReal) - (M' : EReal)) * (v i : EReal)
      = ((∑ i ∈ B, Real.exp (s i - M') * v i : ℝ) : EReal) := by
  rw [coe_sum]; exact Finset.sum_congr rfl fun i _ => by rw [exp_coe_sub, EReal.coe_mul]

/-- THE FIRST BLOCK: from `m = -∞`, `l = 0`, `a = 0` the update leaves the closed form over the block. -/
theorem IsState.first {B : Finset ι} {s v : ι → ℝ} {Mb : ℝ} (hB : IsMax B s Mb) :
    IsState B s v (max ⊥ (Mb : EReal))
      (Ideal.exp (⊥ - max ⊥ (Mb : EReal)) * 0 + ∑ i ∈ B, Ideal.exp ((s i : EReal) - max ⊥ (Mb : EReal)))
      (Ideal.exp (⊥ - max ⊥ (Mb : EReal)) * 0
        + ∑ i ∈ B, Ideal.exp ((s i : EReal) - max ⊥ (Mb : EReal)) * (v i : EReal)) := by
  rw [max_eq_right (bot_le : (⊥ : EReal) ≤ Mb), mul_zero, zero_add, zero_add, block_den, block_num]
  exact ⟨Mb, hB, rfl, rfl, rfl⟩

/-- A LATER BLOCK: from the closed form over `S`, a block disjoint from `S` leaves the closed form over `S ∪ B`. -/
theorem IsState.step {S B : Finset ι} {s v : ι → ℝ} {m l a : EReal} (hS : IsState S s v m l a)
    (hdisj : Disjoint S B) {Mb : ℝ} (hB : IsMax B s Mb) :
    IsState (S ∪ B) s v (max m (Mb : EReal))
      (Ideal.exp (m - max m (Mb : EReal)) * l + ∑ i ∈ B, Ideal.exp ((s i : EReal) - max m (Mb : EReal)))
      (Ideal.exp (m - max m (Mb : EReal)) * a
        + ∑ i ∈ B, Ideal.exp ((s i : EReal) - max m (Mb : EReal)) * (v i : EReal)) := by
  obtain ⟨M, hM, rfl, rfl, rfl⟩ := hS
  rw [max_coe, exp_coe_sub, block_den, block_num, ← EReal.coe_mul, ← EReal.coe_mul, ← EReal.coe_add,
    ← EReal.coe_add]
  refine ⟨max M Mb, hM.union hB, rfl, ?_, ?_⟩
  · rw [Finset.sum_union hdisj, Finset.mul_sum]
    refine congrArg (fun t : ℝ => (((t + ∑ i ∈ B, Real.exp (s i - max M Mb)) : ℝ) : EReal)) ?_
    exact Finset.sum_congr rfl fun i _ => by rw [← Real.exp_add]; congr 1; ring
  · rw [Finset.sum_union hdisj, Finset.mul_sum]
    refine congrArg (fun t : ℝ => (((t + ∑ i ∈ B, Real.exp (s i - max M Mb) * v i) : ℝ) : EReal)) ?_
    exact Finset.sum_congr rfl fun i _ => by rw [← mul_assoc, ← Real.exp_add]; congr 2; ring

/-! ## The quotient -/

/-- The normaliser of a closed form is a positive real. -/
theorem den_pos {S : Finset ι} {s : ι → ℝ} {M : ℝ} (hM : IsMax S s M) : 0 < ∑ i ∈ S, Real.exp (s i - M) :=
  Finset.sum_pos (fun _ _ => Real.exp_pos _) hM.nonempty

/-- The quotient of a closed form is the real quotient of its two sums. -/
theorem IsState.div_eq_coe {S : Finset ι} {s v : ι → ℝ} {m l a : EReal} (hS : IsState S s v m l a) {M : ℝ}
    (hM : IsMax S s M) :
    Ideal.div a l = (((∑ i ∈ S, Real.exp (s i - M) * v i) * (1 / ∑ i ∈ S, Real.exp (s i - M)) : ℝ) : EReal) := by
  obtain ⟨M0, hM0, -, rfl, rfl⟩ := hS
  obtain rfl := hM0.unique hM
  rw [Ideal.div_coe (den_pos hM).ne', ← EReal.coe_mul]

/-- THE QUOTIENT IS THE SOFTMAX-WEIGHTED SUM: `a / l` equals the sum over the keys of
    `(exp (s i - M) / ∑_j exp (s j - M)) · v i`, each division taken inside the sum. -/
theorem IsState.div_eq {S : Finset ι} {s v : ι → ℝ} {m l a : EReal} (hS : IsState S s v m l a) {M : ℝ}
    (hM : IsMax S s M) :
    Ideal.div a l
      = ∑ i ∈ S, Ideal.div (Ideal.exp ((s i : EReal) - (M : EReal)))
          (∑ j ∈ S, Ideal.exp ((s j : EReal) - (M : EReal))) * (v i : EReal) := by
  rw [hS.div_eq_coe hM, block_den]
  have hterm : ∀ i ∈ S, Ideal.div (Ideal.exp ((s i : EReal) - (M : EReal)))
        ((∑ j ∈ S, Real.exp (s j - M) : ℝ) : EReal) * (v i : EReal)
      = ((Real.exp (s i - M) * (1 / ∑ j ∈ S, Real.exp (s j - M)) * v i : ℝ) : EReal) := fun i _ => by
    rw [exp_coe_sub, Ideal.div_coe (den_pos hM).ne', ← EReal.coe_mul, ← EReal.coe_mul]
  rw [Finset.sum_congr rfl hterm, ← coe_sum]
  refine congrArg (fun t : ℝ => (t : EReal)) ?_
  rw [Finset.sum_mul]
  exact Finset.sum_congr rfl fun i _ => by ring

/-! ## A whole sequence of blocks -/

/-- One update of the carried state by the block `B`, with the block's maximum taken as the fold of `max` from `-∞`. -/
def next (s v : ι → ℝ) (B : Finset ι) (st : EReal × EReal × EReal) : EReal × EReal × EReal :=
  (max st.1 (B.fold max (⊥ : EReal) fun i => ((s i : ℝ) : EReal)),
   Ideal.exp (st.1 - max st.1 (B.fold max (⊥ : EReal) fun i => ((s i : ℝ) : EReal))) * st.2.1
     + ∑ i ∈ B, Ideal.exp ((s i : EReal) - max st.1 (B.fold max (⊥ : EReal) fun i => ((s i : ℝ) : EReal))),
   Ideal.exp (st.1 - max st.1 (B.fold max (⊥ : EReal) fun i => ((s i : ℝ) : EReal))) * st.2.2
     + ∑ i ∈ B, Ideal.exp ((s i : EReal) - max st.1 (B.fold max (⊥ : EReal) fun i => ((s i : ℝ) : EReal)))
         * (v i : EReal))

/-- The state after the first `n` blocks of the sequence `B`, from `(-∞, 0, 0)`. -/
def run (s v : ι → ℝ) (B : ℕ → Finset ι) : ℕ → EReal × EReal × EReal
  | 0 => (⊥, 0, 0)
  | n + 1 => next s v (B n) (run s v B n)

/-- After `n + 1` non-empty, pairwise disjoint blocks the state is the closed form over their union. -/
theorem run_isState (s v : ι → ℝ) (B : ℕ → Finset ι) (n : ℕ) (hne : ∀ k ≤ n, (B k).Nonempty)
    (hdisj : ∀ j ≤ n, ∀ k ≤ n, j ≠ k → Disjoint (B j) (B k)) :
    IsState ((Finset.range (n + 1)).biUnion B) s v (run s v B (n + 1)).1 (run s v B (n + 1)).2.1
      (run s v B (n + 1)).2.2 := by
  induction n with
  | zero =>
    obtain ⟨Mb, hMb⟩ := exists_isMax s (hne 0 le_rfl)
    have h := IsState.first (v := v) hMb
    rw [← fold_max_bot_eq hMb] at h
    simpa [run, next] using h
  | succ n ih =>
    obtain ⟨Mb, hMb⟩ := exists_isMax s (hne (n + 1) le_rfl)
    have hS := ih (fun k hk => hne k (Nat.le_succ_of_le hk))
      (fun j hj k hk hjk => hdisj j (Nat.le_succ_of_le hj) k (Nat.le_succ_of_le hk) hjk)
    have hd : Disjoint ((Finset.range (n + 1)).biUnion B) (B (n + 1)) := by
      rw [Finset.disjoint_biUnion_left]
      intro j hj
      have hj' : j ≤ n := Nat.lt_succ_iff.1 (Finset.mem_range.1 hj)
      exact hdisj j (Nat.le_succ_of_le hj') (n + 1) le_rfl (by omega)
    have h := hS.step hd hMb
    rw [← fold_max_bot_eq hMb] at h
    rw [Finset.range_add_one, Finset.biUnion_insert, Finset.union_comm]
    exact h

/-! ## Keys cut into consecutive blocks of equal width

    `T · W` keys in row-major order: block `j` holds the keys `j · W + k`, `k < W` — the column tiles a kernel walks
    along its innermost grid axis. A sum or a maximum over a block is the one over `k : Fin W` that a tile's lane reduction
    or matrix product states. -/

section Tiles

variable {T W : ℕ}

/-- Key `k` of block `j`. -/
def key (j : Fin T) (k : Fin W) : Fin (T * W) :=
  ⟨j.val * W + k.val, by
    have h2 : (j.val + 1) * W ≤ T * W := Nat.mul_le_mul_right W j.isLt
    have h3 : (j.val + 1) * W = j.val * W + W := Nat.succ_mul _ _
    have := k.isLt
    omega⟩

theorem key_val (j : Fin T) (k : Fin W) : (key j k).val = j.val * W + k.val := rfl

/-- Two keys agree only in the same block at the same place. -/
theorem key_eq_key {j j' : Fin T} {k k' : Fin W} (h : key j k = key j' k') : j = j' ∧ k = k' := by
  have hv : j.val * W + k.val = j'.val * W + k'.val := congrArg Fin.val h
  have hk := k.isLt
  have hk' := k'.isLt
  have hj : j.val = j'.val := by
    rcases Nat.lt_trichotomy j.val j'.val with hlt | heq | hgt
    · have h2 : (j.val + 1) * W ≤ j'.val * W := Nat.mul_le_mul_right W hlt
      have h3 : (j.val + 1) * W = j.val * W + W := Nat.succ_mul _ _
      omega
    · exact heq
    · have h2 : (j'.val + 1) * W ≤ j.val * W := Nat.mul_le_mul_right W hgt
      have h3 : (j'.val + 1) * W = j'.val * W + W := Nat.succ_mul _ _
      omega
  refine ⟨Fin.ext hj, Fin.ext ?_⟩
  rw [hj] at hv
  omega

/-- Block `j`: its `W` keys. -/
def block (j : Fin T) : Finset (Fin (T * W)) :=
  Finset.univ.map ⟨key j, fun _ _ h => (key_eq_key h).2⟩

theorem mem_block {j : Fin T} {i : Fin (T * W)} : i ∈ block (W := W) j ↔ ∃ k : Fin W, key j k = i := by
  unfold block
  simp only [Finset.mem_map, Finset.mem_univ, true_and]
  exact Iff.rfl

/-- A sum over a block is the sum over its places. -/
theorem sum_block {A : Type*} [AddCommMonoid A] (j : Fin T) (f : Fin (T * W) → A) :
    ∑ i ∈ block j, f i = ∑ k : Fin W, f (key j k) := by
  unfold block; rw [Finset.sum_map]; rfl

/-- A fold of `max` over a block is the fold over its places. -/
theorem fold_max_block (j : Fin T) (b : EReal) (f : Fin (T * W) → EReal) :
    (block j).fold max b f = (Finset.univ : Finset (Fin W)).fold max b fun k => f (key j k) := by
  unfold block; rw [Finset.fold_map]; rfl

theorem block_nonempty (hW : 0 < W) (j : Fin T) : (block (W := W) j).Nonempty :=
  ⟨key j ⟨0, hW⟩, mem_block.2 ⟨_, rfl⟩⟩

theorem block_disjoint {j j' : Fin T} (h : j ≠ j') : Disjoint (block (W := W) j) (block j') := by
  rw [Finset.disjoint_left]
  intro i hi hi'
  obtain ⟨k, rfl⟩ := mem_block.1 hi
  obtain ⟨k', e⟩ := mem_block.1 hi'
  exact h (key_eq_key e).1.symm

/-- Every key lies in the block its quotient by `W` names. -/
theorem exists_key (hW : 0 < W) (i : Fin (T * W)) : ∃ (j : Fin T) (k : Fin W), key j k = i :=
  ⟨⟨i.val / W, Nat.div_lt_of_lt_mul (lt_of_lt_of_eq i.isLt (Nat.mul_comm T W))⟩, ⟨i.val % W, Nat.mod_lt _ hW⟩,
    Fin.ext (Nat.div_add_mod' _ _)⟩

/-- The blocks as a sequence (empty past the last one). -/
def blocks (n : ℕ) : Finset (Fin (T * W)) := if h : n < T then block ⟨n, h⟩ else ∅

theorem blocks_of_lt {n : ℕ} (h : n < T) : blocks (W := W) n = block ⟨n, h⟩ := dif_pos h

theorem biUnion_blocks (hW : 0 < W) : (Finset.range T).biUnion (blocks (T := T) (W := W)) = Finset.univ := by
  ext i
  simp only [Finset.mem_biUnion, Finset.mem_range, Finset.mem_univ, iff_true]
  obtain ⟨j, k, e⟩ := exists_key hW i
  exact ⟨j.val, j.isLt, by rw [blocks_of_lt j.isLt]; exact mem_block.2 ⟨k, e⟩⟩

/-- One update by block `j`, with the block's maximum and sums written over its places `k : Fin W`. -/
theorem next_block (s v : Fin (T * W) → ℝ) (j : Fin T) (st : EReal × EReal × EReal) :
    next s v (block j) st
      = (max st.1 ((Finset.univ : Finset (Fin W)).fold max (⊥ : EReal) fun k => ((s (key j k) : ℝ) : EReal)),
         Ideal.exp (st.1 - max st.1
              ((Finset.univ : Finset (Fin W)).fold max (⊥ : EReal) fun k => ((s (key j k) : ℝ) : EReal))) * st.2.1
           + ∑ k : Fin W, Ideal.exp ((s (key j k) : EReal) - max st.1
              ((Finset.univ : Finset (Fin W)).fold max (⊥ : EReal) fun k => ((s (key j k) : ℝ) : EReal))),
         Ideal.exp (st.1 - max st.1
              ((Finset.univ : Finset (Fin W)).fold max (⊥ : EReal) fun k => ((s (key j k) : ℝ) : EReal))) * st.2.2
           + ∑ k : Fin W, Ideal.exp ((s (key j k) : EReal) - max st.1
              ((Finset.univ : Finset (Fin W)).fold max (⊥ : EReal) fun k => ((s (key j k) : ℝ) : EReal)))
               * (v (key j k) : EReal)) := by
  unfold next
  rw [fold_max_block, sum_block, sum_block]

/-- ALL THE BLOCKS: after the `T` blocks of `T · W` keys the carried state is the closed form over every key. -/
theorem run_blocks_isState (hT : 0 < T) (hW : 0 < W) (s v : Fin (T * W) → ℝ) :
    IsState Finset.univ s v (run s v (blocks (T := T) (W := W)) T).1 (run s v (blocks (T := T) (W := W)) T).2.1
      (run s v (blocks (T := T) (W := W)) T).2.2 := by
  obtain ⟨n, rfl⟩ : ∃ n, T = n + 1 := ⟨T - 1, by omega⟩
  rw [← biUnion_blocks (T := n + 1) hW]
  refine run_isState s v blocks n (fun k hk => ?_) (fun j hj k hk hjk => ?_)
  · rw [blocks_of_lt (Nat.lt_succ_of_le hk)]; exact block_nonempty hW _
  · rw [blocks_of_lt (Nat.lt_succ_of_le hj), blocks_of_lt (Nat.lt_succ_of_le hk)]
    exact block_disjoint fun e => hjk (congrArg Fin.val e)

/-- So the final quotient is the softmax-weighted sum over all `T · W` keys, each division inside the sum. -/
theorem run_blocks_div_eq (hT : 0 < T) (hW : 0 < W) (s v : Fin (T * W) → ℝ) {M : ℝ}
    (hM : IsMax Finset.univ s M) :
    Ideal.div (run s v (blocks (T := T) (W := W)) T).2.2 (run s v (blocks (T := T) (W := W)) T).2.1
      = ∑ i : Fin (T * W), Ideal.div (Ideal.exp ((s i : EReal) - (M : EReal)))
          (∑ j : Fin (T * W), Ideal.exp ((s j : EReal) - (M : EReal))) * (v i : EReal) :=
  (run_blocks_isState hT hW s v).div_eq hM

end Tiles

end Cert.Lib.OnlineSoftmax

end
-- ==== Proof.LibRealValued.lean ====
/-
  Real-valued extended reals.

  An extended real is REAL when it is neither infinity. Finite float inputs are real entries; sums, differences,
  products, finite sums, maxima and exponentials of real entries are real, so every intermediate of a program built
  from those operations on finite inputs — a matrix product plus a bias, a score, a softmax weight — is real, and a
  whole array of real entries is the coercion of one real-valued function (`exists_real_fun`). This is what lets an
  identity proved over the reals (distributivity, cancelling a positive factor, exp of a sum) be used on the extended
  reals, where it fails at the infinities.
-/
import Idealize.ShloMosaic.PureOps.Ideal

noncomputable section

namespace Cert.Lib.RealValued

open Idealize.ShloMosaic

/-- `x` is the coercion of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Neither infinity: real. -/
theorem isReal_of_ne {x : EReal} (ht : x ≠ ⊤) (hb : x ≠ ⊥) : IsReal x :=
  ⟨x.toReal, (EReal.coe_toReal ht hb).symm⟩

/-- The element fact a "finite input" precondition states, `|x| < +∞` with `|x| = max x (-x)`: the entry is real. -/
theorem isReal_of_abs_lt_top {x : EReal} (h : max x (-x) < ⊤) : IsReal x := by
  refine isReal_of_ne (fun e => ?_) (fun e => ?_)
  · rw [e] at h; exact absurd h (by simp)
  · rw [e] at h; exact absurd h (by simp)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

theorem IsReal.exp {x : EReal} (hx : IsReal x) : IsReal (Ideal.exp x) := by
  obtain ⟨a, rfl⟩ := hx; exact ⟨Real.exp a, rfl⟩

/-- A finite sum of real entries is real. -/
theorem IsReal.sum {ι : Type*} (S : Finset ι) {f : ι → EReal} (h : ∀ i ∈ S, IsReal (f i)) :
    IsReal (∑ i ∈ S, f i) := by
  classical
  induction S using Finset.induction_on with
  | empty => simpa using isReal_zero
  | insert a S ha ih =>
    rw [Finset.sum_insert ha]
    exact (h a (Finset.mem_insert_self a S)).add (ih fun i hi => h i (Finset.mem_insert_of_mem hi))

/-- A contraction of two arrays of real entries — one entry of a matrix product into a real accumulator — is real. -/
theorem isReal_dot {κ : Type*} [Fintype κ] {x y : κ → EReal} {acc : EReal} (hacc : IsReal acc)
    (hx : ∀ k, IsReal (x k)) (hy : ∀ k, IsReal (y k)) : IsReal (acc + ∑ k, x k * y k) :=
  hacc.add (IsReal.sum _ fun k _ => (hx k).mul (hy k))

/-- An array of real entries is the coercion of one real-valued function. -/
theorem exists_real_fun {α : Type*} {f : α → EReal} (h : ∀ a, IsReal (f a)) :
    ∃ g : α → ℝ, ∀ a, f a = ((g a : ℝ) : EReal) :=
  ⟨fun a => (h a).choose, fun a => (h a).choose_spec⟩

end Cert.Lib.RealValued

end
-- ==== Proof.ProjBodyBits.lean ====
/-
  The projection launch, at any contents `V` of the buffers when the launch is entered.

  Its grid has 8 points; point `t` reads the 2048 pixel rows `2048·t …` of the flattened image, the whole
  concatenated weight matrix and the whole concatenated bias row, forms ONE product [2048, 256]·[256, 384] plus the
  bias, and stores its three column slices [0,128), [128,256), [256,384) whole into the three output blocks (the k, q
  and v projections of those rows). So after the body each output's staging buffer holds one slice of that product
  (`outK`, `outQ`, `outV`: a single whole-block piece each), the three inputs' buffers are as the fetch left them, and
  nothing else is touched: the body's triple (`sound_kernel`), the proof data over `V` (`dat`) and the obligation at a
  generic point (`body_obligation`).
-/
import proofs.«133523_j46909632807722_2_alg».proof.Proof.Gen.Kernel.Launch
import proofs.«133523_j46909632807722_2_alg».proof.Proof.Gen.Kernel.Skeleton
import proofs.«133523_j46909632807722_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rX : Rect S2048x256 := Rect.unit (s := S2048x256) ![0, 0] S2048x256.size inb_S2048x256_S2048x256_0_0
abbrev rW : Rect S256x384 := Rect.unit (s := S256x384) ![0, 0] S256x384.size inb_S256x384_S256x384_0_0
abbrev rB : Rect S1x384 := Rect.unit (s := S1x384) ![0, 0] S1x384.size inb_S1x384_S1x384_0_0
abbrev rO : Rect S2048x128 := Rect.unit (s := S2048x128) ![0, 0] S2048x128.size inb_S2048x128_S2048x128_0_0

/-! ## What the body leaves in each output's buffer -/

/-- The k slice: columns [0, 128) of the product plus bias. -/
def outK (x : Vec F S2048x256 .f32) (w : Vec F S256x384 .f32) (b : Vec F S1x384 .f32) : Vec F S2048x128 .bf16 :=
  View.canon [⟨rO, k0_pay2 (View.ld x rX) (View.ld w rW) (View.ld b rB)⟩]
/-- The q slice: columns [128, 256). -/
def outQ (x : Vec F S2048x256 .f32) (w : Vec F S256x384 .f32) (b : Vec F S1x384 .f32) : Vec F S2048x128 .bf16 :=
  View.canon [⟨rO, k0_pay3 (View.ld x rX) (View.ld w rW) (View.ld b rB)⟩]
/-- The v slice: columns [256, 384). -/
def outV (x : Vec F S2048x256 .f32) (w : Vec F S256x384 .f32) (b : Vec F S1x384 .f32) : Vec F S2048x128 .bf16 :=
  View.canon [⟨rO, k0_pay4 (View.ld x rX) (View.ld w rW) (View.ld b rB)⟩]

/-- One whole-block store covers the block. -/
theorem cover (p : Vec F S2048x128 .bf16) (y : S2048x128.Idx) :
    ∃ pc ∈ ([⟨rO, p⟩] : List (View.Piece (Elt F) S2048x128 .bf16)), y ∈ pc.1.set :=
  View.cover_of_tiled [⟨rO, p⟩] S2048x128.size (by rfl) y

/-! ## The body's triple -/

set_option maxHeartbeats 4000000 in
/-- On whole staging buffers — the inputs' at contents `x`, `w`, `b`, the outputs' at anything — the body runs to its
    return with the inputs' buffers as they were and the outputs' at the three slices. -/
theorem sound_kernel (c : Dev nD) (E : Set ℕ) (i : grid0.Coords)
    (arg1 : Memref sig .tc .vmem S2048x256 .f32) (harg1 : arg1.IsWhole) (arg2 : Memref sig .tc .vmem S256x384 .f32) (harg2 : arg2.IsWhole)
    (arg3 : Memref sig .tc .vmem S1x384 .f32) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S2048x128 .bf16) (harg6 : arg6.IsWhole)
    (x : Vec F S2048x256 .f32) (w : Vec F S256x384 .f32) (b : Vec F S1x384 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (outK x w b) ∗ owns (c : Thread nD τ) arg5 fullShare (outQ x w b)
            ∗ owns (c : Thread nD τ) arg6 fullShare (outV x w b)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover _)
  isplitl [H5]
  · iexists _; isplitr
    swap; · iexact H5
    ipureintro
    exact View.read_writes_eq_canon _ _ _ (cover _)
  iexists _; isplitr
  swap; · iexact H6
  ipureintro
  exact View.read_writes_eq_canon _ _ _ (cover _)

/-! ## The launch's proof data -/

/-- The proof data on core `c`: the arrays as the launch finds them; after the body at point `t` each input's buffer at
    its block and each output's at its slice of the product of the point's blocks; the class invariant (nothing scoped is
    touched); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outK (iblk V c 0 t) (iblk V c 1 t) (iblk V c 2 t)
    | ⟨4, _⟩ => outQ (iblk V c 0 t) (iblk V c 1 t) (iblk V c 2 t)
    | ⟨5, _⟩ => outV (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outK (iblk V c 0 t) (iblk V c 1 t) (iblk V c 2 t) := by dsimp only [dat]
theorem after_4 (c : Dev nD) (t : Fin cfg0.N) : (dat V c).after 4 t = outQ (iblk V c 0 t) (iblk V c 1 t) (iblk V c 2 t) := by dsimp only [dat]
theorem after_5 (c : Dev nD) (t : Fin cfg0.N) : (dat V c).after 5 t = outV (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Proj

end
-- ==== Proof.AttnRunsBits.lean ====
/-
  The attention launch: what its three control cases share.

  The grid is (image, block of 1024 query rows, block of 1024 key columns), 4·4·4 = 64 points in row-major order, so
  the column-block coordinate of point `t` is `t mod 4`. The body's first conditional (store the initial running
  maximum -∞, normaliser 0 and weighted sum 0 into the three scratch buffers) is taken exactly at column block 0; its
  second (divide, project, add the residual and store the output block) exactly at column block 3. Hence three cases:
  A (column block 0), B (column blocks 1 and 2), C (column block 3). The output window is stored only in case C; at the
  other points it is idle and not written back. The three scratch buffers are the kernel's own, passed beside the
  windows, and carry the running state from one point to the next.
-/
import proofs.«133523_j46909632807722_2_alg».proof.Proof.Gen.Kernel.Launch
import proofs.«133523_j46909632807722_2_alg».proof.Proof.Gen.Kernel.Skeleton
import proofs.«133523_j46909632807722_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's condition, from the grid coordinates: the column-block coordinate is 0. -/
abbrev cond0 (i : grid1.Coords) : Prop := (Scalar.cmpi .ne (Scalar.extui (Scalar.cmpi .eq (BitVec.ofNat 32 (i 2).val) 0#32)) 0#32) = 1#1
theorem hcond0 : ∀ t : Fin cfg1.N, cond0 (grid1.coords t) ↔ t.val % 4 = 0 :=
  (by decide +kernel : ∀ t : Fin grid1.N, cond0 (grid1.coords t) ↔ t.val % 4 = 0)

/-- The second conditional's condition: the column-block coordinate is 3. -/
abbrev cond1 (i : grid1.Coords) : Prop := k1_cond2 i = 1#1
theorem hcond1 : ∀ t : Fin cfg1.N, cond1 (grid1.coords t) ↔ t.val % 4 = 3 :=
  (by decide +kernel : ∀ t : Fin grid1.N, cond1 (grid1.coords t) ↔ t.val % 4 = 3)

/-! ## Where the output window is idle -/

theorem liveAt_in : ∀ (w : Fin 6) (t : Fin cfg1.N), cfg1.idle (w.castSucc) (grid1.coords t) = false := by decide +kernel
theorem idleAt_6 : ∀ t : Fin cfg1.N, ¬cond1 (grid1.coords t) → cfg1.idle 6 (grid1.coords t) = true := by decide +kernel
theorem noFlush_6 : ∀ t : Fin cfg1.N, ¬cond1 (grid1.coords t) → (cfg1.win 6).flush t = false := by decide +kernel
theorem liveAt_6 : ∀ t : Fin cfg1.N, cond1 (grid1.coords t) → cfg1.idle 6 (grid1.coords t) = false := by decide +kernel

/-! ## The staging and scratch buffers -/

/-- One staging buffer of the output window, through which its contents are stated. -/
abbrev VO : View sig .tc .vmem S1x1024x256 .f32 := (Memref.whole cc1_stg6_0 : Memref sig .tc .vmem S1x1024x256 .f32).view
abbrev ms_0 (t : Fin cfg1.N) : Memref sig .tc .vmem S1x1024x256 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x1024x128 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x1024x128 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x1024x128 .bf16 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S128x256 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1x256 .f32 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S1x1024x256 .f32 := win1_6.stage (cfg1.slots t 6)
abbrev hs_6 (t : Fin cfg1.N) : (ms_6 t).IsWhole := hstage1_6 ((cfg1.slots t 6).cast nbuf1_6)
/-- The scratch buffers: the running weighted sum, the running maximum, the running normaliser. -/
abbrev scA : Memref sig .tc .vmem S1024x128 .f32 := Memref.whole cc1_scratch0
abbrev scM : Memref sig .tc .vmem S1024x1 .f32 := Memref.whole cc1_scratch1
abbrev scL : Memref sig .tc .vmem S1024x1 .f32 := Memref.whole cc1_scratch2
abbrev VSA : View sig .tc .vmem S1024x128 .f32 := scA.view
abbrev VSM : View sig .tc .vmem S1024x1 .f32 := scM.view
abbrev VSL : View sig .tc .vmem S1024x1 .f32 := scL.view

/-- The other launch's staging buffers: scoped, untouched here, each held whole at something. -/
abbrev Others (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant with the scratch buffers as memrefs owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scA fullShare d) ∗ (∃ d, owns (c : Thread nD τ) scM fullShare d) ∗ (∃ d, owns (c : Thread nD τ) scL fullShare d)) ∗ (∃ r, prngReg c r)) := by
  unfold Pipeline.ΦA; rw [scopedRest1_eq]; simp only [scA, scM, scL, owns_whole]; try rfl

end Cert.Kernel.Attn

end
-- ==== Proof.AttnRunABits.lean ====
/-
  The attention body run whole in case A (column block 0: the scratch buffers are first stored at their initial values, then updated by the block; the output block is not stored).
  The witness is what the run's stores leave in each buffer, as lists of pieces (last first).
-/
import proofs.«133523_j46909632807722_2_alg».proof.Proof.AttnRunsBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the six inputs' at their contents, the idle output's at contents handed back untouched, the scratch buffers at anything — the body runs
    to its return holding the inputs' as they were, the output's untouched, and each scratch buffer with its pieces written. -/
noncomputable def kernelRun_A (c : Dev nD) (i : grid1.Coords) (arg3 : Memref sig .tc .vmem S1x1024x256 .f32) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S128x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x1 .f32) (harg12 : arg12.IsWhole) (hc0 : cond0 i) (hc1 : ¬cond1 i)
    (x0 : Vec F S1x1024x256 .f32) (x1 : Vec F S1x1024x128 .bf16) (x2 : Vec F S1x1024x128 .bf16) (x3 : Vec F S1x1024x128 .bf16) (x4 : Vec F S128x256 .f32) (x5 : Vec F S1x256 .f32) :
    Σ' (L6 : List (View.Piece (Elt F) S1x1024x256 .f32)) (LSA : List (View.Piece (Elt F) S1024x128 .f32)) (LSM : List (View.Piece (Elt F) S1024x1 .f32)), { LSL : List (View.Piece (Elt F) S1024x1 .f32) //
      ∀ (xi6 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LSA) ∗ (∃ f, arg11.view.loc (c : Thread nD τ) ↦[arg11.view.set]{fullShare} arg11.view.writes (Elt F) f LSM) ∗ (∃ f, arg12.view.loc (c : Thread nD τ) ↦[arg12.view.set]{fullShare} arg12.view.writes (Elt F) f LSL)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dsA, %fsA, -, HSA⟩, ⟨%dsM, %fsM, -, HSM⟩, ⟨%dsL, %fsL, -, HSL⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HSA]; · iexists _; iexact HSA
    isplitl [HSM]; · iexists _; iexact HSM
    iexists _; iexact HSL

end Cert.Kernel.Attn

end
-- ==== Proof.AttnRunBBits.lean ====
/-
  The attention body run whole in case B (column blocks 1 and 2: the scratch buffers are updated by the block from what the point before left; the output block is not stored).
  The witness is what the run's stores leave in each buffer, as lists of pieces (last first).
-/
import proofs.«133523_j46909632807722_2_alg».proof.Proof.AttnRunsBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the six inputs' at their contents, the idle output's at contents handed back untouched, the scratch buffers at the contents the point before left — the body runs
    to its return holding the inputs' as they were, the output's untouched, and each scratch buffer with its pieces written. -/
noncomputable def kernelRun_B (c : Dev nD) (i : grid1.Coords) (arg3 : Memref sig .tc .vmem S1x1024x256 .f32) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S128x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x1 .f32) (harg12 : arg12.IsWhole) (hc0 : ¬cond0 i) (hc1 : ¬cond1 i)
    (x0 : Vec F S1x1024x256 .f32) (x1 : Vec F S1x1024x128 .bf16) (x2 : Vec F S1x1024x128 .bf16) (x3 : Vec F S1x1024x128 .bf16) (x4 : Vec F S128x256 .f32) (x5 : Vec F S1x256 .f32) (xsA : Vec F S1024x128 .f32) (xsM : Vec F S1024x1 .f32) (xsL : Vec F S1024x1 .f32) :
    Σ' (L6 : List (View.Piece (Elt F) S1x1024x256 .f32)) (LSA : List (View.Piece (Elt F) S1024x128 .f32)) (LSM : List (View.Piece (Elt F) S1024x1 .f32)), { LSL : List (View.Piece (Elt F) S1024x1 .f32) //
      ∀ (xi6 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xsA ∗ owns (c : Thread nD τ) arg11 fullShare xsM ∗ owns (c : Thread nD τ) arg12 fullShare xsL
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LSA) ∗ (∃ f, arg11.view.loc (c : Thread nD τ) ↦[arg11.view.set]{fullShare} arg11.view.writes (Elt F) f LSM) ∗ (∃ f, arg12.view.loc (c : Thread nD τ) ↦[arg12.view.set]{fullShare} arg12.view.writes (Elt F) f LSL)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fsA, %hfsA, HSA⟩, ⟨%fsM, %hfsM, HSM⟩, ⟨%fsL, %hfsL, HSL⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfsA; obtain rfl := harg11.eq_unread hfsM; obtain rfl := harg12.eq_unread hfsL
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HSA]; · iexists _; iexact HSA
    isplitl [HSM]; · iexists _; iexact HSM
    iexists _; iexact HSL

end Cert.Kernel.Attn

end
-- ==== Proof.AttnRunCBits.lean ====
/-
  The attention body run whole in case C (column block 3: the scratch buffers are updated by the block from what the point before left, and the output block is stored from them).
  The witness is what the run's stores leave in each buffer, as lists of pieces (last first).
-/
import proofs.«133523_j46909632807722_2_alg».proof.Proof.AttnRunsBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the six inputs' at their contents, the output's at anything, the scratch buffers at the contents the point before left — the body runs
    to its return holding the inputs' as they were, the output's with its pieces written, and each scratch buffer with its pieces written. -/
noncomputable def kernelRun_C (c : Dev nD) (i : grid1.Coords) (arg3 : Memref sig .tc .vmem S1x1024x256 .f32) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S128x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x1 .f32) (harg12 : arg12.IsWhole) (hc0 : ¬cond0 i) (hc1 : cond1 i)
    (x0 : Vec F S1x1024x256 .f32) (x1 : Vec F S1x1024x128 .bf16) (x2 : Vec F S1x1024x128 .bf16) (x3 : Vec F S1x1024x128 .bf16) (x4 : Vec F S128x256 .f32) (x5 : Vec F S1x256 .f32) (xsA : Vec F S1024x128 .f32) (xsM : Vec F S1024x1 .f32) (xsL : Vec F S1024x1 .f32) :
    Σ' (L6 : List (View.Piece (Elt F) S1x1024x256 .f32)) (LSA : List (View.Piece (Elt F) S1024x128 .f32)) (LSM : List (View.Piece (Elt F) S1024x1 .f32)), { LSL : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xsA ∗ owns (c : Thread nD τ) arg11 fullShare xsM ∗ owns (c : Thread nD τ) arg12 fullShare xsL
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LSA) ∗ (∃ f, arg11.view.loc (c : Thread nD τ) ↦[arg11.view.set]{fullShare} arg11.view.writes (Elt F) f LSM) ∗ (∃ f, arg12.view.loc (c : Thread nD τ) ↦[arg12.view.set]{fullShare} arg12.view.writes (Elt F) f LSL)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fsA, %hfsA, HSA⟩, ⟨%fsM, %hfsM, HSM⟩, ⟨%fsL, %hfsL, HSL⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfsA; obtain rfl := harg11.eq_unread hfsM; obtain rfl := harg12.eq_unread hfsL
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HSA]; · iexists _; iexact HSA
    isplitl [HSM]; · iexists _; iexact HSM
    iexists _; iexact HSL

end Cert.Kernel.Attn

end
-- ==== Proof.AttnBodyBits.lean ====
/-
  The attention launch, point by point, at any contents `V` of the buffers when the launch is entered.

  What the three scratch buffers (running weighted sum, running maximum, running normaliser) and the output's staging
  buffer hold after the body at grid position `n` is a recursion over the positions (`outsAt`): at a position in column
  block 0 the case-A run from the point's input blocks alone; at any other position the case-B or case-C run from the
  point's input blocks and the scratch contents the position before left. The launch's invariant between two points
  holds the three scratch buffers at exactly those contents (`PhiS`), which is how the running state of the online
  softmax reaches the next point. The output window is stored only in case C; elsewhere it is idle and handed back.
-/
import proofs.«133523_j46909632807722_2_alg».proof.Proof.AttnRunABits
import proofs.«133523_j46909632807722_2_alg».proof.Proof.AttnRunBBits
import proofs.«133523_j46909632807722_2_alg».proof.Proof.AttnRunCBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a grid point -/

theorem not3_of_0 {n : ℕ} (h0 : n % 4 = 0) : ¬ n % 4 = 3 := by omega

/-- Case A at point `t`. -/
abbrev runA (c : Dev nD) (t : Fin cfg1.N) (h0 : t.val % 4 = 0) :=
  kernelRun_A (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) ((hcond0 t).mpr h0) (fun h => not3_of_0 h0 ((hcond1 t).mp h)) (iblk V c 0 t) (iblk V c 1 t) (iblk V c 2 t) (iblk V c 3 t) (iblk V c 4 t) (iblk V c 5 t)
/-- Case B at point `t`, from the scratch contents `p` the point before left. -/
abbrev runB (c : Dev nD) (t : Fin cfg1.N) (h0 : ¬ t.val % 4 = 0) (h3 : ¬ t.val % 4 = 3) (p : Vec F S1024x128 .f32 × Vec F S1024x1 .f32 × Vec F S1024x1 .f32) :=
  kernelRun_B (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) (fun h => h0 ((hcond0 t).mp h)) (fun h => h3 ((hcond1 t).mp h)) (iblk V c 0 t) (iblk V c 1 t) (iblk V c 2 t) (iblk V c 3 t) (iblk V c 4 t) (iblk V c 5 t) p.1 p.2.1 p.2.2
/-- Case C at point `t`, from the scratch contents `p` the point before left. -/
abbrev runC (c : Dev nD) (t : Fin cfg1.N) (h0 : ¬ t.val % 4 = 0) (h3 : t.val % 4 = 3) (p : Vec F S1024x128 .f32 × Vec F S1024x1 .f32 × Vec F S1024x1 .f32) :=
  kernelRun_C (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) (fun h => h0 ((hcond0 t).mp h)) ((hcond1 t).mpr h3) (iblk V c 0 t) (iblk V c 1 t) (iblk V c 2 t) (iblk V c 3 t) (iblk V c 4 t) (iblk V c 5 t) p.1 p.2.1 p.2.2

/-! ## The covers: each scratch buffer is stored whole by every case, the output block by case C -/

theorem scover_A_A (c : Dev nD) (t : Fin cfg1.N) (h0 : t.val % 4 = 0) (y : S1024x128.Idx) : ∃ pc ∈ (runA V c t h0).2.1, y ∈ pc.1.set :=
  View.cover_of_tiledL (runA V c t h0).2.1 S1024x128.size (by sl_kernel_rfl) y
theorem scover_A_M (c : Dev nD) (t : Fin cfg1.N) (h0 : t.val % 4 = 0) (y : S1024x1.Idx) : ∃ pc ∈ (runA V c t h0).2.2.1, y ∈ pc.1.set :=
  View.cover_of_tiledL (runA V c t h0).2.2.1 S1024x1.size (by sl_kernel_rfl) y
theorem scover_A_L (c : Dev nD) (t : Fin cfg1.N) (h0 : t.val % 4 = 0) (y : S1024x1.Idx) : ∃ pc ∈ (runA V c t h0).2.2.2.1, y ∈ pc.1.set :=
  View.cover_of_tiledL (runA V c t h0).2.2.2.1 S1024x1.size (by sl_kernel_rfl) y
theorem scover_B_A (c : Dev nD) (t : Fin cfg1.N) (h0 : ¬ t.val % 4 = 0) (h3 : ¬ t.val % 4 = 3) (p) (y : S1024x128.Idx) : ∃ pc ∈ (runB V c t h0 h3 p).2.1, y ∈ pc.1.set :=
  View.cover_of_tiledL (runB V c t h0 h3 p).2.1 S1024x128.size (by sl_kernel_rfl) y
theorem scover_B_M (c : Dev nD) (t : Fin cfg1.N) (h0 : ¬ t.val % 4 = 0) (h3 : ¬ t.val % 4 = 3) (p) (y : S1024x1.Idx) : ∃ pc ∈ (runB V c t h0 h3 p).2.2.1, y ∈ pc.1.set :=
  View.cover_of_tiledL (runB V c t h0 h3 p).2.2.1 S1024x1.size (by sl_kernel_rfl) y
theorem scover_B_L (c : Dev nD) (t : Fin cfg1.N) (h0 : ¬ t.val % 4 = 0) (h3 : ¬ t.val % 4 = 3) (p) (y : S1024x1.Idx) : ∃ pc ∈ (runB V c t h0 h3 p).2.2.2.1, y ∈ pc.1.set :=
  View.cover_of_tiledL (runB V c t h0 h3 p).2.2.2.1 S1024x1.size (by sl_kernel_rfl) y
theorem scover_C_A (c : Dev nD) (t : Fin cfg1.N) (h0 : ¬ t.val % 4 = 0) (h3 : t.val % 4 = 3) (p) (y : S1024x128.Idx) : ∃ pc ∈ (runC V c t h0 h3 p).2.1, y ∈ pc.1.set :=
  View.cover_of_tiledL (runC V c t h0 h3 p).2.1 S1024x128.size (by sl_kernel_rfl) y
theorem scover_C_M (c : Dev nD) (t : Fin cfg1.N) (h0 : ¬ t.val % 4 = 0) (h3 : t.val % 4 = 3) (p) (y : S1024x1.Idx) : ∃ pc ∈ (runC V c t h0 h3 p).2.2.1, y ∈ pc.1.set :=
  View.cover_of_tiledL (runC V c t h0 h3 p).2.2.1 S1024x1.size (by sl_kernel_rfl) y
theorem scover_C_L (c : Dev nD) (t : Fin cfg1.N) (h0 : ¬ t.val % 4 = 0) (h3 : t.val % 4 = 3) (p) (y : S1024x1.Idx) : ∃ pc ∈ (runC V c t h0 h3 p).2.2.2.1, y ∈ pc.1.set :=
  View.cover_of_tiledL (runC V c t h0 h3 p).2.2.2.1 S1024x1.size (by sl_kernel_rfl) y
theorem cover_C_6 (c : Dev nD) (t : Fin cfg1.N) (h0 : ¬ t.val % 4 = 0) (h3 : t.val % 4 = 3) (p) (y : S1x1024x256.Idx) : ∃ pc ∈ (runC V c t h0 h3 p).1, y ∈ pc.1.set :=
  View.cover_of_tiledL (runC V c t h0 h3 p).1 S1x1024x256.size (by sl_kernel_rfl) y

/-! ## What each case leaves: its pieces read back -/

/-- The four buffers after case A at `t`: the output's (nothing stored: a placeholder nothing consults), then the
    three scratch buffers'. -/
def stA (c : Dev nD) (t : Fin cfg1.N) (h0 : t.val % 4 = 0) : Vec F S1x1024x256 .f32 × Vec F S1024x128 .f32 × Vec F S1024x1 .f32 × Vec F S1024x1 .f32 :=
  (VO.read (Elt F) (VO.writes (Elt F) VO.junk (runA V c t h0).1),
   VSA.read (Elt F) (VSA.writes (Elt F) VSA.junk (runA V c t h0).2.1),
   VSM.read (Elt F) (VSM.writes (Elt F) VSM.junk (runA V c t h0).2.2.1),
   VSL.read (Elt F) (VSL.writes (Elt F) VSL.junk (runA V c t h0).2.2.2.1))
def stB (c : Dev nD) (t : Fin cfg1.N) (h0 : ¬ t.val % 4 = 0) (h3 : ¬ t.val % 4 = 3) (p : Vec F S1024x128 .f32 × Vec F S1024x1 .f32 × Vec F S1024x1 .f32) : Vec F S1x1024x256 .f32 × Vec F S1024x128 .f32 × Vec F S1024x1 .f32 × Vec F S1024x1 .f32 :=
  (VO.read (Elt F) (VO.writes (Elt F) VO.junk (runB V c t h0 h3 p).1),
   VSA.read (Elt F) (VSA.writes (Elt F) VSA.junk (runB V c t h0 h3 p).2.1),
   VSM.read (Elt F) (VSM.writes (Elt F) VSM.junk (runB V c t h0 h3 p).2.2.1),
   VSL.read (Elt F) (VSL.writes (Elt F) VSL.junk (runB V c t h0 h3 p).2.2.2.1))
def stC (c : Dev nD) (t : Fin cfg1.N) (h0 : ¬ t.val % 4 = 0) (h3 : t.val % 4 = 3) (p : Vec F S1024x128 .f32 × Vec F S1024x1 .f32 × Vec F S1024x1 .f32) : Vec F S1x1024x256 .f32 × Vec F S1024x128 .f32 × Vec F S1024x1 .f32 × Vec F S1024x1 .f32 :=
  (VO.read (Elt F) (VO.writes (Elt F) VO.junk (runC V c t h0 h3 p).1),
   VSA.read (Elt F) (VSA.writes (Elt F) VSA.junk (runC V c t h0 h3 p).2.1),
   VSM.read (Elt F) (VSM.writes (Elt F) VSM.junk (runC V c t h0 h3 p).2.2.1),
   VSL.read (Elt F) (VSL.writes (Elt F) VSL.junk (runC V c t h0 h3 p).2.2.2.1))

/-! ## What the buffers hold after each point -/

/-- THE RECURSION over grid positions. -/
def outsAt (c : Dev nD) : (n : ℕ) → n < cfg1.N → Vec F S1x1024x256 .f32 × Vec F S1024x128 .f32 × Vec F S1024x1 .f32 × Vec F S1024x1 .f32
  | 0, hn => stA V c ⟨0, hn⟩ (Nat.zero_mod _)
  | n + 1, hn =>
    if h0 : (n + 1) % 4 = 0 then stA V c ⟨n + 1, hn⟩ h0
    else if h3 : (n + 1) % 4 = 3 then stC V c ⟨n + 1, hn⟩ h0 h3 (outsAt c n (Nat.lt_of_succ_lt hn)).2
    else stB V c ⟨n + 1, hn⟩ h0 h3 (outsAt c n (Nat.lt_of_succ_lt hn)).2

theorem outsAt_A (c : Dev nD) (t : Fin cfg1.N) (h0 : t.val % 4 = 0) : outsAt V c t.val t.isLt = stA V c t h0 := by
  obtain ⟨n, hn⟩ := t
  cases n with
  | zero => rfl
  | succ n => exact dif_pos h0

theorem outsAt_B (c : Dev nD) (t : Fin cfg1.N) (h0 : ¬ t.val % 4 = 0) (h3 : ¬ t.val % 4 = 3) :
    outsAt V c t.val t.isLt = stB V c t h0 h3 (outsAt V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h3).trans rfl)

theorem outsAt_C (c : Dev nD) (t : Fin cfg1.N) (h0 : ¬ t.val % 4 = 0) (h3 : t.val % 4 = 3) :
    outsAt V c t.val t.isLt = stC V c t h0 h3 (outsAt V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h3).trans rfl)

/-- The launch's invariant before position `n`: before the first point the class's (every scratch buffer at anything);
    afterwards the other launch's staging buffers at anything, the three scratch buffers at what the point before left,
    and the random-number register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scA fullShare (outsAt V c n hn).2.1 ∗ owns (c : Thread nD τ) scM fullShare (outsAt V c n hn).2.2.1 ∗ owns (c : Thread nD τ) scL fullShare (outsAt V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scA fullShare (outsAt V c n hn).2.1 ∗ owns (c : Thread nD τ) scM fullShare (outsAt V c n hn).2.2.1 ∗ owns (c : Thread nD τ) scL fullShare (outsAt V c n hn).2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scA fullShare (outsAt V c (n - 1) (by omega)).2.1 ∗ owns (c : Thread nD τ) scM fullShare (outsAt V c (n - 1) (by omega)).2.2.1 ∗ owns (c : Thread nD τ) scL fullShare (outsAt V c (n - 1) (by omega)).2.2.2) ∗ (∃ r, prngReg c r)) := by
  cases n with
  | zero => exact absurd rfl hz
  | succ n => rfl

/-! ## The launch's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

/-- An input window is never idle: the body hands its buffer back at its block. -/
theorem liveAt_0 : ∀ t : Fin cfg1.N, cfg1.idle 0 (grid1.coords t) = false := by decide +kernel
theorem leaves_in_0 (c : Dev nD) (t : Fin cfg1.N) : (dat V c).leavesExact 0 t = owns (c : Thread nD τ) (ms_0 t) fullShare (iblk V c 0 t) := by
  unfold Dat.leavesExact; rw [liveAt_0 t, after_0]
theorem liveAt_1 : ∀ t : Fin cfg1.N, cfg1.idle 1 (grid1.coords t) = false := by decide +kernel
theorem leaves_in_1 (c : Dev nD) (t : Fin cfg1.N) : (dat V c).leavesExact 1 t = owns (c : Thread nD τ) (ms_1 t) fullShare (iblk V c 1 t) := by
  unfold Dat.leavesExact; rw [liveAt_1 t, after_1]
theorem liveAt_2 : ∀ t : Fin cfg1.N, cfg1.idle 2 (grid1.coords t) = false := by decide +kernel
theorem leaves_in_2 (c : Dev nD) (t : Fin cfg1.N) : (dat V c).leavesExact 2 t = owns (c : Thread nD τ) (ms_2 t) fullShare (iblk V c 2 t) := by
  unfold Dat.leavesExact; rw [liveAt_2 t, after_2]
theorem liveAt_3 : ∀ t : Fin cfg1.N, cfg1.idle 3 (grid1.coords t) = false := by decide +kernel
theorem leaves_in_3 (c : Dev nD) (t : Fin cfg1.N) : (dat V c).leavesExact 3 t = owns (c : Thread nD τ) (ms_3 t) fullShare (iblk V c 3 t) := by
  unfold Dat.leavesExact; rw [liveAt_3 t, after_3]
theorem liveAt_4 : ∀ t : Fin cfg1.N, cfg1.idle 4 (grid1.coords t) = false := by decide +kernel
theorem leaves_in_4 (c : Dev nD) (t : Fin cfg1.N) : (dat V c).leavesExact 4 t = owns (c : Thread nD τ) (ms_4 t) fullShare (iblk V c 4 t) := by
  unfold Dat.leavesExact; rw [liveAt_4 t, after_4]
theorem liveAt_5 : ∀ t : Fin cfg1.N, cfg1.idle 5 (grid1.coords t) = false := by decide +kernel
theorem leaves_in_5 (c : Dev nD) (t : Fin cfg1.N) : (dat V c).leavesExact 5 t = owns (c : Thread nD τ) (ms_5 t) fullShare (iblk V c 5 t) := by
  unfold Dat.leavesExact; rw [liveAt_5 t, after_5]

theorem leaves_out_6 (c : Dev nD) (t : Fin cfg1.N) (h3 : t.val % 4 = 3) : (dat V c).leavesExact 6 t = owns (c : Thread nD τ) (ms_6 t) fullShare ((dat V c).after 6 t) := by
  unfold Dat.leavesExact; rw [liveAt_6 t ((hcond1 t).mpr h3)]

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
/-- The body at any point: the inputs' buffers hold their blocks; the position's residue mod 4 says which case it is in;
    the invariant hands the body the scratch buffers at what the point before left (at anything at a first point) and takes
    them back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_in_0, leaves_in_1, leaves_in_2, leaves_in_3, leaves_in_4, leaves_in_5]
  by_cases h0 : t.val % 4 = 0
  · rw [Dat.leavesExact_idle (dat V c) 6 t (idleAt_6 t (fun h => not3_of_0 h0 ((hcond1 t).mp h))) (noFlush_6 t (fun h => not3_of_0 h0 ((hcond1 t).mp h)))]
    rw [outsAt_A V c t h0]
    unfold stA; (try dsimp only)
    by_cases hz : t.val = 0
    ·
          rw [PhiS_castSucc V c t, PhiS_zero V c _ _ hz, PhiA_eq]
          iintro ⟨⟨⟨HO0, HO1, HO2, HO3, HO4, HO5, HO6, HO7, HO8, HO9, HSA, HSM, HSL⟩, Hg⟩, Ho, ⟨%d0, H0⟩, ⟨%d1, H1⟩, ⟨%d2, H2⟩, ⟨%d3, H3⟩, ⟨%d4, H4⟩, ⟨%d5, H5⟩, ⟨%d6, H6⟩⟩
          iapply ((runA V c t h0).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HSA]; · iexact HSA
          isplitl [HSM]; · iexact HSM
          isplitl [HSL]; · iexact HSL
          iintro ⟨H0, H1, H2, H3, H4, H5, H6, ⟨%esA, HSA⟩, ⟨%esM, HSM⟩, ⟨%esL, HSL⟩⟩
          isplitl [HO0 HO1 HO2 HO3 HO4 HO5 HO6 HO7 HO8 HO9 HSA HSM HSL Hg]
          · isplitl [HO0 HO1 HO2 HO3 HO4 HO5 HO6 HO7 HO8 HO9 HSA HSM HSL]
            · isplitl [HO0]; · iexact HO0
              isplitl [HO1]; · iexact HO1
              isplitl [HO2]; · iexact HO2
              isplitl [HO3]; · iexact HO3
              isplitl [HO4]; · iexact HO4
              isplitl [HO5]; · iexact HO5
              isplitl [HO6]; · iexact HO6
              isplitl [HO7]; · iexact HO7
              isplitl [HO8]; · iexact HO8
              isplitl [HO9]; · iexact HO9
              isplitl [HSA]
              · unfold owns; iexists _; isplitr
                swap; · iexact HSA
                ipureintro; exact View.read_writes_of_cover _ _ _ _ _ (scover_A_A V c t h0)
              isplitl [HSM]
              · unfold owns; iexists _; isplitr
                swap; · iexact HSM
                ipureintro; exact View.read_writes_of_cover _ _ _ _ _ (scover_A_M V c t h0)
              unfold owns; iexists _; isplitr
              swap; · iexact HSL
              ipureintro; exact View.read_writes_of_cover _ _ _ _ _ (scover_A_L V c t h0)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6
    ·
          rw [PhiS_castSucc V c t, PhiS_pos V c _ _ hz]
          iintro ⟨⟨⟨HO0, HO1, HO2, HO3, HO4, HO5, HO6, HO7, HO8, HO9, HSA, HSM, HSL⟩, Hg⟩, Ho, ⟨%d0, H0⟩, ⟨%d1, H1⟩, ⟨%d2, H2⟩, ⟨%d3, H3⟩, ⟨%d4, H4⟩, ⟨%d5, H5⟩, ⟨%d6, H6⟩⟩
          iapply ((runA V c t h0).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HSA]; · iexists _; iexact HSA
          isplitl [HSM]; · iexists _; iexact HSM
          isplitl [HSL]; · iexists _; iexact HSL
          iintro ⟨H0, H1, H2, H3, H4, H5, H6, ⟨%esA, HSA⟩, ⟨%esM, HSM⟩, ⟨%esL, HSL⟩⟩
          isplitl [HO0 HO1 HO2 HO3 HO4 HO5 HO6 HO7 HO8 HO9 HSA HSM HSL Hg]
          · isplitl [HO0 HO1 HO2 HO3 HO4 HO5 HO6 HO7 HO8 HO9 HSA HSM HSL]
            · isplitl [HO0]; · iexact HO0
              isplitl [HO1]; · iexact HO1
              isplitl [HO2]; · iexact HO2
              isplitl [HO3]; · iexact HO3
              isplitl [HO4]; · iexact HO4
              isplitl [HO5]; · iexact HO5
              isplitl [HO6]; · iexact HO6
              isplitl [HO7]; · iexact HO7
              isplitl [HO8]; · iexact HO8
              isplitl [HO9]; · iexact HO9
              isplitl [HSA]
              · unfold owns; iexists _; isplitr
                swap; · iexact HSA
                ipureintro; exact View.read_writes_of_cover _ _ _ _ _ (scover_A_A V c t h0)
              isplitl [HSM]
              · unfold owns; iexists _; isplitr
                swap; · iexact HSM
                ipureintro; exact View.read_writes_of_cover _ _ _ _ _ (scover_A_M V c t h0)
              unfold owns; iexists _; isplitr
              swap; · iexact HSL
              ipureintro; exact View.read_writes_of_cover _ _ _ _ _ (scover_A_L V c t h0)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6
  · have hz : t.val ≠ 0 := fun e => h0 (by rw [e])
    by_cases h3 : t.val % 4 = 3
    · rw [leaves_out_6 V c t h3, after_6]
      rw [outsAt_C V c t h0 h3]
      unfold stC; (try dsimp only)
      ·
          rw [PhiS_castSucc V c t, PhiS_pos V c _ _ hz]
          iintro ⟨⟨⟨HO0, HO1, HO2, HO3, HO4, HO5, HO6, HO7, HO8, HO9, HSA, HSM, HSL⟩, Hg⟩, Ho, ⟨%d0, H0⟩, ⟨%d1, H1⟩, ⟨%d2, H2⟩, ⟨%d3, H3⟩, ⟨%d4, H4⟩, ⟨%d5, H5⟩, ⟨%d6, H6⟩⟩
          iapply ((runC V c t h0 h3 (outsAt V c (t.val - 1) (Nat.lt_of_le_of_lt (Nat.sub_le _ _) t.isLt)).2).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HSA]; · iexact HSA
          isplitl [HSM]; · iexact HSM
          isplitl [HSL]; · iexact HSL
          iintro ⟨H0, H1, H2, H3, H4, H5, ⟨%e6, H6⟩, ⟨%esA, HSA⟩, ⟨%esM, HSM⟩, ⟨%esL, HSL⟩⟩
          isplitl [HO0 HO1 HO2 HO3 HO4 HO5 HO6 HO7 HO8 HO9 HSA HSM HSL Hg]
          · isplitl [HO0 HO1 HO2 HO3 HO4 HO5 HO6 HO7 HO8 HO9 HSA HSM HSL]
            · isplitl [HO0]; · iexact HO0
              isplitl [HO1]; · iexact HO1
              isplitl [HO2]; · iexact HO2
              isplitl [HO3]; · iexact HO3
              isplitl [HO4]; · iexact HO4
              isplitl [HO5]; · iexact HO5
              isplitl [HO6]; · iexact HO6
              isplitl [HO7]; · iexact HO7
              isplitl [HO8]; · iexact HO8
              isplitl [HO9]; · iexact HO9
              isplitl [HSA]
              · unfold owns; iexists _; isplitr
                swap; · iexact HSA
                ipureintro; exact View.read_writes_of_cover _ _ _ _ _ (scover_C_A V c t h0 h3 _)
              isplitl [HSM]
              · unfold owns; iexists _; isplitr
                swap; · iexact HSM
                ipureintro; exact View.read_writes_of_cover _ _ _ _ _ (scover_C_M V c t h0 h3 _)
              unfold owns; iexists _; isplitr
              swap; · iexact HSL
              ipureintro; exact View.read_writes_of_cover _ _ _ _ _ (scover_C_L V c t h0 h3 _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover_C_6 V c t h0 h3 _)
    · rw [Dat.leavesExact_idle (dat V c) 6 t (idleAt_6 t (fun h => h3 ((hcond1 t).mp h))) (noFlush_6 t (fun h => h3 ((hcond1 t).mp h)))]
      rw [outsAt_B V c t h0 h3]
      unfold stB; (try dsimp only)
      ·
          rw [PhiS_castSucc V c t, PhiS_pos V c _ _ hz]
          iintro ⟨⟨⟨HO0, HO1, HO2, HO3, HO4, HO5, HO6, HO7, HO8, HO9, HSA, HSM, HSL⟩, Hg⟩, Ho, ⟨%d0, H0⟩, ⟨%d1, H1⟩, ⟨%d2, H2⟩, ⟨%d3, H3⟩, ⟨%d4, H4⟩, ⟨%d5, H5⟩, ⟨%d6, H6⟩⟩
          iapply ((runB V c t h0 h3 (outsAt V c (t.val - 1) (Nat.lt_of_le_of_lt (Nat.sub_le _ _) t.isLt)).2).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HSA]; · iexact HSA
          isplitl [HSM]; · iexact HSM
          isplitl [HSL]; · iexact HSL
          iintro ⟨H0, H1, H2, H3, H4, H5, H6, ⟨%esA, HSA⟩, ⟨%esM, HSM⟩, ⟨%esL, HSL⟩⟩
          isplitl [HO0 HO1 HO2 HO3 HO4 HO5 HO6 HO7 HO8 HO9 HSA HSM HSL Hg]
          · isplitl [HO0 HO1 HO2 HO3 HO4 HO5 HO6 HO7 HO8 HO9 HSA HSM HSL]
            · isplitl [HO0]; · iexact HO0
              isplitl [HO1]; · iexact HO1
              isplitl [HO2]; · iexact HO2
              isplitl [HO3]; · iexact HO3
              isplitl [HO4]; · iexact HO4
              isplitl [HO5]; · iexact HO5
              isplitl [HO6]; · iexact HO6
              isplitl [HO7]; · iexact HO7
              isplitl [HO8]; · iexact HO8
              isplitl [HO9]; · iexact HO9
              isplitl [HSA]
              · unfold owns; iexists _; isplitr
                swap; · iexact HSA
                ipureintro; exact View.read_writes_of_cover _ _ _ _ _ (scover_B_A V c t h0 h3 _)
              isplitl [HSM]
              · unfold owns; iexists _; isplitr
                swap; · iexact HSM
                ipureintro; exact View.read_writes_of_cover _ _ _ _ _ (scover_B_M V c t h0 h3 _)
              unfold owns; iexists _; isplitr
              swap; · iexact HSL
              ipureintro; exact View.read_writes_of_cover _ _ _ _ _ (scover_B_L V c t h0 h3 _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA_eq]
  iintro ⟨⟨HO0, HO1, HO2, HO3, HO4, HO5, HO6, HO7, HO8, HO9, HSA, HSM, HSL⟩, Hg⟩
  isplitl [HO0 HO1 HO2 HO3 HO4 HO5 HO6 HO7 HO8 HO9 HSA HSM HSL]
  · isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HO8]; · iexact HO8
    isplitl [HO9]; · iexact HO9
    isplitl [HSA]; · iexists _; iexact HSA
    isplitl [HSM]; · iexists _; iexact HSM
    iexists _; iexact HSL
  iexact Hg

end Cert.Kernel.Attn

end
-- ==== Proof.KernelRunBits.lean ====
/-
  The whole program: the launch, three stretches of host operations and the two kernel launches between them.

  The buffers' contents at each boundary are a fold from the launch memory: a host stretch applies its operations; a
  kernel launch leaves each of its arrays at what its write-backs make of it and every other buffer as it found it
  (`W0` … `W5`). Every weakly fair execution terminates with every unscoped buffer at the last fold (`run_all`); the
  argument arrays are written by no host operation and by neither launch, so they end as launched (`frame`).
-/
import proofs.«133523_j46909632807722_2_alg».proof.Proof.ProjBodyBits
import proofs.«133523_j46909632807722_2_alg».proof.Proof.AttnBodyBits
import proofs.«133523_j46909632807722_2_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Proj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (Attn.dat (V3 m ρ) c).arrAt w cfg1.N
theorem W4_arr (c : Dev nD) (w : Fin cfg1.W) :
    W4 m ρ c (Proc.devRef .tc (Pipeline.arrRef spec1 w)) = (Attn.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Attn.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-! ### The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := (W4_arr m ρ c 4).trans (((Attn.dat (V3 m ρ) c).arrAt_in 4 rfl _).trans (Attn.A_eq (V3 m ρ) c 4))
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Attn.dat (V3 m ρ) c
abbrev 𝒱₀ : Variants := Variants.none
abbrev L : GSem nD τ sig → Finset Unit := fun _ => ∅
abbrev lv : GSem nD τ sig → Unit → ℕ := fun _ _ => 0
/-- What rides beside the buffers through every segment: the random-number register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- Launch 0 over the thread state: entered from every unscoped buffer at its entry contents, left with its arrays at
    what its write-backs leave and every other buffer as entered; the random-number register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at its entry contents, left with its arrays at
    what its write-backs leave and every other buffer as entered; the random-number register into the class invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Attn.hin (V3 m ρ) c)
    unfold Pipeline.ΦA
    iintro ⟨Hp, -, Hr⟩
    isplitl [Hr]; · iexact Hr
    iexact Hp
  hout c := by
    rw [Pipeline.ownSems0_none]
    refine BIBase.Entails.trans (Attn.hout (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution terminates, nothing faulting, with every unscoped buffer at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c)⟩) (run_all m ρ)

end Cert.Kernel.Run

end
-- ==== Proof.ProjBodyIdeal.lean ====
/-
  The projection launch, at any contents `V` of the buffers when the launch is entered.

  Its grid has 8 points; point `t` reads the 2048 pixel rows `2048·t …` of the flattened image, the whole
  concatenated weight matrix and the whole concatenated bias row, forms ONE product [2048, 256]·[256, 384] plus the
  bias, and stores its three column slices [0,128), [128,256), [256,384) whole into the three output blocks (the k, q
  and v projections of those rows). So after the body each output's staging buffer holds one slice of that product
  (`outK`, `outQ`, `outV`: a single whole-block piece each), the three inputs' buffers are as the fetch left them, and
  nothing else is touched: the body's triple (`sound_kernel`), the proof data over `V` (`dat`) and the obligation at a
  generic point (`body_obligation`).
-/
import proofs.«133523_j46909632807722_2_alg».proof.Proof.Gen.KernelIdeal.Launch
import proofs.«133523_j46909632807722_2_alg».proof.Proof.Gen.KernelIdeal.Skeleton
import proofs.«133523_j46909632807722_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store is of a whole buffer -/

abbrev rX : Rect S2048x256 := Rect.unit (s := S2048x256) ![0, 0] S2048x256.size inb_S2048x256_S2048x256_0_0
abbrev rW : Rect S256x384 := Rect.unit (s := S256x384) ![0, 0] S256x384.size inb_S256x384_S256x384_0_0
abbrev rB : Rect S1x384 := Rect.unit (s := S1x384) ![0, 0] S1x384.size inb_S1x384_S1x384_0_0
abbrev rO : Rect S2048x128 := Rect.unit (s := S2048x128) ![0, 0] S2048x128.size inb_S2048x128_S2048x128_0_0

/-! ## What the body leaves in each output's buffer -/

/-- The k slice: columns [0, 128) of the product plus bias. -/
def outK (x : Vec F S2048x256 .f32) (w : Vec F S256x384 .f32) (b : Vec F S1x384 .f32) : Vec F S2048x128 .bf16 :=
  View.canon [⟨rO, k0_pay2 (View.ld x rX) (View.ld w rW) (View.ld b rB)⟩]
/-- The q slice: columns [128, 256). -/
def outQ (x : Vec F S2048x256 .f32) (w : Vec F S256x384 .f32) (b : Vec F S1x384 .f32) : Vec F S2048x128 .bf16 :=
  View.canon [⟨rO, k0_pay3 (View.ld x rX) (View.ld w rW) (View.ld b rB)⟩]
/-- The v slice: columns [256, 384). -/
def outV (x : Vec F S2048x256 .f32) (w : Vec F S256x384 .f32) (b : Vec F S1x384 .f32) : Vec F S2048x128 .bf16 :=
  View.canon [⟨rO, k0_pay4 (View.ld x rX) (View.ld w rW) (View.ld b rB)⟩]

/-- One whole-block store covers the block. -/
theorem cover (p : Vec F S2048x128 .bf16) (y : S2048x128.Idx) :
    ∃ pc ∈ ([⟨rO, p⟩] : List (View.Piece (Elt F) S2048x128 .bf16)), y ∈ pc.1.set :=
  View.cover_of_tiled [⟨rO, p⟩] S2048x128.size (by rfl) y

/-! ## The body's triple -/

set_option maxHeartbeats 4000000 in
/-- On whole staging buffers — the inputs' at contents `x`, `w`, `b`, the outputs' at anything — the body runs to its
    return with the inputs' buffers as they were and the outputs' at the three slices. -/
theorem sound_kernel (c : Dev nD) (E : Set ℕ) (i : grid0.Coords)
    (arg1 : Memref sig .tc .vmem S2048x256 .f32) (harg1 : arg1.IsWhole) (arg2 : Memref sig .tc .vmem S256x384 .f32) (harg2 : arg2.IsWhole)
    (arg3 : Memref sig .tc .vmem S1x384 .f32) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S2048x128 .bf16) (harg6 : arg6.IsWhole)
    (x : Vec F S2048x256 .f32) (w : Vec F S256x384 .f32) (b : Vec F S1x384 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (outK x w b) ∗ owns (c : Thread nD τ) arg5 fullShare (outQ x w b)
            ∗ owns (c : Thread nD τ) arg6 fullShare (outV x w b)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover _)
  isplitl [H5]
  · iexists _; isplitr
    swap; · iexact H5
    ipureintro
    exact View.read_writes_eq_canon _ _ _ (cover _)
  iexists _; isplitr
  swap; · iexact H6
  ipureintro
  exact View.read_writes_eq_canon _ _ _ (cover _)

/-! ## The launch's proof data -/

/-- The proof data on core `c`: the arrays as the launch finds them; after the body at point `t` each input's buffer at
    its block and each output's at its slice of the product of the point's blocks; the class invariant (nothing scoped is
    touched); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outK (iblk V c 0 t) (iblk V c 1 t) (iblk V c 2 t)
    | ⟨4, _⟩ => outQ (iblk V c 0 t) (iblk V c 1 t) (iblk V c 2 t)
    | ⟨5, _⟩ => outV (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outK (iblk V c 0 t) (iblk V c 1 t) (iblk V c 2 t) := by dsimp only [dat]
theorem after_4 (c : Dev nD) (t : Fin cfg0.N) : (dat V c).after 4 t = outQ (iblk V c 0 t) (iblk V c 1 t) (iblk V c 2 t) := by dsimp only [dat]
theorem after_5 (c : Dev nD) (t : Fin cfg0.N) : (dat V c).after 5 t = outV (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.AttnRunsIdeal.lean ====
/-
  The attention launch: what its three control cases share.

  The grid is (image, block of 1024 query rows, block of 1024 key columns), 4·4·4 = 64 points in row-major order, so
  the column-block coordinate of point `t` is `t mod 4`. The body's first conditional (store the initial running
  maximum -∞, normaliser 0 and weighted sum 0 into the three scratch buffers) is taken exactly at column block 0; its
  second (divide, project, add the residual and store the output block) exactly at column block 3. Hence three cases:
  A (column block 0), B (column blocks 1 and 2), C (column block 3). The output window is stored only in case C; at the
  other points it is idle and not written back. The three scratch buffers are the kernel's own, passed beside the
  windows, and carry the running state from one point to the next.
-/
import proofs.«133523_j46909632807722_2_alg».proof.Proof.Gen.KernelIdeal.Launch
import proofs.«133523_j46909632807722_2_alg».proof.Proof.Gen.KernelIdeal.Skeleton
import proofs.«133523_j46909632807722_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's condition, from the grid coordinates: the column-block coordinate is 0. -/
abbrev cond0 (i : grid1.Coords) : Prop := (Scalar.cmpi .ne (Scalar.extui (Scalar.cmpi .eq (BitVec.ofNat 32 (i 2).val) 0#32)) 0#32) = 1#1
theorem hcond0 : ∀ t : Fin cfg1.N, cond0 (grid1.coords t) ↔ t.val % 4 = 0 :=
  (by decide +kernel : ∀ t : Fin grid1.N, cond0 (grid1.coords t) ↔ t.val % 4 = 0)

/-- The second conditional's condition: the column-block coordinate is 3. -/
abbrev cond1 (i : grid1.Coords) : Prop := k1_cond2 i = 1#1
theorem hcond1 : ∀ t : Fin cfg1.N, cond1 (grid1.coords t) ↔ t.val % 4 = 3 :=
  (by decide +kernel : ∀ t : Fin grid1.N, cond1 (grid1.coords t) ↔ t.val % 4 = 3)

/-! ## Where the output window is idle -/

theorem liveAt_in : ∀ (w : Fin 6) (t : Fin cfg1.N), cfg1.idle (w.castSucc) (grid1.coords t) = false := by decide +kernel
theorem idleAt_6 : ∀ t : Fin cfg1.N, ¬cond1 (grid1.coords t) → cfg1.idle 6 (grid1.coords t) = true := by decide +kernel
theorem noFlush_6 : ∀ t : Fin cfg1.N, ¬cond1 (grid1.coords t) → (cfg1.win 6).flush t = false := by decide +kernel
theorem liveAt_6 : ∀ t : Fin cfg1.N, cond1 (grid1.coords t) → cfg1.idle 6 (grid1.coords t) = false := by decide +kernel

/-! ## The staging and scratch buffers -/

/-- One staging buffer of the output window, through which its contents are stated. -/
abbrev VO : View sig .tc .vmem S1x1024x256 .f32 := (Memref.whole cc1_stg6_0 : Memref sig .tc .vmem S1x1024x256 .f32).view
abbrev ms_0 (t : Fin cfg1.N) : Memref sig .tc .vmem S1x1024x256 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x1024x128 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x1024x128 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x1024x128 .bf16 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S128x256 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1x256 .f32 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S1x1024x256 .f32 := win1_6.stage (cfg1.slots t 6)
abbrev hs_6 (t : Fin cfg1.N) : (ms_6 t).IsWhole := hstage1_6 ((cfg1.slots t 6).cast nbuf1_6)
/-- The scratch buffers: the running weighted sum, the running maximum, the running normaliser. -/
abbrev scA : Memref sig .tc .vmem S1024x128 .f32 := Memref.whole cc1_scratch0
abbrev scM : Memref sig .tc .vmem S1024x1 .f32 := Memref.whole cc1_scratch1
abbrev scL : Memref sig .tc .vmem S1024x1 .f32 := Memref.whole cc1_scratch2
abbrev VSA : View sig .tc .vmem S1024x128 .f32 := scA.view
abbrev VSM : View sig .tc .vmem S1024x1 .f32 := scM.view
abbrev VSL : View sig .tc .vmem S1024x1 .f32 := scL.view

/-- The other launch's staging buffers: scoped, untouched here, each held whole at something. -/
abbrev Others (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant with the scratch buffers as memrefs owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scA fullShare d) ∗ (∃ d, owns (c : Thread nD τ) scM fullShare d) ∗ (∃ d, owns (c : Thread nD τ) scL fullShare d)) ∗ (∃ r, prngReg c r)) := by
  unfold Pipeline.ΦA; rw [scopedRest1_eq]; simp only [scA, scM, scL, owns_whole]; try rfl

end Cert.KernelIdeal.Attn

end
-- ==== Proof.AttnRunAIdeal.lean ====
/-
  The attention body run whole in case A (column block 0: the scratch buffers are first stored at their initial values, then updated by the block; the output block is not stored).
  The witness is what the run's stores leave in each buffer, as lists of pieces (last first).
-/
import proofs.«133523_j46909632807722_2_alg».proof.Proof.AttnRunsIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the six inputs' at their contents, the idle output's at contents handed back untouched, the scratch buffers at anything — the body runs
    to its return holding the inputs' as they were, the output's untouched, and each scratch buffer with its pieces written. -/
noncomputable def kernelRun_A (c : Dev nD) (i : grid1.Coords) (arg3 : Memref sig .tc .vmem S1x1024x256 .f32) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S128x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x1 .f32) (harg12 : arg12.IsWhole) (hc0 : cond0 i) (hc1 : ¬cond1 i)
    (x0 : Vec F S1x1024x256 .f32) (x1 : Vec F S1x1024x128 .bf16) (x2 : Vec F S1x1024x128 .bf16) (x3 : Vec F S1x1024x128 .bf16) (x4 : Vec F S128x256 .f32) (x5 : Vec F S1x256 .f32) :
    Σ' (L6 : List (View.Piece (Elt F) S1x1024x256 .f32)) (LSA : List (View.Piece (Elt F) S1024x128 .f32)) (LSM : List (View.Piece (Elt F) S1024x1 .f32)), { LSL : List (View.Piece (Elt F) S1024x1 .f32) //
      ∀ (xi6 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LSA) ∗ (∃ f, arg11.view.loc (c : Thread nD τ) ↦[arg11.view.set]{fullShare} arg11.view.writes (Elt F) f LSM) ∗ (∃ f, arg12.view.loc (c : Thread nD τ) ↦[arg12.view.set]{fullShare} arg12.view.writes (Elt F) f LSL)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dsA, %fsA, -, HSA⟩, ⟨%dsM, %fsM, -, HSM⟩, ⟨%dsL, %fsL, -, HSL⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HSA]; · iexists _; iexact HSA
    isplitl [HSM]; · iexists _; iexact HSM
    iexists _; iexact HSL

end Cert.KernelIdeal.Attn

end
-- ==== Proof.AttnRunBIdeal.lean ====
/-
  The attention body run whole in case B (column blocks 1 and 2: the scratch buffers are updated by the block from what the point before left; the output block is not stored).
  The witness is what the run's stores leave in each buffer, as lists of pieces (last first).
-/
import proofs.«133523_j46909632807722_2_alg».proof.Proof.AttnRunsIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the six inputs' at their contents, the idle output's at contents handed back untouched, the scratch buffers at the contents the point before left — the body runs
    to its return holding the inputs' as they were, the output's untouched, and each scratch buffer with its pieces written. -/
noncomputable def kernelRun_B (c : Dev nD) (i : grid1.Coords) (arg3 : Memref sig .tc .vmem S1x1024x256 .f32) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S128x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x1 .f32) (harg12 : arg12.IsWhole) (hc0 : ¬cond0 i) (hc1 : ¬cond1 i)
    (x0 : Vec F S1x1024x256 .f32) (x1 : Vec F S1x1024x128 .bf16) (x2 : Vec F S1x1024x128 .bf16) (x3 : Vec F S1x1024x128 .bf16) (x4 : Vec F S128x256 .f32) (x5 : Vec F S1x256 .f32) (xsA : Vec F S1024x128 .f32) (xsM : Vec F S1024x1 .f32) (xsL : Vec F S1024x1 .f32) :
    Σ' (L6 : List (View.Piece (Elt F) S1x1024x256 .f32)) (LSA : List (View.Piece (Elt F) S1024x128 .f32)) (LSM : List (View.Piece (Elt F) S1024x1 .f32)), { LSL : List (View.Piece (Elt F) S1024x1 .f32) //
      ∀ (xi6 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xsA ∗ owns (c : Thread nD τ) arg11 fullShare xsM ∗ owns (c : Thread nD τ) arg12 fullShare xsL
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LSA) ∗ (∃ f, arg11.view.loc (c : Thread nD τ) ↦[arg11.view.set]{fullShare} arg11.view.writes (Elt F) f LSM) ∗ (∃ f, arg12.view.loc (c : Thread nD τ) ↦[arg12.view.set]{fullShare} arg12.view.writes (Elt F) f LSL)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fsA, %hfsA, HSA⟩, ⟨%fsM, %hfsM, HSM⟩, ⟨%fsL, %hfsL, HSL⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfsA; obtain rfl := harg11.eq_unread hfsM; obtain rfl := harg12.eq_unread hfsL
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HSA]; · iexists _; iexact HSA
    isplitl [HSM]; · iexists _; iexact HSM
    iexists _; iexact HSL

end Cert.KernelIdeal.Attn

end
-- ==== Proof.AttnRunCIdeal.lean ====
/-
  The attention body run whole in case C (column block 3: the scratch buffers are updated by the block from what the point before left, and the output block is stored from them).
  The witness is what the run's stores leave in each buffer, as lists of pieces (last first).
-/
import proofs.«133523_j46909632807722_2_alg».proof.Proof.AttnRunsIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the six inputs' at their contents, the output's at anything, the scratch buffers at the contents the point before left — the body runs
    to its return holding the inputs' as they were, the output's with its pieces written, and each scratch buffer with its pieces written. -/
noncomputable def kernelRun_C (c : Dev nD) (i : grid1.Coords) (arg3 : Memref sig .tc .vmem S1x1024x256 .f32) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S128x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x1 .f32) (harg12 : arg12.IsWhole) (hc0 : ¬cond0 i) (hc1 : cond1 i)
    (x0 : Vec F S1x1024x256 .f32) (x1 : Vec F S1x1024x128 .bf16) (x2 : Vec F S1x1024x128 .bf16) (x3 : Vec F S1x1024x128 .bf16) (x4 : Vec F S128x256 .f32) (x5 : Vec F S1x256 .f32) (xsA : Vec F S1024x128 .f32) (xsM : Vec F S1024x1 .f32) (xsL : Vec F S1024x1 .f32) :
    Σ' (L6 : List (View.Piece (Elt F) S1x1024x256 .f32)) (LSA : List (View.Piece (Elt F) S1024x128 .f32)) (LSM : List (View.Piece (Elt F) S1024x1 .f32)), { LSL : List (View.Piece (Elt F) S1024x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xsA ∗ owns (c : Thread nD τ) arg11 fullShare xsM ∗ owns (c : Thread nD τ) arg12 fullShare xsL
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LSA) ∗ (∃ f, arg11.view.loc (c : Thread nD τ) ↦[arg11.view.set]{fullShare} arg11.view.writes (Elt F) f LSM) ∗ (∃ f, arg12.view.loc (c : Thread nD τ) ↦[arg12.view.set]{fullShare} arg12.view.writes (Elt F) f LSL)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fsA, %hfsA, HSA⟩, ⟨%fsM, %hfsM, HSM⟩, ⟨%fsL, %hfsL, HSL⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfsA; obtain rfl := harg11.eq_unread hfsM; obtain rfl := harg12.eq_unread hfsL
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HSA]; · iexists _; iexact HSA
    isplitl [HSM]; · iexists _; iexact HSM
    iexists _; iexact HSL

end Cert.KernelIdeal.Attn

end
-- ==== Proof.AttnBodyIdeal.lean ====
/-
  The attention launch, point by point, at any contents `V` of the buffers when the launch is entered.

  What the three scratch buffers (running weighted sum, running maximum, running normaliser) and the output's staging
  buffer hold after the body at grid position `n` is a recursion over the positions (`outsAt`): at a position in column
  block 0 the case-A run from the point's input blocks alone; at any other position the case-B or case-C run from the
  point's input blocks and the scratch contents the position before left. The launch's invariant between two points
  holds the three scratch buffers at exactly those contents (`PhiS`), which is how the running state of the online
  softmax reaches the next point. The output window is stored only in case C; elsewhere it is idle and handed back.
-/
import proofs.«133523_j46909632807722_2_alg».proof.Proof.AttnRunAIdeal
import proofs.«133523_j46909632807722_2_alg».proof.Proof.AttnRunBIdeal
import proofs.«133523_j46909632807722_2_alg».proof.Proof.AttnRunCIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a grid point -/

theorem not3_of_0 {n : ℕ} (h0 : n % 4 = 0) : ¬ n % 4 = 3 := by omega

/-- Case A at point `t`. -/
abbrev runA (c : Dev nD) (t : Fin cfg1.N) (h0 : t.val % 4 = 0) :=
  kernelRun_A (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) ((hcond0 t).mpr h0) (fun h => not3_of_0 h0 ((hcond1 t).mp h)) (iblk V c 0 t) (iblk V c 1 t) (iblk V c 2 t) (iblk V c 3 t) (iblk V c 4 t) (iblk V c 5 t)
/-- Case B at point `t`, from the scratch contents `p` the point before left. -/
abbrev runB (c : Dev nD) (t : Fin cfg1.N) (h0 : ¬ t.val % 4 = 0) (h3 : ¬ t.val % 4 = 3) (p : Vec F S1024x128 .f32 × Vec F S1024x1 .f32 × Vec F S1024x1 .f32) :=
  kernelRun_B (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) (fun h => h0 ((hcond0 t).mp h)) (fun h => h3 ((hcond1 t).mp h)) (iblk V c 0 t) (iblk V c 1 t) (iblk V c 2 t) (iblk V c 3 t) (iblk V c 4 t) (iblk V c 5 t) p.1 p.2.1 p.2.2
/-- Case C at point `t`, from the scratch contents `p` the point before left. -/
abbrev runC (c : Dev nD) (t : Fin cfg1.N) (h0 : ¬ t.val % 4 = 0) (h3 : t.val % 4 = 3) (p : Vec F S1024x128 .f32 × Vec F S1024x1 .f32 × Vec F S1024x1 .f32) :=
  kernelRun_C (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) (fun h => h0 ((hcond0 t).mp h)) ((hcond1 t).mpr h3) (iblk V c 0 t) (iblk V c 1 t) (iblk V c 2 t) (iblk V c 3 t) (iblk V c 4 t) (iblk V c 5 t) p.1 p.2.1 p.2.2

/-! ## The covers: each scratch buffer is stored whole by every case, the output block by case C -/

theorem scover_A_A (c : Dev nD) (t : Fin cfg1.N) (h0 : t.val % 4 = 0) (y : S1024x128.Idx) : ∃ pc ∈ (runA V c t h0).2.1, y ∈ pc.1.set :=
  View.cover_of_tiledL (runA V c t h0).2.1 S1024x128.size (by sl_kernel_rfl) y
theorem scover_A_M (c : Dev nD) (t : Fin cfg1.N) (h0 : t.val % 4 = 0) (y : S1024x1.Idx) : ∃ pc ∈ (runA V c t h0).2.2.1, y ∈ pc.1.set :=
  View.cover_of_tiledL (runA V c t h0).2.2.1 S1024x1.size (by sl_kernel_rfl) y
theorem scover_A_L (c : Dev nD) (t : Fin cfg1.N) (h0 : t.val % 4 = 0) (y : S1024x1.Idx) : ∃ pc ∈ (runA V c t h0).2.2.2.1, y ∈ pc.1.set :=
  View.cover_of_tiledL (runA V c t h0).2.2.2.1 S1024x1.size (by sl_kernel_rfl) y
theorem scover_B_A (c : Dev nD) (t : Fin cfg1.N) (h0 : ¬ t.val % 4 = 0) (h3 : ¬ t.val % 4 = 3) (p) (y : S1024x128.Idx) : ∃ pc ∈ (runB V c t h0 h3 p).2.1, y ∈ pc.1.set :=
  View.cover_of_tiledL (runB V c t h0 h3 p).2.1 S1024x128.size (by sl_kernel_rfl) y
theorem scover_B_M (c : Dev nD) (t : Fin cfg1.N) (h0 : ¬ t.val % 4 = 0) (h3 : ¬ t.val % 4 = 3) (p) (y : S1024x1.Idx) : ∃ pc ∈ (runB V c t h0 h3 p).2.2.1, y ∈ pc.1.set :=
  View.cover_of_tiledL (runB V c t h0 h3 p).2.2.1 S1024x1.size (by sl_kernel_rfl) y
theorem scover_B_L (c : Dev nD) (t : Fin cfg1.N) (h0 : ¬ t.val % 4 = 0) (h3 : ¬ t.val % 4 = 3) (p) (y : S1024x1.Idx) : ∃ pc ∈ (runB V c t h0 h3 p).2.2.2.1, y ∈ pc.1.set :=
  View.cover_of_tiledL (runB V c t h0 h3 p).2.2.2.1 S1024x1.size (by sl_kernel_rfl) y
theorem scover_C_A (c : Dev nD) (t : Fin cfg1.N) (h0 : ¬ t.val % 4 = 0) (h3 : t.val % 4 = 3) (p) (y : S1024x128.Idx) : ∃ pc ∈ (runC V c t h0 h3 p).2.1, y ∈ pc.1.set :=
  View.cover_of_tiledL (runC V c t h0 h3 p).2.1 S1024x128.size (by sl_kernel_rfl) y
theorem scover_C_M (c : Dev nD) (t : Fin cfg1.N) (h0 : ¬ t.val % 4 = 0) (h3 : t.val % 4 = 3) (p) (y : S1024x1.Idx) : ∃ pc ∈ (runC V c t h0 h3 p).2.2.1, y ∈ pc.1.set :=
  View.cover_of_tiledL (runC V c t h0 h3 p).2.2.1 S1024x1.size (by sl_kernel_rfl) y
theorem scover_C_L (c : Dev nD) (t : Fin cfg1.N) (h0 : ¬ t.val % 4 = 0) (h3 : t.val % 4 = 3) (p) (y : S1024x1.Idx) : ∃ pc ∈ (runC V c t h0 h3 p).2.2.2.1, y ∈ pc.1.set :=
  View.cover_of_tiledL (runC V c t h0 h3 p).2.2.2.1 S1024x1.size (by sl_kernel_rfl) y
theorem cover_C_6 (c : Dev nD) (t : Fin cfg1.N) (h0 : ¬ t.val % 4 = 0) (h3 : t.val % 4 = 3) (p) (y : S1x1024x256.Idx) : ∃ pc ∈ (runC V c t h0 h3 p).1, y ∈ pc.1.set :=
  View.cover_of_tiledL (runC V c t h0 h3 p).1 S1x1024x256.size (by sl_kernel_rfl) y

/-! ## What each case leaves: its pieces read back -/

/-- The four buffers after case A at `t`: the output's (nothing stored: a placeholder nothing consults), then the
    three scratch buffers'. -/
def stA (c : Dev nD) (t : Fin cfg1.N) (h0 : t.val % 4 = 0) : Vec F S1x1024x256 .f32 × Vec F S1024x128 .f32 × Vec F S1024x1 .f32 × Vec F S1024x1 .f32 :=
  (VO.read (Elt F) (VO.writes (Elt F) VO.junk (runA V c t h0).1),
   VSA.read (Elt F) (VSA.writes (Elt F) VSA.junk (runA V c t h0).2.1),
   VSM.read (Elt F) (VSM.writes (Elt F) VSM.junk (runA V c t h0).2.2.1),
   VSL.read (Elt F) (VSL.writes (Elt F) VSL.junk (runA V c t h0).2.2.2.1))
def stB (c : Dev nD) (t : Fin cfg1.N) (h0 : ¬ t.val % 4 = 0) (h3 : ¬ t.val % 4 = 3) (p : Vec F S1024x128 .f32 × Vec F S1024x1 .f32 × Vec F S1024x1 .f32) : Vec F S1x1024x256 .f32 × Vec F S1024x128 .f32 × Vec F S1024x1 .f32 × Vec F S1024x1 .f32 :=
  (VO.read (Elt F) (VO.writes (Elt F) VO.junk (runB V c t h0 h3 p).1),
   VSA.read (Elt F) (VSA.writes (Elt F) VSA.junk (runB V c t h0 h3 p).2.1),
   VSM.read (Elt F) (VSM.writes (Elt F) VSM.junk (runB V c t h0 h3 p).2.2.1),
   VSL.read (Elt F) (VSL.writes (Elt F) VSL.junk (runB V c t h0 h3 p).2.2.2.1))
def stC (c : Dev nD) (t : Fin cfg1.N) (h0 : ¬ t.val % 4 = 0) (h3 : t.val % 4 = 3) (p : Vec F S1024x128 .f32 × Vec F S1024x1 .f32 × Vec F S1024x1 .f32) : Vec F S1x1024x256 .f32 × Vec F S1024x128 .f32 × Vec F S1024x1 .f32 × Vec F S1024x1 .f32 :=
  (VO.read (Elt F) (VO.writes (Elt F) VO.junk (runC V c t h0 h3 p).1),
   VSA.read (Elt F) (VSA.writes (Elt F) VSA.junk (runC V c t h0 h3 p).2.1),
   VSM.read (Elt F) (VSM.writes (Elt F) VSM.junk (runC V c t h0 h3 p).2.2.1),
   VSL.read (Elt F) (VSL.writes (Elt F) VSL.junk (runC V c t h0 h3 p).2.2.2.1))

/-! ## What the buffers hold after each point -/

/-- THE RECURSION over grid positions. -/
def outsAt (c : Dev nD) : (n : ℕ) → n < cfg1.N → Vec F S1x1024x256 .f32 × Vec F S1024x128 .f32 × Vec F S1024x1 .f32 × Vec F S1024x1 .f32
  | 0, hn => stA V c ⟨0, hn⟩ (Nat.zero_mod _)
  | n + 1, hn =>
    if h0 : (n + 1) % 4 = 0 then stA V c ⟨n + 1, hn⟩ h0
    else if h3 : (n + 1) % 4 = 3 then stC V c ⟨n + 1, hn⟩ h0 h3 (outsAt c n (Nat.lt_of_succ_lt hn)).2
    else stB V c ⟨n + 1, hn⟩ h0 h3 (outsAt c n (Nat.lt_of_succ_lt hn)).2

theorem outsAt_A (c : Dev nD) (t : Fin cfg1.N) (h0 : t.val % 4 = 0) : outsAt V c t.val t.isLt = stA V c t h0 := by
  obtain ⟨n, hn⟩ := t
  cases n with
  | zero => rfl
  | succ n => exact dif_pos h0

theorem outsAt_B (c : Dev nD) (t : Fin cfg1.N) (h0 : ¬ t.val % 4 = 0) (h3 : ¬ t.val % 4 = 3) :
    outsAt V c t.val t.isLt = stB V c t h0 h3 (outsAt V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h3).trans rfl)

theorem outsAt_C (c : Dev nD) (t : Fin cfg1.N) (h0 : ¬ t.val % 4 = 0) (h3 : t.val % 4 = 3) :
    outsAt V c t.val t.isLt = stC V c t h0 h3 (outsAt V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h3).trans rfl)

/-- The launch's invariant before position `n`: before the first point the class's (every scratch buffer at anything);
    afterwards the other launch's staging buffers at anything, the three scratch buffers at what the point before left,
    and the random-number register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scA fullShare (outsAt V c n hn).2.1 ∗ owns (c : Thread nD τ) scM fullShare (outsAt V c n hn).2.2.1 ∗ owns (c : Thread nD τ) scL fullShare (outsAt V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scA fullShare (outsAt V c n hn).2.1 ∗ owns (c : Thread nD τ) scM fullShare (outsAt V c n hn).2.2.1 ∗ owns (c : Thread nD τ) scL fullShare (outsAt V c n hn).2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scA fullShare (outsAt V c (n - 1) (by omega)).2.1 ∗ owns (c : Thread nD τ) scM fullShare (outsAt V c (n - 1) (by omega)).2.2.1 ∗ owns (c : Thread nD τ) scL fullShare (outsAt V c (n - 1) (by omega)).2.2.2) ∗ (∃ r, prngReg c r)) := by
  cases n with
  | zero => exact absurd rfl hz
  | succ n => rfl

/-! ## The launch's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

/-- An input window is never idle: the body hands its buffer back at its block. -/
theorem liveAt_0 : ∀ t : Fin cfg1.N, cfg1.idle 0 (grid1.coords t) = false := by decide +kernel
theorem leaves_in_0 (c : Dev nD) (t : Fin cfg1.N) : (dat V c).leavesExact 0 t = owns (c : Thread nD τ) (ms_0 t) fullShare (iblk V c 0 t) := by
  unfold Dat.leavesExact; rw [liveAt_0 t, after_0]
theorem liveAt_1 : ∀ t : Fin cfg1.N, cfg1.idle 1 (grid1.coords t) = false := by decide +kernel
theorem leaves_in_1 (c : Dev nD) (t : Fin cfg1.N) : (dat V c).leavesExact 1 t = owns (c : Thread nD τ) (ms_1 t) fullShare (iblk V c 1 t) := by
  unfold Dat.leavesExact; rw [liveAt_1 t, after_1]
theorem liveAt_2 : ∀ t : Fin cfg1.N, cfg1.idle 2 (grid1.coords t) = false := by decide +kernel
theorem leaves_in_2 (c : Dev nD) (t : Fin cfg1.N) : (dat V c).leavesExact 2 t = owns (c : Thread nD τ) (ms_2 t) fullShare (iblk V c 2 t) := by
  unfold Dat.leavesExact; rw [liveAt_2 t, after_2]
theorem liveAt_3 : ∀ t : Fin cfg1.N, cfg1.idle 3 (grid1.coords t) = false := by decide +kernel
theorem leaves_in_3 (c : Dev nD) (t : Fin cfg1.N) : (dat V c).leavesExact 3 t = owns (c : Thread nD τ) (ms_3 t) fullShare (iblk V c 3 t) := by
  unfold Dat.leavesExact; rw [liveAt_3 t, after_3]
theorem liveAt_4 : ∀ t : Fin cfg1.N, cfg1.idle 4 (grid1.coords t) = false := by decide +kernel
theorem leaves_in_4 (c : Dev nD) (t : Fin cfg1.N) : (dat V c).leavesExact 4 t = owns (c : Thread nD τ) (ms_4 t) fullShare (iblk V c 4 t) := by
  unfold Dat.leavesExact; rw [liveAt_4 t, after_4]
theorem liveAt_5 : ∀ t : Fin cfg1.N, cfg1.idle 5 (grid1.coords t) = false := by decide +kernel
theorem leaves_in_5 (c : Dev nD) (t : Fin cfg1.N) : (dat V c).leavesExact 5 t = owns (c : Thread nD τ) (ms_5 t) fullShare (iblk V c 5 t) := by
  unfold Dat.leavesExact; rw [liveAt_5 t, after_5]

theorem leaves_out_6 (c : Dev nD) (t : Fin cfg1.N) (h3 : t.val % 4 = 3) : (dat V c).leavesExact 6 t = owns (c : Thread nD τ) (ms_6 t) fullShare ((dat V c).after 6 t) := by
  unfold Dat.leavesExact; rw [liveAt_6 t ((hcond1 t).mpr h3)]

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
/-- The body at any point: the inputs' buffers hold their blocks; the position's residue mod 4 says which case it is in;
    the invariant hands the body the scratch buffers at what the point before left (at anything at a first point) and takes
    them back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_in_0, leaves_in_1, leaves_in_2, leaves_in_3, leaves_in_4, leaves_in_5]
  by_cases h0 : t.val % 4 = 0
  · rw [Dat.leavesExact_idle (dat V c) 6 t (idleAt_6 t (fun h => not3_of_0 h0 ((hcond1 t).mp h))) (noFlush_6 t (fun h => not3_of_0 h0 ((hcond1 t).mp h)))]
    rw [outsAt_A V c t h0]
    unfold stA; (try dsimp only)
    by_cases hz : t.val = 0
    ·
          rw [PhiS_castSucc V c t, PhiS_zero V c _ _ hz, PhiA_eq]
          iintro ⟨⟨⟨HO0, HO1, HO2, HO3, HO4, HO5, HO6, HO7, HO8, HO9, HSA, HSM, HSL⟩, Hg⟩, Ho, ⟨%d0, H0⟩, ⟨%d1, H1⟩, ⟨%d2, H2⟩, ⟨%d3, H3⟩, ⟨%d4, H4⟩, ⟨%d5, H5⟩, ⟨%d6, H6⟩⟩
          iapply ((runA V c t h0).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HSA]; · iexact HSA
          isplitl [HSM]; · iexact HSM
          isplitl [HSL]; · iexact HSL
          iintro ⟨H0, H1, H2, H3, H4, H5, H6, ⟨%esA, HSA⟩, ⟨%esM, HSM⟩, ⟨%esL, HSL⟩⟩
          isplitl [HO0 HO1 HO2 HO3 HO4 HO5 HO6 HO7 HO8 HO9 HSA HSM HSL Hg]
          · isplitl [HO0 HO1 HO2 HO3 HO4 HO5 HO6 HO7 HO8 HO9 HSA HSM HSL]
            · isplitl [HO0]; · iexact HO0
              isplitl [HO1]; · iexact HO1
              isplitl [HO2]; · iexact HO2
              isplitl [HO3]; · iexact HO3
              isplitl [HO4]; · iexact HO4
              isplitl [HO5]; · iexact HO5
              isplitl [HO6]; · iexact HO6
              isplitl [HO7]; · iexact HO7
              isplitl [HO8]; · iexact HO8
              isplitl [HO9]; · iexact HO9
              isplitl [HSA]
              · unfold owns; iexists _; isplitr
                swap; · iexact HSA
                ipureintro; exact View.read_writes_of_cover _ _ _ _ _ (scover_A_A V c t h0)
              isplitl [HSM]
              · unfold owns; iexists _; isplitr
                swap; · iexact HSM
                ipureintro; exact View.read_writes_of_cover _ _ _ _ _ (scover_A_M V c t h0)
              unfold owns; iexists _; isplitr
              swap; · iexact HSL
              ipureintro; exact View.read_writes_of_cover _ _ _ _ _ (scover_A_L V c t h0)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6
    ·
          rw [PhiS_castSucc V c t, PhiS_pos V c _ _ hz]
          iintro ⟨⟨⟨HO0, HO1, HO2, HO3, HO4, HO5, HO6, HO7, HO8, HO9, HSA, HSM, HSL⟩, Hg⟩, Ho, ⟨%d0, H0⟩, ⟨%d1, H1⟩, ⟨%d2, H2⟩, ⟨%d3, H3⟩, ⟨%d4, H4⟩, ⟨%d5, H5⟩, ⟨%d6, H6⟩⟩
          iapply ((runA V c t h0).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HSA]; · iexists _; iexact HSA
          isplitl [HSM]; · iexists _; iexact HSM
          isplitl [HSL]; · iexists _; iexact HSL
          iintro ⟨H0, H1, H2, H3, H4, H5, H6, ⟨%esA, HSA⟩, ⟨%esM, HSM⟩, ⟨%esL, HSL⟩⟩
          isplitl [HO0 HO1 HO2 HO3 HO4 HO5 HO6 HO7 HO8 HO9 HSA HSM HSL Hg]
          · isplitl [HO0 HO1 HO2 HO3 HO4 HO5 HO6 HO7 HO8 HO9 HSA HSM HSL]
            · isplitl [HO0]; · iexact HO0
              isplitl [HO1]; · iexact HO1
              isplitl [HO2]; · iexact HO2
              isplitl [HO3]; · iexact HO3
              isplitl [HO4]; · iexact HO4
              isplitl [HO5]; · iexact HO5
              isplitl [HO6]; · iexact HO6
              isplitl [HO7]; · iexact HO7
              isplitl [HO8]; · iexact HO8
              isplitl [HO9]; · iexact HO9
              isplitl [HSA]
              · unfold owns; iexists _; isplitr
                swap; · iexact HSA
                ipureintro; exact View.read_writes_of_cover _ _ _ _ _ (scover_A_A V c t h0)
              isplitl [HSM]
              · unfold owns; iexists _; isplitr
                swap; · iexact HSM
                ipureintro; exact View.read_writes_of_cover _ _ _ _ _ (scover_A_M V c t h0)
              unfold owns; iexists _; isplitr
              swap; · iexact HSL
              ipureintro; exact View.read_writes_of_cover _ _ _ _ _ (scover_A_L V c t h0)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6
  · have hz : t.val ≠ 0 := fun e => h0 (by rw [e])
    by_cases h3 : t.val % 4 = 3
    · rw [leaves_out_6 V c t h3, after_6]
      rw [outsAt_C V c t h0 h3]
      unfold stC; (try dsimp only)
      ·
          rw [PhiS_castSucc V c t, PhiS_pos V c _ _ hz]
          iintro ⟨⟨⟨HO0, HO1, HO2, HO3, HO4, HO5, HO6, HO7, HO8, HO9, HSA, HSM, HSL⟩, Hg⟩, Ho, ⟨%d0, H0⟩, ⟨%d1, H1⟩, ⟨%d2, H2⟩, ⟨%d3, H3⟩, ⟨%d4, H4⟩, ⟨%d5, H5⟩, ⟨%d6, H6⟩⟩
          iapply ((runC V c t h0 h3 (outsAt V c (t.val - 1) (Nat.lt_of_le_of_lt (Nat.sub_le _ _) t.isLt)).2).2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HSA]; · iexact HSA
          isplitl [HSM]; · iexact HSM
          isplitl [HSL]; · iexact HSL
          iintro ⟨H0, H1, H2, H3, H4, H5, ⟨%e6, H6⟩, ⟨%esA, HSA⟩, ⟨%esM, HSM⟩, ⟨%esL, HSL⟩⟩
          isplitl [HO0 HO1 HO2 HO3 HO4 HO5 HO6 HO7 HO8 HO9 HSA HSM HSL Hg]
          · isplitl [HO0 HO1 HO2 HO3 HO4 HO5 HO6 HO7 HO8 HO9 HSA HSM HSL]
            · isplitl [HO0]; · iexact HO0
              isplitl [HO1]; · iexact HO1
              isplitl [HO2]; · iexact HO2
              isplitl [HO3]; · iexact HO3
              isplitl [HO4]; · iexact HO4
              isplitl [HO5]; · iexact HO5
              isplitl [HO6]; · iexact HO6
              isplitl [HO7]; · iexact HO7
              isplitl [HO8]; · iexact HO8
              isplitl [HO9]; · iexact HO9
              isplitl [HSA]
              · unfold owns; iexists _; isplitr
                swap; · iexact HSA
                ipureintro; exact View.read_writes_of_cover _ _ _ _ _ (scover_C_A V c t h0 h3 _)
              isplitl [HSM]
              · unfold owns; iexists _; isplitr
                swap; · iexact HSM
                ipureintro; exact View.read_writes_of_cover _ _ _ _ _ (scover_C_M V c t h0 h3 _)
              unfold owns; iexists _; isplitr
              swap; · iexact HSL
              ipureintro; exact View.read_writes_of_cover _ _ _ _ _ (scover_C_L V c t h0 h3 _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover_C_6 V c t h0 h3 _)
    · rw [Dat.leavesExact_idle (dat V c) 6 t (idleAt_6 t (fun h => h3 ((hcond1 t).mp h))) (noFlush_6 t (fun h => h3 ((hcond1 t).mp h)))]
      rw [outsAt_B V c t h0 h3]
      unfold stB; (try dsimp only)
      ·
          rw [PhiS_castSucc V c t, PhiS_pos V c _ _ hz]
          iintro ⟨⟨⟨HO0, HO1, HO2, HO3, HO4, HO5, HO6, HO7, HO8, HO9, HSA, HSM, HSL⟩, Hg⟩, Ho, ⟨%d0, H0⟩, ⟨%d1, H1⟩, ⟨%d2, H2⟩, ⟨%d3, H3⟩, ⟨%d4, H4⟩, ⟨%d5, H5⟩, ⟨%d6, H6⟩⟩
          iapply ((runB V c t h0 h3 (outsAt V c (t.val - 1) (Nat.lt_of_le_of_lt (Nat.sub_le _ _) t.isLt)).2).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HSA]; · iexact HSA
          isplitl [HSM]; · iexact HSM
          isplitl [HSL]; · iexact HSL
          iintro ⟨H0, H1, H2, H3, H4, H5, H6, ⟨%esA, HSA⟩, ⟨%esM, HSM⟩, ⟨%esL, HSL⟩⟩
          isplitl [HO0 HO1 HO2 HO3 HO4 HO5 HO6 HO7 HO8 HO9 HSA HSM HSL Hg]
          · isplitl [HO0 HO1 HO2 HO3 HO4 HO5 HO6 HO7 HO8 HO9 HSA HSM HSL]
            · isplitl [HO0]; · iexact HO0
              isplitl [HO1]; · iexact HO1
              isplitl [HO2]; · iexact HO2
              isplitl [HO3]; · iexact HO3
              isplitl [HO4]; · iexact HO4
              isplitl [HO5]; · iexact HO5
              isplitl [HO6]; · iexact HO6
              isplitl [HO7]; · iexact HO7
              isplitl [HO8]; · iexact HO8
              isplitl [HO9]; · iexact HO9
              isplitl [HSA]
              · unfold owns; iexists _; isplitr
                swap; · iexact HSA
                ipureintro; exact View.read_writes_of_cover _ _ _ _ _ (scover_B_A V c t h0 h3 _)
              isplitl [HSM]
              · unfold owns; iexists _; isplitr
                swap; · iexact HSM
                ipureintro; exact View.read_writes_of_cover _ _ _ _ _ (scover_B_M V c t h0 h3 _)
              unfold owns; iexists _; isplitr
              swap; · iexact HSL
              ipureintro; exact View.read_writes_of_cover _ _ _ _ _ (scover_B_L V c t h0 h3 _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          iexists _; iexact H6

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA_eq]
  iintro ⟨⟨HO0, HO1, HO2, HO3, HO4, HO5, HO6, HO7, HO8, HO9, HSA, HSM, HSL⟩, Hg⟩
  isplitl [HO0 HO1 HO2 HO3 HO4 HO5 HO6 HO7 HO8 HO9 HSA HSM HSL]
  · isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HO8]; · iexact HO8
    isplitl [HO9]; · iexact HO9
    isplitl [HSA]; · iexists _; iexact HSA
    isplitl [HSM]; · iexists _; iexact HSM
    iexists _; iexact HSL
  iexact Hg

end Cert.KernelIdeal.Attn

end
-- ==== Proof.KernelRunIdeal.lean ====
/-
  The whole program: the launch, three stretches of host operations and the two kernel launches between them.

  The buffers' contents at each boundary are a fold from the launch memory: a host stretch applies its operations; a
  kernel launch leaves each of its arrays at what its write-backs make of it and every other buffer as it found it
  (`W0` … `W5`). Every weakly fair execution terminates with every unscoped buffer at the last fold (`run_all`); the
  argument arrays are written by no host operation and by neither launch, so they end as launched (`frame`).
-/
import proofs.«133523_j46909632807722_2_alg».proof.Proof.ProjBodyIdeal
import proofs.«133523_j46909632807722_2_alg».proof.Proof.AttnBodyIdeal
import proofs.«133523_j46909632807722_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Proj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (Attn.dat (V3 m ρ) c).arrAt w cfg1.N
theorem W4_arr (c : Dev nD) (w : Fin cfg1.W) :
    W4 m ρ c (Proc.devRef .tc (Pipeline.arrRef spec1 w)) = (Attn.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Attn.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-! ### The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := (W4_arr m ρ c 4).trans (((Attn.dat (V3 m ρ) c).arrAt_in 4 rfl _).trans (Attn.A_eq (V3 m ρ) c 4))
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Attn.dat (V3 m ρ) c
abbrev 𝒱₀ : Variants := Variants.none
abbrev L : GSem nD τ sig → Finset Unit := fun _ => ∅
abbrev lv : GSem nD τ sig → Unit → ℕ := fun _ _ => 0
/-- What rides beside the buffers through every segment: the random-number register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- Launch 0 over the thread state: entered from every unscoped buffer at its entry contents, left with its arrays at
    what its write-backs leave and every other buffer as entered; the random-number register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at its entry contents, left with its arrays at
    what its write-backs leave and every other buffer as entered; the random-number register into the class invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Attn.hin (V3 m ρ) c)
    unfold Pipeline.ΦA
    iintro ⟨Hp, -, Hr⟩
    isplitl [Hr]; · iexact Hr
    iexact Hp
  hout c := by
    rw [Pipeline.ownSems0_none]
    refine BIBase.Entails.trans (Attn.hout (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution terminates, nothing faulting, with every unscoped buffer at the last fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c)⟩) (run_all m ρ)

end Cert.KernelIdeal.Run

end
-- ==== Proof.Spec.lean ====
/-
  The function both programs compute, index by index, on the extended reals.

  A pixel `n < 4096` of an image is the pair (row n / 64, column n % 64). A projection of the image is
  `proj x w b (img, n, d) = ∑_c x(img, n, c) · w(c, d) + b(d)`. The score of pixel `n` against pixel `m` is
  `∑_d k(n, d) · q(m, d)` with `k`, `q` the first two projections. A row of scores `s` is normalised by its
  maximum taken from `-∞`, `exp (s m - max)`, divided by `0 +` the sum of those exponentials, and contracted with a
  row of values (`attend`). The result adds the output projection, its bias and the input itself.
-/
import Idealize.ShloMosaic.PureOps.Ideal
import Idealize.ShloMosaic.Lib.ValueIdx

noncomputable section

namespace Cert.Spec

open Idealize.ShloMosaic Idealize.ShloMosaic.ValueIdx

/-- The image row of pixel `n`. -/
def hOf (n : Fin 4096) : Fin 64 := ⟨n.val / 64, by have := n.isLt; omega⟩
/-- The image column of pixel `n`. -/
def wOf (n : Fin 4096) : Fin 64 := ⟨n.val % 64, by omega⟩
/-- The pixel at image row `h`, column `w`. -/
def pix (h w : Fin 64) : Fin 4096 := ⟨64 * h.val + w.val, by have := h.isLt; have := w.isLt; omega⟩

theorem hOf_pix (h w : Fin 64) : hOf (pix h w) = h := Fin.ext (by simp only [hOf, pix]; have := w.isLt; omega)
theorem wOf_pix (h w : Fin 64) : wOf (pix h w) = w := Fin.ext (by simp only [wOf, pix]; have := w.isLt; omega)
theorem pix_hOf_wOf (n : Fin 4096) : pix (hOf n) (wOf n) = n := Fin.ext (by simp only [hOf, wOf, pix]; omega)

/-- A 1×1 convolution: per pixel, the input channels against a weight matrix, plus a bias. -/
def proj (x : (⟨4, ![4, 64, 64, 256]⟩ : Shape).Idx → EReal) (w : (⟨2, ![256, 128]⟩ : Shape).Idx → EReal)
    (b : (⟨1, ![128]⟩ : Shape).Idx → EReal) (img : Fin 4) (n : Fin 4096) (d : Fin 128) : EReal :=
  (∑ c : Fin 256, x (ix4 img (hOf n) (wOf n) c) * w (ix2 c d)) + b (ix1 d)

/-- The score of pixel `n` (through `kk`) against pixel `m` (through `qq`). -/
def score (kk qq : Fin 4 → Fin 4096 → Fin 128 → EReal) (img : Fin 4) (n m : Fin 4096) : EReal :=
  ∑ d : Fin 128, kk img n d * qq img m d

/-- A row's maximum, taken from `-∞`. -/
def rowMax (s : Fin 4096 → EReal) : EReal := max ⊥ ((Finset.univ : Finset (Fin 4096)).fold max ⊥ s)

/-- Softmax of a row of scores contracted with a row of values. -/
def attend (s v : Fin 4096 → EReal) : EReal :=
  ∑ m : Fin 4096, Ideal.div (Ideal.exp (s m - rowMax s)) (0 + ∑ j : Fin 4096, Ideal.exp (s j - rowMax s)) * v m

/-- The result at image `img`, row `h`, column `w`, channel `c`. -/
def Gat (x : (⟨4, ![4, 64, 64, 256]⟩ : Shape).Idx → EReal)
    (wk : (⟨2, ![256, 128]⟩ : Shape).Idx → EReal) (bk : (⟨1, ![128]⟩ : Shape).Idx → EReal)
    (wq : (⟨2, ![256, 128]⟩ : Shape).Idx → EReal) (bq : (⟨1, ![128]⟩ : Shape).Idx → EReal)
    (wv : (⟨2, ![256, 128]⟩ : Shape).Idx → EReal) (bv : (⟨1, ![128]⟩ : Shape).Idx → EReal)
    (wo : (⟨2, ![128, 256]⟩ : Shape).Idx → EReal) (bo : (⟨1, ![256]⟩ : Shape).Idx → EReal)
    (img : Fin 4) (h w : Fin 64) (c : Fin 256) : EReal :=
  ((∑ d : Fin 128,
      attend (fun m => score (proj x wk bk) (proj x wq bq) img (pix h w) m) (fun m => proj x wv bv img m d) * wo (ix2 d c))
    + bo (ix1 c)) + x (ix4 img h w c)

/-- The whole result array. -/
def G (x : (⟨4, ![4, 64, 64, 256]⟩ : Shape).Idx → EReal)
    (wk : (⟨2, ![256, 128]⟩ : Shape).Idx → EReal) (bk : (⟨1, ![128]⟩ : Shape).Idx → EReal)
    (wq : (⟨2, ![256, 128]⟩ : Shape).Idx → EReal) (bq : (⟨1, ![128]⟩ : Shape).Idx → EReal)
    (wv : (⟨2, ![256, 128]⟩ : Shape).Idx → EReal) (bv : (⟨1, ![128]⟩ : Shape).Idx → EReal)
    (wo : (⟨2, ![128, 256]⟩ : Shape).Idx → EReal) (bo : (⟨1, ![256]⟩ : Shape).Idx → EReal) :
    (⟨4, ![4, 64, 64, 256]⟩ : Shape).Idx → EReal :=
  fun i => Gat x wk bk wq bq wv bv wo bo (i 0) (i 1) (i 2) (i 3)

theorem G_ix4 (x wk bk wq bq wv bv wo bo) (img : Fin 4) (h w : Fin 64) (c : Fin 256) :
    G x wk bk wq bq wv bv wo bo (ix4 img h w c) = Gat x wk bk wq bq wv bv wo bo img h w c := rfl

end Cert.Spec

end
-- ==== Proof.RefIsG.lean ====
/-
  The reference program's result, read index by index on the extended reals, is the specification function.

  The program flattens the image's 64 × 64 pixels into 4096 rows (pixel 64·h + w), takes three per-pixel
  projections, the scores of every pixel against every pixel, a row softmax (maximum from -∞, exponentials,
  their sum from 0, the quotient), the contraction with the third projection, the output projection with its
  bias, and adds the input. Each group of stages is read at an index and identified with the matching piece of
  the specification.
-/
import proofs.«133523_j46909632807722_2_alg».proof.Proof.Gen.ReferenceIdeal.Read
import proofs.«133523_j46909632807722_2_alg».proof.Proof.Gen.ReferenceIdeal.Run
import proofs.«133523_j46909632807722_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-! ## Index equations: the flattened pixel and the contraction indices -/

/-- Row `n` of the flattened image, channel `k`, is the image at (row n / 64, column n % 64, channel k). -/
theorem idx_flat (img : Fin 4) (n : Fin 4096) (k : Fin 256) :
    idx_main_v0 (ix3 img n k) = ix4 img (hOf n) (wOf n) k := by
  have h0 := img.isLt; have h1 := n.isLt; have h2 := k.isLt
  funext a; apply Fin.ext
  match a with
  | ⟨0, _⟩ => show ((img.val * 4096 + n.val) * 256 + k.val) / 1048576 = img.val; omega
  | ⟨1, _⟩ => show ((img.val * 4096 + n.val) * 256 + k.val) / 16384 % 64 = n.val / 64; omega
  | ⟨2, _⟩ => show ((img.val * 4096 + n.val) * 256 + k.val) / 256 % 64 = n.val % 64; omega
  | ⟨3, _⟩ => show ((img.val * 4096 + n.val) * 256 + k.val) % 256 = k.val; omega

/-- Image position (h, w), channel `c`, is row 64·h + w of the flattened result. -/
theorem idx_unflat (img : Fin 4) (h w : Fin 64) (c : Fin 256) :
    idx_main_v30 (ix4 img h w c) = ix3 img (pix h w) c := by
  have h0 := img.isLt; have h1 := h.isLt; have h2 := w.isLt; have h3 := c.isLt
  funext a; apply Fin.ext
  match a with
  | ⟨0, _⟩ => show (((img.val * 64 + h.val) * 64 + w.val) * 256 + c.val) / 1048576 = img.val; omega
  | ⟨1, _⟩ => show (((img.val * 64 + h.val) * 64 + w.val) * 256 + c.val) / 256 % 4096 = 64 * h.val + w.val; omega
  | ⟨2, _⟩ => show (((img.val * 64 + h.val) * 64 + w.val) * 256 + c.val) % 256 = c.val; omega

/-! ## A projection -/

/-- The first projection at (image, pixel, feature). -/
theorem proj_k (x0 : (⟨S4x64x64x256, .f32⟩ : BufTy).Contents (Elt Ideal)) (x1 : (⟨S256x128, .f32⟩ : BufTy).Contents (Elt Ideal))
    (x2 : (⟨S128, .f32⟩ : BufTy).Contents (Elt Ideal)) (img : Fin 4) (n : Fin 4096) (d : Fin 128) :
    val_main_v4 (F := Ideal) x0 x1 x2 (ix3 img n d) = proj x0 x1 x2 img n d := by
  rw [val_main_v4_apply, val_main_v1_apply, val_main_v3_apply, val_main_v2_apply, Ideal.addf_def]
  unfold Cert.Spec.proj
  refine congrArg₂ (· + ·) (Finset.sum_congr rfl fun k _ => ?_) ?_
  · rw [val_main_v0_apply]
    have e1 : lidx_main_v1 (ix3 img n d) k = ix3 img n k := funext fun a => by
      match a with | ⟨0, _⟩ => rfl | ⟨1, _⟩ => rfl | ⟨2, _⟩ => rfl
    have e2 : ridx_main_v1 (ix3 img n d) k = ix2 k d := funext fun a => by
      match a with | ⟨0, _⟩ => rfl | ⟨1, _⟩ => rfl
    rw [e1, e2, idx_flat]
  · exact congrArg x2 (funext fun a => by match a with | ⟨0, _⟩ => rfl)

/-- The second projection at (image, pixel, feature). -/
theorem proj_q (x0 : (⟨S4x64x64x256, .f32⟩ : BufTy).Contents (Elt Ideal)) (x3 : (⟨S256x128, .f32⟩ : BufTy).Contents (Elt Ideal))
    (x4 : (⟨S128, .f32⟩ : BufTy).Contents (Elt Ideal)) (img : Fin 4) (n : Fin 4096) (d : Fin 128) :
    val_main_v8 (F := Ideal) x0 x3 x4 (ix3 img n d) = proj x0 x3 x4 img n d := by
  rw [val_main_v8_apply, val_main_v5_apply, val_main_v7_apply, val_main_v6_apply, Ideal.addf_def]
  unfold Cert.Spec.proj
  refine congrArg₂ (· + ·) (Finset.sum_congr rfl fun k _ => ?_) ?_
  · rw [val_main_v0_apply]
    have e1 : lidx_main_v5 (ix3 img n d) k = ix3 img n k := funext fun a => by
      match a with | ⟨0, _⟩ => rfl | ⟨1, _⟩ => rfl | ⟨2, _⟩ => rfl
    have e2 : ridx_main_v5 (ix3 img n d) k = ix2 k d := funext fun a => by
      match a with | ⟨0, _⟩ => rfl | ⟨1, _⟩ => rfl
    rw [e1, e2, idx_flat]
  · exact congrArg x4 (funext fun a => by match a with | ⟨0, _⟩ => rfl)

/-- The third projection at (image, pixel, feature). -/
theorem proj_v (x0 : (⟨S4x64x64x256, .f32⟩ : BufTy).Contents (Elt Ideal)) (x5 : (⟨S256x128, .f32⟩ : BufTy).Contents (Elt Ideal))
    (x6 : (⟨S128, .f32⟩ : BufTy).Contents (Elt Ideal)) (img : Fin 4) (n : Fin 4096) (d : Fin 128) :
    val_main_v12 (F := Ideal) x0 x5 x6 (ix3 img n d) = proj x0 x5 x6 img n d := by
  rw [val_main_v12_apply, val_main_v9_apply, val_main_v11_apply, val_main_v10_apply, Ideal.addf_def]
  unfold Cert.Spec.proj
  refine congrArg₂ (· + ·) (Finset.sum_congr rfl fun k _ => ?_) ?_
  · rw [val_main_v0_apply]
    have e1 : lidx_main_v9 (ix3 img n d) k = ix3 img n k := funext fun a => by
      match a with | ⟨0, _⟩ => rfl | ⟨1, _⟩ => rfl | ⟨2, _⟩ => rfl
    have e2 : ridx_main_v9 (ix3 img n d) k = ix2 k d := funext fun a => by
      match a with | ⟨0, _⟩ => rfl | ⟨1, _⟩ => rfl
    rw [e1, e2, idx_flat]
  · exact congrArg x6 (funext fun a => by match a with | ⟨0, _⟩ => rfl)

/-! ## The scores -/

/-- The scores of one pixel: the specification's row. -/
abbrev srow (x0 : (⟨S4x64x64x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (img : Fin 4) (n : Fin 4096) : Fin 4096 → EReal :=
  fun m => score (proj x0 x1 x2) (proj x0 x3 x4) img n m

/-- The score stage at (image, pixel, pixel). -/
theorem score_at (x0 : (⟨S4x64x64x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (img : Fin 4) (n m : Fin 4096) :
    val_main_v13 (F := Ideal) x0 x1 x2 x3 x4 (ix3 img n m) = srow x0 x1 x2 x3 x4 img n m := by
  rw [val_main_v13_apply]
  show _ = ∑ d : Fin 128, proj x0 x1 x2 img n d * proj x0 x3 x4 img m d
  refine Finset.sum_congr rfl fun k _ => ?_
  have e1 : lidx_main_v13 (ix3 img n m) k = ix3 img n k := funext fun a => by
    match a with | ⟨0, _⟩ => rfl | ⟨1, _⟩ => rfl | ⟨2, _⟩ => rfl
  have e2 : ridx_main_v13 (ix3 img n m) k = ix3 img m k := funext fun a => by
    match a with | ⟨0, _⟩ => rfl | ⟨1, _⟩ => rfl | ⟨2, _⟩ => rfl
  rw [e1, e2, proj_k, proj_q]

/-! ## The row maximum -/

/-- The word of `-∞` is the bottom of the extended reals. -/
theorem negInf_eq_bot : Ideal.ofBits .f32 0xFF800000#32 = (⊥ : EReal) := by simp [Ideal.ofBits, Ideal.ieee]

/-- A row of a [4, 4096, 4096] array reduced by `max` from `-∞` along its last axis is the fold of `max` over the row. -/
theorem reduceMax_row (y : (⟨S4x4096x4096, .f32⟩ : BufTy).Contents (Elt Ideal)) (img : Fin 4) (n : Fin 4096) :
    Host.reduce (FloatOps.maximumf (F := Ideal) (φ := .f32)) y (val_main_cst (F := Ideal)) reducesTo_S4x4096x4096_S4x4096_d2 h_S_ (ix2 img n)
      = (Finset.univ : Finset (Fin 4096)).fold max ⊥ (fun m => y (ix3 img n m)) := by
  have hR : S4x4096x4096.Reduces [2] S4x4096 := by decide
  refine (Host.reduce_eq_fold_single (FloatOps.maximumf (F := Ideal) (φ := .f32)) y (val_main_cst (F := Ideal))
    reducesTo_S4x4096x4096_S4x4096_d2 hR h_S_ (ix2 img n)).trans ?_
  have hb : val_main_cst (F := Ideal) (Shape.Idx.first h_S_) = (⊥ : EReal) := by
    rw [val_main_cst_apply, Ideal.ofBits_def, negInf_eq_bot]
  have hf : (y ∘ hR.lift (ix2 img n)) = fun m : Fin 4096 => y (ix3 img n m) :=
    funext fun k => congrArg y (funext fun a => Fin.ext (by
      match a with | ⟨0, _⟩ => rfl | ⟨1, _⟩ => rfl | ⟨2, _⟩ => rfl))
  rw [hf, hb]
  rfl

/-- The row maximum stage at (image, pixel). -/
theorem rowMax_at (x0 : (⟨S4x64x64x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (img : Fin 4) (n : Fin 4096) :
    val_main_v16 (F := Ideal) x0 x1 x2 x3 x4 (ix2 img n) = rowMax (srow x0 x1 x2 x3 x4 img n) := by
  rw [val_main_v16_apply, val_main_v15_apply, val_main_cst_0_apply, Ideal.maximumf_def, Ideal.ofBits_def, negInf_eq_bot]
  unfold val_main_v14
  rw [reduceMax_row]
  unfold Cert.Spec.rowMax
  refine congrArg (max ⊥) ?_
  exact congrArg (fun f => Finset.fold max ⊥ f Finset.univ) (funext fun m => score_at x0 x1 x2 x3 x4 img n m)

/-! ## The softmax of a row -/

/-- The exponential stage at (image, pixel, pixel). -/
theorem exp_at (x0 : (⟨S4x64x64x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (img : Fin 4) (n m : Fin 4096) :
    val_main_v20 (F := Ideal) x0 x1 x2 x3 x4 (ix3 img n m) = Ideal.exp (srow x0 x1 x2 x3 x4 img n m - rowMax (srow x0 x1 x2 x3 x4 img n)) := by
  rw [val_main_v20_apply, val_main_v19_apply, val_main_v18_apply, val_main_v17_apply, Ideal.hostUnary_exp_def,
    Ideal.subf_def, score_at]
  have e : idx_main_v17 (idx_main_v18 (ix3 img n m)) = ix2 img n := funext fun a => by
    match a with | ⟨0, _⟩ => rfl | ⟨1, _⟩ => rfl
  rw [e, rowMax_at]

/-- The sum of a row's exponentials, from the zero word. -/
theorem sum_at (x0 : (⟨S4x64x64x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (img : Fin 4) (n : Fin 4096) :
    val_main_v21 (F := Ideal) x0 x1 x2 x3 x4 (ix2 img n) = 0 + ∑ j : Fin 4096, Ideal.exp (srow x0 x1 x2 x3 x4 img n j - rowMax (srow x0 x1 x2 x3 x4 img n)) := by
  rw [val_main_v21_apply, val_main_cst_1_apply, Ideal.ofBits_def, Ideal.ofBits_zero_f32]
  refine congrArg (0 + ·) (Finset.sum_congr rfl fun k _ => ?_)
  have e : idx_main_v21 (ix2 img n) k = ix3 img n k := funext fun a => by
    match a with | ⟨0, _⟩ => rfl | ⟨1, _⟩ => rfl | ⟨2, _⟩ => rfl
  rw [e, exp_at]

/-- The quotient stage at (image, pixel, pixel). -/
theorem soft_at (x0 : (⟨S4x64x64x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (img : Fin 4) (n m : Fin 4096) :
    val_main_v24 (F := Ideal) x0 x1 x2 x3 x4 (ix3 img n m)
      = Ideal.div (Ideal.exp (srow x0 x1 x2 x3 x4 img n m - rowMax (srow x0 x1 x2 x3 x4 img n))) (0 + ∑ j : Fin 4096, Ideal.exp (srow x0 x1 x2 x3 x4 img n j - rowMax (srow x0 x1 x2 x3 x4 img n))) := by
  rw [val_main_v24_apply, val_main_v23_apply, val_main_v22_apply, Ideal.hostDivf_def, exp_at]
  have e : idx_main_v22 (idx_main_v23 (ix3 img n m)) = ix2 img n := funext fun a => by
    match a with | ⟨0, _⟩ => rfl | ⟨1, _⟩ => rfl
  rw [e, sum_at]

/-- The contraction of the normalised row with the third projection, at (image, pixel, feature). -/
theorem attend_at (x0 : (⟨S4x64x64x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal))
    (x5 : (⟨S256x128, .f32⟩ : BufTy).Contents (Elt Ideal)) (x6 : (⟨S128, .f32⟩ : BufTy).Contents (Elt Ideal)) (img : Fin 4) (n : Fin 4096) (d : Fin 128) :
    val_main_v25 (F := Ideal) x0 x1 x2 x3 x4 x5 x6 (ix3 img n d) = attend (srow x0 x1 x2 x3 x4 img n) (fun m => proj x0 x5 x6 img m d) := by
  rw [val_main_v25_apply]
  unfold Cert.Spec.attend
  refine Finset.sum_congr rfl fun k _ => ?_
  have e1 : lidx_main_v25 (ix3 img n d) k = ix3 img n k := funext fun a => by
    match a with | ⟨0, _⟩ => rfl | ⟨1, _⟩ => rfl | ⟨2, _⟩ => rfl
  have e2 : ridx_main_v25 (ix3 img n d) k = ix3 img k d := funext fun a => by
    match a with | ⟨0, _⟩ => rfl | ⟨1, _⟩ => rfl | ⟨2, _⟩ => rfl
  rw [e1, e2, soft_at, proj_v]

/-! ## The output projection, the way back to the image, and the residual -/

/-- The output projection with its bias, at (image, pixel, channel). -/
theorem out_at (x0 : (⟨S4x64x64x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal))
    (x5 : (⟨S256x128, .f32⟩ : BufTy).Contents (Elt Ideal)) (x6 : (⟨S128, .f32⟩ : BufTy).Contents (Elt Ideal))
    (x7 : (⟨S128x256, .f32⟩ : BufTy).Contents (Elt Ideal)) (x8 : (⟨S256, .f32⟩ : BufTy).Contents (Elt Ideal)) (img : Fin 4) (n : Fin 4096) (c : Fin 256) :
    val_main_v29 (F := Ideal) x0 x1 x2 x3 x4 x5 x6 x7 x8 (ix3 img n c)
      = (∑ d : Fin 128, attend (srow x0 x1 x2 x3 x4 img n) (fun m => proj x0 x5 x6 img m d) * x7 (ix2 d c)) + x8 (ix1 c) := by
  rw [val_main_v29_apply, val_main_v26_apply, val_main_v28_apply, val_main_v27_apply, Ideal.addf_def]
  refine congrArg₂ (· + ·) (Finset.sum_congr rfl fun k _ => ?_) ?_
  · have e1 : lidx_main_v26 (ix3 img n c) k = ix3 img n k := funext fun a => by
      match a with | ⟨0, _⟩ => rfl | ⟨1, _⟩ => rfl | ⟨2, _⟩ => rfl
    have e2 : ridx_main_v26 (ix3 img n c) k = ix2 k c := funext fun a => by
      match a with | ⟨0, _⟩ => rfl | ⟨1, _⟩ => rfl
    rw [e1, e2, attend_at]
  · exact congrArg x8 (funext fun a => by match a with | ⟨0, _⟩ => rfl)

/-- The result at (image, row, column, channel). -/
theorem res_at (x0 : (⟨S4x64x64x256, .f32⟩ : BufTy).Contents (Elt Ideal)) (x1 : (⟨S256x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal))
    (x5 : (⟨S256x128, .f32⟩ : BufTy).Contents (Elt Ideal)) (x6 : (⟨S128, .f32⟩ : BufTy).Contents (Elt Ideal))
    (x7 : (⟨S128x256, .f32⟩ : BufTy).Contents (Elt Ideal)) (x8 : (⟨S256, .f32⟩ : BufTy).Contents (Elt Ideal)) (img : Fin 4) (h w : Fin 64) (c : Fin 256) :
    val_main_v31 (F := Ideal) x0 x1 x2 x3 x4 x5 x6 x7 x8 (ix4 img h w c) = Gat x0 x1 x2 x3 x4 x5 x6 x7 x8 img h w c := by
  rw [val_main_v31_apply, val_main_v30_apply, idx_unflat, out_at, Ideal.addf_def]
  rfl

/-- The reference program's result is the specification function of its nine arguments. -/
theorem res_eq_G (m : (ℓ : Loc nD τ sig) → Buf (Elt Ideal) ℓ) (c : Dev nD) :
    Cert.ReferenceIdeal.Value.res_main_v31 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  rw [val_main_v31_eq]
  funext i
  obtain ⟨img, h, w, ch, rfl⟩ : ∃ (img : Fin 4) (h w : Fin 64) (ch : Fin 256), i = ix4 img h w ch :=
    ⟨i 0, i 1, i 2, i 3, eq_ix4 i⟩
  rw [res_at, G_ix4]

end Cert.ReferenceIdeal.RefValue

end
-- ==== Proof.AttnFinal.lean ====
/-
  The attention launch: its input blocks read off their arrays, and its output array from its blocks.

  The grid is (image, block of 1024 query rows, block of 1024 key rows), 4·4·4 = 64 points in row-major order: point
  `t = 16·img + 4·qi + ki`. The windows' index maps send that point to block (img, qi, 0) of the input image rows, of
  the first projection and of the output, to block (img, ki, 0) of the second and third projections, and to the one
  block of the output weights and of the output bias. An element of a block sits in its array, on each axis, at the
  block index times the block's size plus its own coordinate, so element (0, r, ch) of block (img, qi, 0) is element
  (img, 1024·qi + r, ch) of the array. The output window is written back exactly at the points with `ki = 3`; two such
  points have different (img, qi), so their blocks share no element, and block (img, qi) of the array after the launch
  is what the point (img, qi, 3) wrote back.
-/
import proofs.«133523_j46909632807722_2_alg».proof.Proof.AttnBodyIdeal
import Idealize.ShloMosaic.Lib.Pipeline.Value
import Idealize.ShloMosaic.Lib.ValueIdx

set_option maxRecDepth 16384

noncomputable section

namespace Cert.KernelIdeal.AttnFin

open Cert.KernelIdeal Cert.KernelIdeal.Gen Cert.KernelIdeal.Attn
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- Row `r` of row block `q`: row `1024·q + r` of the 4096. -/
def rowOf (q : Fin 4) (r : Fin 1024) : Fin 4096 := ⟨1024 * q.val + r.val, by have := q.isLt; have := r.isLt; omega⟩

theorem rowOf_val (q : Fin 4) (r : Fin 1024) : (rowOf q r).val = 1024 * q.val + r.val := rfl

/-! ## The windows' index maps, decided once over the 64 grid points -/

theorem idx_facts : ∀ t : Fin cfg1.N,
    (win1_0.index t (0 : Fin 3) = t.val / 16 ∧ win1_0.index t (1 : Fin 3) = t.val / 4 % 4 ∧ win1_0.index t (2 : Fin 3) = 0)
    ∧ (win1_1.index t (0 : Fin 3) = t.val / 16 ∧ win1_1.index t (1 : Fin 3) = t.val / 4 % 4 ∧ win1_1.index t (2 : Fin 3) = 0)
    ∧ (win1_2.index t (0 : Fin 3) = t.val / 16 ∧ win1_2.index t (1 : Fin 3) = t.val % 4 ∧ win1_2.index t (2 : Fin 3) = 0)
    ∧ (win1_3.index t (0 : Fin 3) = t.val / 16 ∧ win1_3.index t (1 : Fin 3) = t.val % 4 ∧ win1_3.index t (2 : Fin 3) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 3) = t.val / 16 ∧ win1_6.index t (1 : Fin 3) = t.val / 4 % 4 ∧ win1_6.index t (2 : Fin 3) = 0) :=
  (by decide +kernel : ∀ t : Fin grid1.N, _)

/-! ## Where a block's element sits in its array -/

theorem emb_0 (t : Fin cfg1.N) (img qi ki : Fin 4) (ht : t.val = 16 * img.val + 4 * qi.val + ki.val) (r : Fin 1024) (ch : Fin 256) :
    ((cfg1.win 0).blk t).view.emb (ix3 (0 : Fin 1) r ch : S1x1024x256.Idx) = (ix3 img (rowOf qi r) ch : S4x4096x256.Idx) := by
  obtain ⟨⟨e0, e1, e2⟩, -⟩ := idx_facts t
  have := img.isLt; have := qi.isLt; have := ki.isLt
  funext a; apply Fin.ext
  match a with
  | ⟨0, _⟩ => show win1_0.index t (0 : Fin 3) * 1 + 1 * 0 = img.val; omega
  | ⟨1, _⟩ => show win1_0.index t (1 : Fin 3) * 1024 + 1 * r.val = 1024 * qi.val + r.val; omega
  | ⟨2, _⟩ => show win1_0.index t (2 : Fin 3) * 256 + 1 * ch.val = ch.val; omega

theorem emb_1 (t : Fin cfg1.N) (img qi ki : Fin 4) (ht : t.val = 16 * img.val + 4 * qi.val + ki.val) (r : Fin 1024) (e : Fin 128) :
    ((cfg1.win 1).blk t).view.emb (ix3 (0 : Fin 1) r e : S1x1024x128.Idx) = (ix3 img (rowOf qi r) e : S4x4096x128.Idx) := by
  obtain ⟨-, ⟨e0, e1, e2⟩, -⟩ := idx_facts t
  have := img.isLt; have := qi.isLt; have := ki.isLt
  funext a; apply Fin.ext
  match a with
  | ⟨0, _⟩ => show win1_1.index t (0 : Fin 3) * 1 + 1 * 0 = img.val; omega
  | ⟨1, _⟩ => show win1_1.index t (1 : Fin 3) * 1024 + 1 * r.val = 1024 * qi.val + r.val; omega
  | ⟨2, _⟩ => show win1_1.index t (2 : Fin 3) * 128 + 1 * e.val = e.val; omega

theorem emb_2 (t : Fin cfg1.N) (img qi ki : Fin 4) (ht : t.val = 16 * img.val + 4 * qi.val + ki.val) (k : Fin 1024) (e : Fin 128) :
    ((cfg1.win 2).blk t).view.emb (ix3 (0 : Fin 1) k e : S1x1024x128.Idx) = (ix3 img (rowOf ki k) e : S4x4096x128.Idx) := by
  obtain ⟨-, -, ⟨e0, e1, e2⟩, -⟩ := idx_facts t
  have := img.isLt; have := qi.isLt; have := ki.isLt
  funext a; apply Fin.ext
  match a with
  | ⟨0, _⟩ => show win1_2.index t (0 : Fin 3) * 1 + 1 * 0 = img.val; omega
  | ⟨1, _⟩ => show win1_2.index t (1 : Fin 3) * 1024 + 1 * k.val = 1024 * ki.val + k.val; omega
  | ⟨2, _⟩ => show win1_2.index t (2 : Fin 3) * 128 + 1 * e.val = e.val; omega

theorem emb_3 (t : Fin cfg1.N) (img qi ki : Fin 4) (ht : t.val = 16 * img.val + 4 * qi.val + ki.val) (k : Fin 1024) (d : Fin 128) :
    ((cfg1.win 3).blk t).view.emb (ix3 (0 : Fin 1) k d : S1x1024x128.Idx) = (ix3 img (rowOf ki k) d : S4x4096x128.Idx) := by
  obtain ⟨-, -, -, ⟨e0, e1, e2⟩, -⟩ := idx_facts t
  have := img.isLt; have := qi.isLt; have := ki.isLt
  funext a; apply Fin.ext
  match a with
  | ⟨0, _⟩ => show win1_3.index t (0 : Fin 3) * 1 + 1 * 0 = img.val; omega
  | ⟨1, _⟩ => show win1_3.index t (1 : Fin 3) * 1024 + 1 * k.val = 1024 * ki.val + k.val; omega
  | ⟨2, _⟩ => show win1_3.index t (2 : Fin 3) * 128 + 1 * d.val = d.val; omega

theorem emb_4 (t : Fin cfg1.N) (d : Fin 128) (ch : Fin 256) :
    ((cfg1.win 4).blk t).view.emb (ix2 d ch : S128x256.Idx) = (ix2 d ch : S128x256.Idx) := by
  obtain ⟨-, -, -, -, ⟨e0, e1⟩, -⟩ := idx_facts t
  funext a; apply Fin.ext
  match a with
  | ⟨0, _⟩ => show win1_4.index t (0 : Fin 2) * 128 + 1 * d.val = d.val; omega
  | ⟨1, _⟩ => show win1_4.index t (1 : Fin 2) * 256 + 1 * ch.val = ch.val; omega

theorem emb_5 (t : Fin cfg1.N) (ch : Fin 256) :
    ((cfg1.win 5).blk t).view.emb (ix2 (0 : Fin 1) ch : S1x256.Idx) = (ix2 (0 : Fin 1) ch : S1x256.Idx) := by
  obtain ⟨-, -, -, -, -, ⟨e0, e1⟩, -⟩ := idx_facts t
  funext a; apply Fin.ext
  match a with
  | ⟨0, _⟩ => show win1_5.index t (0 : Fin 2) * 1 + 1 * 0 = 0; omega
  | ⟨1, _⟩ => show win1_5.index t (1 : Fin 2) * 256 + 1 * ch.val = ch.val; omega

theorem emb_6 (t : Fin cfg1.N) (img qi ki : Fin 4) (ht : t.val = 16 * img.val + 4 * qi.val + ki.val) (r : Fin 1024) (ch : Fin 256) :
    ((cfg1.win 6).blk t).view.emb (ix3 (0 : Fin 1) r ch : S1x1024x256.Idx) = (ix3 img (rowOf qi r) ch : S4x4096x256.Idx) := by
  obtain ⟨-, -, -, -, -, -, ⟨e0, e1, e2⟩⟩ := idx_facts t
  have := img.isLt; have := qi.isLt; have := ki.isLt
  funext a; apply Fin.ext
  match a with
  | ⟨0, _⟩ => show win1_6.index t (0 : Fin 3) * 1 + 1 * 0 = img.val; omega
  | ⟨1, _⟩ => show win1_6.index t (1 : Fin 3) * 1024 + 1 * r.val = 1024 * qi.val + r.val; omega
  | ⟨2, _⟩ => show win1_6.index t (2 : Fin 3) * 256 + 1 * ch.val = ch.val; omega

/-! ## The input blocks, read off their arrays -/

/-- Element (0, r, ch) of the image-rows block at point (img, qi, ki) is row `1024·qi + r` of image `img`. -/
theorem iblk_0 (c : Dev nD) (t : Fin cfg1.N) (img qi ki : Fin 4) (ht : t.val = 16 * img.val + 4 * qi.val + ki.val) (r : Fin 1024) (ch : Fin 256) :
    iblk V c 0 t (ix3 (0 : Fin 1) r ch : S1x1024x256.Idx) = V c main_v0 (ix3 img (rowOf qi r) ch : S4x4096x256.Idx) :=
  congrArg (V c main_v0) (emb_0 t img qi ki ht r ch)

theorem iblk_1 (c : Dev nD) (t : Fin cfg1.N) (img qi ki : Fin 4) (ht : t.val = 16 * img.val + 4 * qi.val + ki.val) (r : Fin 1024) (e : Fin 128) :
    iblk V c 1 t (ix3 (0 : Fin 1) r e : S1x1024x128.Idx) = V c main_v7 (ix3 img (rowOf qi r) e : S4x4096x128.Idx) :=
  congrArg (V c main_v7) (emb_1 t img qi ki ht r e)

theorem iblk_2 (c : Dev nD) (t : Fin cfg1.N) (img qi ki : Fin 4) (ht : t.val = 16 * img.val + 4 * qi.val + ki.val) (k : Fin 1024) (e : Fin 128) :
    iblk V c 2 t (ix3 (0 : Fin 1) k e : S1x1024x128.Idx) = V c main_v8 (ix3 img (rowOf ki k) e : S4x4096x128.Idx) :=
  congrArg (V c main_v8) (emb_2 t img qi ki ht k e)

theorem iblk_3 (c : Dev nD) (t : Fin cfg1.N) (img qi ki : Fin 4) (ht : t.val = 16 * img.val + 4 * qi.val + ki.val) (k : Fin 1024) (d : Fin 128) :
    iblk V c 3 t (ix3 (0 : Fin 1) k d : S1x1024x128.Idx) = V c main_v9 (ix3 img (rowOf ki k) d : S4x4096x128.Idx) :=
  congrArg (V c main_v9) (emb_3 t img qi ki ht k d)

theorem iblk_4 (c : Dev nD) (t : Fin cfg1.N) (d : Fin 128) (ch : Fin 256) :
    iblk V c 4 t (ix2 d ch : S128x256.Idx) = V c main_arg7 (ix2 d ch : S128x256.Idx) :=
  congrArg (V c main_arg7) (emb_4 t d ch)

theorem iblk_5 (c : Dev nD) (t : Fin cfg1.N) (ch : Fin 256) :
    iblk V c 5 t (ix2 (0 : Fin 1) ch : S1x256.Idx) = V c main_v5 (ix2 (0 : Fin 1) ch : S1x256.Idx) :=
  congrArg (V c main_v5) (emb_5 t ch)

/-! ## The output array -/

/-- Two points that write the output back and have the same block index are one point. -/
theorem idx_inj_6 (t t' : Fin cfg1.N) (h3 : t.val % 4 = 3) (h3' : t'.val % 4 = 3) (h : win1_6.index t = win1_6.index t') : t = t' := by
  obtain ⟨-, -, -, -, -, -, ⟨e0, e1, -⟩⟩ := idx_facts t
  obtain ⟨-, -, -, -, -, -, ⟨e0', e1', -⟩⟩ := idx_facts t'
  have h0 : win1_6.index t (0 : Fin 3) = win1_6.index t' (0 : Fin 3) := congrFun h 0
  have h1 : win1_6.index t (1 : Fin 3) = win1_6.index t' (1 : Fin 3) := congrFun h 1
  apply Fin.ext
  omega

/-- So the blocks of two different points that write back share no element. -/
theorem disjoint_6 : ∀ t t' : Fin cfg1.N, (cfg1.win 6).flush t = true → (cfg1.win 6).flush t' = true → t ≠ t' →
    Disjoint ((cfg1.win 6).blk t).view.set ((cfg1.win 6).blk t').view.set :=
  fun t t' hf hf' hne => (cfg1.win 6).disjoint_blk fun h => hne (idx_inj_6 t t' ((flush1_6 t).1 hf) ((flush1_6 t').1 hf') h)

/-- Block (img, qi) of the output array after the launch is what the point (img, qi, 3) wrote back. -/
theorem final_out (c : Dev nD) (img qi : Fin 4) (r : Fin 1024) (ch : Fin 256) :
    (dat V c).arrAt 6 cfg1.N (ix3 img (rowOf qi r) ch : S4x4096x256.Idx)
      = (outsAt V c (16 * img.val + 4 * qi.val + 3)
          (by have := img.isLt; have := qi.isLt; have hN : cfg1.N = 64 := N_1; omega)).1 (ix3 (0 : Fin 1) r ch : S1x1024x256.Idx) := by
  have hi := img.isLt
  have hq := qi.isLt
  have hN : cfg1.N = 64 := N_1
  have hf : (cfg1.win 6).flush (⟨16 * img.val + 4 * qi.val + 3, by omega⟩ : Fin cfg1.N) = true :=
    (flush1_6 _).2 (by show (16 * img.val + 4 * qi.val + 3) % 4 = 3; omega)
  have h := (dat V c).arrAt_emb_eq_flushed 6 disjoint_6 ⟨16 * img.val + 4 * qi.val + 3, by omega⟩ hf
    (ix3 (0 : Fin 1) r ch : S1x1024x256.Idx)
  rw [emb_6 _ img qi (3 : Fin 4) rfl r ch] at h
  refine h.trans ?_
  rw [cast_eq]
  show (dat V c).after 6 _ _ = _
  rw [after_6]
  rfl

end Cert.KernelIdeal.AttnFin

end
-- ==== Proof.LibColumnCast.lean ====
/-
  A column vector and its flat form. A sum along the lanes that keeps its axis has shape `[a, 1]`; the flat form of the
  same numbers has shape `[a]`. The two casts between them move no element: entry `(i, 0)` of the column is entry `i`
  of the flat vector, because both sit at row-major position `i`.
-/
import Idealize.ShloMosaic.Lib.Pipeline.Value
import Idealize.ShloMosaic.Lib.ValueIdx

noncomputable section

namespace Cert.Lib.ColumnCast

open Idealize.ShloMosaic Idealize.ShloMosaic.ValueIdx

variable {α : Type}

/-- A flat `[a]` vector cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the flat `[a]` vector reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnCast

end
-- ==== Proof.LibColumnBroadcast.lean ====
/-
  A column broadcast along the lanes. A per-row quantity kept as a column `[a, 1]` (a row's maximum, a row's sum) is
  broadcast to `[a, b]` by repeating its one entry along each row: entry `(p, c)` of the result is entry `(p, 0)` of
  the column, whatever the lane `c`.
-/
import Idealize.ShloMosaic.Lib.Pipeline.Value
import Idealize.ShloMosaic.Lib.ValueIdx

noncomputable section

namespace Cert.Lib.ColumnBroadcast

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBroadcast

end
-- ==== Proof.AttnPayload.lean ====
/-
  The attention launch's pure values, read entry by entry on the extended reals.

  One step of the launch takes a block of 1024 rows of each of three projections of the image — call them the k-role, the
  q-role and the v-role block, each [1, 1024, 128] — and the running state of an online softmax over the rows of the
  k-role block: the running maximum `mp` and the running normaliser `lp`, both columns [1024, 1], and the running
  weighted sum `ap`, [1024, 128]. It forms the scores `sc r k = ∑ e, kb[r, e] · qb[k, e]` (a product with the
  transposed q-role block), the new maximum `mnew r = max (mp r) (max_k sc r k)`, the rescaling factor
  `exp (mp r − mnew r)`, the weights `exp (sc r k − mnew r)`, and from them the new normaliser and the new weighted sum
  in the usual way. The last step divides the weighted sum by the normaliser, multiplies by the output weights, adds the
  bias and the residual block.

  Every statement below reads one of these vector expressions at ONE index and says which extended real it is: a shape
  cast that only adds or drops a unit axis moves no entry, a transpose swaps the two coordinates, a broadcast of a column
  repeats the column's entry along its row, a row reduction is a fold or a sum over the row's 1024 coordinates, and a
  matrix product into a zero accumulator is the sum over its one contraction coordinate. Narrowing to the short float
  format changes nothing on the extended reals.
-/
import proofs.«133523_j46909632807722_2_alg».proof.Proof.Gen.KernelIdeal.Skeleton
import proofs.«133523_j46909632807722_2_alg».proof.Proof.LibColumnCast
import proofs.«133523_j46909632807722_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnPay

open Cert.KernelIdeal Cert.KernelIdeal.Gen Idealize.ShloMosaic Idealize.ShloMosaic.ValueIdx
open Cert.Lib.ColumnCast Cert.Lib.ColumnBroadcast

variable (kb qb vb : Vec Ideal S1x1024x128 .bf16) (mp lp : Vec Ideal S1024x1 .f32) (ap : Vec Ideal S1024x128 .f32)
  (r k : Fin 1024) (d : Fin 128) (c : Fin 256)

/-! ## The quantities of one step -/

/-- The score of row `r` of the k-role block against row `k` of the q-role block: their inner product over the 128
    features. -/
def sc (kb qb : Vec Ideal S1x1024x128 .bf16) (r k : Fin 1024) : EReal :=
  ∑ e : Fin 128, kb (ix3 (0 : Fin 1) r e) * qb (ix3 (0 : Fin 1) k e)

/-- The maximum after the step: the larger of the running maximum and the largest score of the row. -/
def mnew (kb qb : Vec Ideal S1x1024x128 .bf16) (mp : Vec Ideal S1024x1 .f32) (r : Fin 1024) : EReal :=
  max (mp (ix2 r (0 : Fin 1))) ((Finset.univ : Finset (Fin 1024)).fold max ⊥ fun k => sc kb qb r k)

/-! ## The initial state: −∞, 0 and 0 everywhere -/

/-- The word `0xFF800000` is the single-precision −∞, the least extended real. -/
theorem ofBits_negInf : Ideal.ofBits .f32 0xFF800000#32 = ⊥ := by simp [Ideal.ofBits, Ideal.ieee]

/-- The initial running maximum is −∞ in every row. -/
theorem pay4_apply : k1_pay4 (F := Ideal) (ix2 r (0 : Fin 1)) = ⊥ := by
  unfold k1_pay4
  rw [shapeCast_self]
  exact ofBits_negInf

/-- The initial normaliser is 0 in every row. -/
theorem pay5_apply : k1_pay5 (F := Ideal) (ix2 r (0 : Fin 1)) = 0 := by
  unfold k1_pay5
  rw [shapeCast_self]
  exact Ideal.ofBits_zero_f32

/-- The initial weighted sum is 0 at every entry. -/
theorem pay6_apply : k1_pay6 (F := Ideal) (ix2 r d) = 0 := by
  unfold k1_pay6
  rw [shapeCast_self]
  exact Ideal.ofBits_zero_f32

/-- The maximum handed to the store is the maximum itself: a cast to the same shape moves nothing. -/
theorem pay2_eq (v : FVec Ideal S1024x1 .f32) : k1_pay2 v = v := by
  unfold k1_pay2
  exact shapeCast_self _ _

/-- The same at an entry. -/
theorem pay2_apply (v : FVec Ideal S1024x1 .f32) : k1_pay2 v (ix2 r (0 : Fin 1)) = v (ix2 r (0 : Fin 1)) := by
  rw [pay2_eq]

/-! ## The three matrix products' operand indices

Each product contracts the second axis of its left operand with the first axis of its right operand: at output entry
`(r, k)` and contraction coordinate `e` the left operand is read at `(r, e)` and the right one at `(e, k)`. -/

/-- The scores' product, [1024, 128] · [128, 1024]. -/
abbrev D1 := dot_S1024x128_S128x1024_S1024x1024_1_0_0_1_n_n
/-- The weights times the v-role block, [1024, 1024] · [1024, 128]. -/
abbrev D2 := dot_S1024x1024_S1024x128_S1024x128_1_0_0_1_n_n
/-- The output projection, [1024, 128] · [128, 256]. -/
abbrev D3 := dot_S1024x128_S128x256_S1024x256_1_0_0_1_n_n

theorem D1_lhs (e : Fin 128) :
    D1.lhsIdx (ix2 r k) ((contrEquiv1 D1 128 rfl rfl).symm e) = ix2 r e := by
  have hk := contrEquiv1_symm_val D1 128 rfl rfl e
  refine funext fun a => Fin.ext ?_
  match a with
  | ⟨0, _⟩ =>
    show (D1.lhsIdx (ix2 r k) _ 0).val = r.val
    unfold DotDims.lhsIdx
    rw [dif_neg (show ¬(0 : Fin S1024x128.rank) ∈ D1.lhsBatch by decide),
      dif_pos (show (0 : Fin S1024x128.rank) ∈ D1.lhsNonContracting by decide)]
    rfl
  | ⟨1, _⟩ => exact (D1.lhsIdx_val_of_single rfl (ix2 r k) _).trans hk

theorem D1_rhs (e : Fin 128) :
    D1.rhsIdx (ix2 r k) ((contrEquiv1 D1 128 rfl rfl).symm e) = ix2 e k := by
  have hk := contrEquiv1_symm_val D1 128 rfl rfl e
  refine funext fun a => Fin.ext ?_
  match a with
  | ⟨0, _⟩ => exact (D1.rhsIdx_val_of_single rfl (ix2 r k) _).trans hk
  | ⟨1, _⟩ =>
    show (D1.rhsIdx (ix2 r k) _ 1).val = k.val
    unfold DotDims.rhsIdx
    rw [dif_neg (show ¬(1 : Fin S128x1024.rank) ∈ D1.rhsBatch by decide),
      dif_pos (show (1 : Fin S128x1024.rank) ∈ D1.rhsNonContracting by decide)]
    rfl

theorem D2_lhs (e : Fin 1024) :
    D2.lhsIdx (ix2 r d) ((contrEquiv1 D2 1024 rfl rfl).symm e) = ix2 r e := by
  have hk := contrEquiv1_symm_val D2 1024 rfl rfl e
  refine funext fun a => Fin.ext ?_
  match a with
  | ⟨0, _⟩ =>
    show (D2.lhsIdx (ix2 r d) _ 0).val = r.val
    unfold DotDims.lhsIdx
    rw [dif_neg (show ¬(0 : Fin S1024x1024.rank) ∈ D2.lhsBatch by decide),
      dif_pos (show (0 : Fin S1024x1024.rank) ∈ D2.lhsNonContracting by decide)]
    rfl
  | ⟨1, _⟩ => exact (D2.lhsIdx_val_of_single rfl (ix2 r d) _).trans hk

theorem D2_rhs (e : Fin 1024) :
    D2.rhsIdx (ix2 r d) ((contrEquiv1 D2 1024 rfl rfl).symm e) = ix2 e d := by
  have hk := contrEquiv1_symm_val D2 1024 rfl rfl e
  refine funext fun a => Fin.ext ?_
  match a with
  | ⟨0, _⟩ => exact (D2.rhsIdx_val_of_single rfl (ix2 r d) _).trans hk
  | ⟨1, _⟩ =>
    show (D2.rhsIdx (ix2 r d) _ 1).val = d.val
    unfold DotDims.rhsIdx
    rw [dif_neg (show ¬(1 : Fin S1024x128.rank) ∈ D2.rhsBatch by decide),
      dif_pos (show (1 : Fin S1024x128.rank) ∈ D2.rhsNonContracting by decide)]
    rfl

theorem D3_lhs (e : Fin 128) :
    D3.lhsIdx (ix2 r c) ((contrEquiv1 D3 128 rfl rfl).symm e) = ix2 r e := by
  have hk := contrEquiv1_symm_val D3 128 rfl rfl e
  refine funext fun a => Fin.ext ?_
  match a with
  | ⟨0, _⟩ =>
    show (D3.lhsIdx (ix2 r c) _ 0).val = r.val
    unfold DotDims.lhsIdx
    rw [dif_neg (show ¬(0 : Fin S1024x128.rank) ∈ D3.lhsBatch by decide),
      dif_pos (show (0 : Fin S1024x128.rank) ∈ D3.lhsNonContracting by decide)]
    rfl
  | ⟨1, _⟩ => exact (D3.lhsIdx_val_of_single rfl (ix2 r c) _).trans hk

theorem D3_rhs (e : Fin 128) :
    D3.rhsIdx (ix2 r c) ((contrEquiv1 D3 128 rfl rfl).symm e) = ix2 e c := by
  have hk := contrEquiv1_symm_val D3 128 rfl rfl e
  refine funext fun a => Fin.ext ?_
  match a with
  | ⟨0, _⟩ => exact (D3.rhsIdx_val_of_single rfl (ix2 r c) _).trans hk
  | ⟨1, _⟩ =>
    show (D3.rhsIdx (ix2 r c) _ 1).val = c.val
    unfold DotDims.rhsIdx
    rw [dif_neg (show ¬(1 : Fin S128x256.rank) ∈ D3.rhsBatch by decide),
      dif_pos (show (1 : Fin S128x256.rank) ∈ D3.rhsNonContracting by decide)]
    rfl

/-! ## The scores -/

/-- Entry `(r, k)` of the k-role block times the transposed q-role block is the inner product of row `r` of the one
    with row `k` of the other. -/
theorem pay8_apply : k1_pay8 kb qb (ix2 r k) = sc kb qb r k := by
  unfold k1_pay8 sc
  refine (Ideal.matmul_constant_zero_apply D1 none _ _ (ix2 r k)).trans ?_
  rw [← Equiv.sum_comp (contrEquiv1 D1 128 rfl rfl).symm]
  refine Finset.sum_congr rfl fun e _ => ?_
  rw [D1_lhs, D1_rhs, shapeCast_1ab_ab_apply, transpose_ix2_apply, shapeCast_1ab_ab_apply]

/-! ## Reductions along a row of a [1024, 1024] matrix -/

/-- The maximum over the second axis, from −∞, at row `r`: the fold of `max` over the row's 1024 entries. -/
theorem rowMax_apply (src : FVec Ideal S1024x1024 .f32)
    (hφ : FKind.Formats .f32) (hacc : (0xFF800000#32 : BitVec 32) = FKind.maximumf.neutral .f32 hφ) :
    multiReduction (F := Ideal) .maximumf [1] S1024 src 0xFF800000#32 reduces_S1024x1024_S1024 hφ hacc (ix1 r)
      = (Finset.univ : Finset (Fin 1024)).fold max ⊥ fun k => src (ix2 r k) := by
  refine (Ideal.multiReduction_maximumf_single src 0xFF800000#32 reduces_S1024x1024_S1024 hφ hacc (ix1 r)).trans ?_
  show (Finset.univ : Finset (Fin 1024)).fold max (Ideal.ofBits .f32 0xFF800000#32) _ = _
  rw [ofBits_negInf]
  refine Finset.fold_congr fun k _ => ?_
  show src (reduces_S1024x1024_S1024.lift (ix1 r) k) = src (ix2 r k)
  refine congrArg src (funext fun a => Fin.ext ?_)
  match a with
  | ⟨0, _⟩ => rfl
  | ⟨1, _⟩ => rfl

/-- The sum over the second axis, from 0, at row `r`: the sum of the row's 1024 entries. -/
theorem rowSum_apply (src : FVec Ideal S1024x1024 .f32)
    (hφ : FKind.Formats .f32) (hacc : (0x00000000#32 : BitVec 32) = FKind.add.neutral .f32 hφ) :
    multiReduction (F := Ideal) .add [1] S1024 src 0x00000000#32 reduces_S1024x1024_S1024 hφ hacc (ix1 r)
      = ∑ k : Fin 1024, src (ix2 r k) := by
  refine (Ideal.multiReduction_add_single src 0x00000000#32 reduces_S1024x1024_S1024 hφ hacc (ix1 r)).trans ?_
  refine Finset.sum_congr rfl fun k _ => ?_
  show src (reduces_S1024x1024_S1024.lift (ix1 r) k) = src (ix2 r k)
  refine congrArg src (funext fun a => Fin.ext ?_)
  match a with
  | ⟨0, _⟩ => rfl
  | ⟨1, _⟩ => rfl

/-! ## The new maximum, the rescaling factor and the weights -/

/-- The new maximum of row `r`. -/
theorem pay9_apply : k1_pay9 kb qb mp (ix2 r (0 : Fin 1)) = mnew kb qb mp r := by
  unfold k1_pay9 mnew
  rw [maximumf_apply, shapeCast_a_a1_apply]
  refine congrArg _ ((rowMax_apply r _ _ _).trans ?_)
  exact Finset.fold_congr fun k _ => pay8_apply kb qb r k

/-- The factor that rescales row `r`'s running sums to the new maximum. -/
theorem pay10_apply : k1_pay10 kb qb mp (ix2 r (0 : Fin 1)) = Ideal.exp (mp (ix2 r (0 : Fin 1)) - mnew kb qb mp r) := by
  unfold k1_pay10
  show Ideal.exp (mp (ix2 r (0 : Fin 1)) - k1_pay9 kb qb mp (ix2 r (0 : Fin 1))) = _
  rw [pay9_apply]

/-- The weight of column `k` in row `r`: the exponential of the score less the row's new maximum, the maximum's column
    being repeated along the row. -/
theorem pay11_apply : k1_pay11 kb qb mp (ix2 r k) = Ideal.exp (sc kb qb r k - mnew kb qb mp r) := by
  unfold k1_pay11
  show Ideal.exp (k1_pay8 kb qb (ix2 r k)
    - broadcastTo S1024x1024 (k1_pay9 kb qb mp) broadcasts_S1024x1_S1024x1024 (ix2 r k)) = _
  rw [broadcastTo_a1_ab_apply, pay8_apply, pay9_apply]

/-! ## The new normaliser and the new weighted sum -/

/-- The new normaliser of row `r`: the old one rescaled, plus the sum of the row's weights. -/
theorem pay12_apply : k1_pay12 kb qb mp lp (ix2 r (0 : Fin 1))
    = Ideal.exp (mp (ix2 r (0 : Fin 1)) - mnew kb qb mp r) * lp (ix2 r (0 : Fin 1))
      + ∑ k : Fin 1024, Ideal.exp (sc kb qb r k - mnew kb qb mp r) := by
  unfold k1_pay12
  rw [shapeCast_self, addf_apply, mulf_apply, shapeCast_a_a1_apply, pay10_apply]
  refine congrArg _ ((rowSum_apply r _ _ _).trans ?_)
  exact Finset.sum_congr rfl fun k _ => pay11_apply kb qb mp r k

/-- The new weighted sum at `(r, d)`: the old one rescaled, plus the weights of row `r` against column `d` of the
    v-role block. -/
theorem pay1_apply :
    k1_pay1 (k1_pay7 vb) (k1_pay13 kb qb mp ap) (k1_pay14 kb qb mp) (constant (F := Ideal) S1024x128 .f32 0x00000000#32) (ix2 r d)
      = Ideal.exp (mp (ix2 r (0 : Fin 1)) - mnew kb qb mp r) * ap (ix2 r d)
        + ∑ k : Fin 1024, Ideal.exp (sc kb qb r k - mnew kb qb mp r) * vb (ix3 (0 : Fin 1) k d) := by
  unfold k1_pay1
  rw [shapeCast_self, addf_apply]
  have h13 : k1_pay13 kb qb mp ap (ix2 r d) = Ideal.exp (mp (ix2 r (0 : Fin 1)) - mnew kb qb mp r) * ap (ix2 r d) := by
    unfold k1_pay13
    rw [mulf_apply, broadcastTo_a1_ab_apply, pay10_apply]
  rw [h13]
  refine congrArg _ ((Ideal.matmul_constant_zero_apply D2 none _ _ (ix2 r d)).trans ?_)
  rw [← Equiv.sum_comp (contrEquiv1 D2 1024 rfl rfl).symm]
  refine Finset.sum_congr rfl fun e _ => ?_
  rw [D2_lhs, D2_rhs]
  unfold k1_pay14 k1_pay7
  rw [truncf_apply, pay11_apply, shapeCast_1ab_ab_apply]

/-! ## The last step: normalise, project, add the bias and the residual -/

/-- The result block at `(0, r, c)`: the weighted sum of row `r` divided by the row's normaliser, times column `c` of the
    output weights, plus the bias at `c`, plus the residual block's entry. -/
theorem pay3_apply (acc : Vec Ideal S1024x128 .f32) (l : Vec Ideal S1024x1 .f32) (wo : Vec Ideal S128x256 .f32)
    (bo : Vec Ideal S1x256 .f32) (xb : Vec Ideal S1x1024x256 .f32) :
    k1_pay3 acc l wo bo xb (ix3 (0 : Fin 1) r c)
      = ((∑ d : Fin 128, Ideal.div (acc (ix2 r d)) (l (ix2 r (0 : Fin 1))) * wo (ix2 d c)) + bo (ix2 (0 : Fin 1) c))
        + xb (ix3 (0 : Fin 1) r c) := by
  unfold k1_pay3
  rw [shapeCast_ab_1ab_apply, addf_apply, addf_apply, shapeCast_1ab_ab_apply, broadcastTo_1b_ab_apply, shapeCast_self]
  refine congrArg (· + bo (ix2 (0 : Fin 1) c) + xb (ix3 (0 : Fin 1) r c))
    ((Ideal.matmul_constant_zero_apply D3 none _ _ (ix2 r c)).trans ?_)
  rw [← Equiv.sum_comp (contrEquiv1 D3 128 rfl rfl).symm]
  refine Finset.sum_congr rfl fun e _ => ?_
  rw [D3_lhs, D3_rhs, truncf_apply, truncf_apply, divf_apply, broadcastTo_a1_ab_apply]

end Cert.KernelIdeal.AttnPay

end
-- ==== Proof.StepE.lean ====
/-
  One update of the online-softmax state by a block of 1024 keys, on the extended reals, for rows of scores and values
  that are not yet known to be real: from the state (running maximum, running normaliser, running weighted sum) and the
  block's scores `sj` and values `vj` to the new state. For real scores and values this is the update of
  Proof/LibOnlineSoftmax.lean written over the block's places.
-/
import Idealize.ShloMosaic.PureOps.Ideal

noncomputable section

namespace Cert.Bridge

open Idealize.ShloMosaic

/-- The update: `st = (m, l, a)`. -/
def stepE (sj vj : Fin 1024 → EReal) (st : EReal × EReal × EReal) : EReal × EReal × EReal :=
  (max st.1 ((Finset.univ : Finset (Fin 1024)).fold max ⊥ sj),
   Ideal.exp (st.1 - max st.1 ((Finset.univ : Finset (Fin 1024)).fold max ⊥ sj)) * st.2.1
     + ∑ k : Fin 1024, Ideal.exp (sj k - max st.1 ((Finset.univ : Finset (Fin 1024)).fold max ⊥ sj)),
   Ideal.exp (st.1 - max st.1 ((Finset.univ : Finset (Fin 1024)).fold max ⊥ sj)) * st.2.2
     + ∑ k : Fin 1024, Ideal.exp (sj k - max st.1 ((Finset.univ : Finset (Fin 1024)).fold max ⊥ sj)) * vj k)

end Cert.Bridge

end
-- ==== Proof.AttendBridge.lean ====
/-
  The softmax-weighted sum of a row of 4096 keys, computed four blocks of 1024 keys at a time.

  A row of real scores `s` and real values `v` over 4096 keys is attended by normalising with the row's maximum,
  `∑_m (exp (s m - M) / ∑_j exp (s j - M)) · v m`. The same number is the quotient `a / l` of the carried state
  `(m, l, a)` after the four consecutive blocks of 1024 keys (key `k` of block `j` is `1024 · j + k`) have each
  updated it from `(-∞, 0, 0)`: the row's maximum taken from `-∞` is its largest score, the `0 +` in front of the
  divisor changes nothing, and the blockwise recurrence ends in the closed form over all keys. The four updates are
  also written out one after the other, each with its block's maximum and sums taken over the 1024 places of the
  block. Last, a row of real-valued extended reals is the coercion of a row of reals, so the statement over the reals
  serves rows known only to be real-valued. The index type `Fin (4 * 1024)` of the blockwise cut is `Fin 4096`
  by evaluating the product.
-/
import proofs.«133523_j46909632807722_2_alg».proof.Proof.Spec
import proofs.«133523_j46909632807722_2_alg».proof.Proof.LibOnlineSoftmax
import proofs.«133523_j46909632807722_2_alg».proof.Proof.LibRealValued

noncomputable section

namespace Cert.Bridge

open Idealize.ShloMosaic
open Cert.Lib.OnlineSoftmax Cert.Lib.RealValued

/-- The row's maximum taken from `-∞` is the largest score. -/
theorem rowMax_coe (s : Fin 4096 → ℝ) {M : ℝ} (hM : IsMax (Finset.univ : Finset (Fin 4096)) s M) :
    Cert.Spec.rowMax (fun m => ((s m : ℝ) : EReal)) = (M : EReal) := by
  unfold Cert.Spec.rowMax
  rw [fold_max_bot_eq hM]
  exact max_eq_right bot_le

/-- Attention over the whole row is the quotient of the state carried through the four blocks. -/
theorem attend_eq_run (s v : Fin 4096 → ℝ) :
    Cert.Spec.attend (fun m => ((s m : ℝ) : EReal)) (fun m => ((v m : ℝ) : EReal))
      = Ideal.div (run s v (blocks (T := 4) (W := 1024)) 4).2.2 (run s v (blocks (T := 4) (W := 1024)) 4).2.1 := by
  obtain ⟨M, hM⟩ := exists_isMax (S := (Finset.univ : Finset (Fin 4096))) s Finset.univ_nonempty
  unfold Cert.Spec.attend
  rw [rowMax_coe s hM]
  simp only [zero_add]
  exact (run_blocks_div_eq (T := 4) (W := 1024) (by decide) (by decide) s v hM).symm

/-- The four updates, one after the other. -/
theorem run4 (s v : Fin 4096 → ℝ) :
    run s v (blocks (T := 4) (W := 1024)) 4
      = next s v (block (T := 4) (W := 1024) 3) (next s v (block (T := 4) (W := 1024) 2)
          (next s v (block (T := 4) (W := 1024) 1) (next s v (block (T := 4) (W := 1024) 0) (⊥, 0, 0)))) := by
  have h0 : blocks (T := 4) (W := 1024) 0 = block 0 := blocks_of_lt (by decide)
  have h1 : blocks (T := 4) (W := 1024) 1 = block 1 := blocks_of_lt (by decide)
  have h2 : blocks (T := 4) (W := 1024) 2 = block 2 := blocks_of_lt (by decide)
  have h3 : blocks (T := 4) (W := 1024) 3 = block 3 := blocks_of_lt (by decide)
  have e : ∀ B : ℕ → Finset (Fin 4096),
      run s v B 4 = next s v (B 3) (next s v (B 2) (next s v (B 1) (next s v (B 0) (⊥, 0, 0)))) := fun _ => rfl
  rw [e, h0, h1, h2, h3]

/-- One update by block `j` of the four, its maximum and its two sums taken over the 1024 places of the block. -/
theorem step_eq (s v : Fin 4096 → ℝ) (j : Fin 4) (st : EReal × EReal × EReal) :
    next s v (block (T := 4) (W := 1024) j) st
      = (max st.1 ((Finset.univ : Finset (Fin 1024)).fold max (⊥ : EReal) fun k => ((s (key j k) : ℝ) : EReal)),
         Ideal.exp (st.1 - max st.1
              ((Finset.univ : Finset (Fin 1024)).fold max (⊥ : EReal) fun k => ((s (key j k) : ℝ) : EReal))) * st.2.1
           + ∑ k : Fin 1024, Ideal.exp ((s (key j k) : EReal) - max st.1
              ((Finset.univ : Finset (Fin 1024)).fold max (⊥ : EReal) fun k => ((s (key j k) : ℝ) : EReal))),
         Ideal.exp (st.1 - max st.1
              ((Finset.univ : Finset (Fin 1024)).fold max (⊥ : EReal) fun k => ((s (key j k) : ℝ) : EReal))) * st.2.2
           + ∑ k : Fin 1024, Ideal.exp ((s (key j k) : EReal) - max st.1
              ((Finset.univ : Finset (Fin 1024)).fold max (⊥ : EReal) fun k => ((s (key j k) : ℝ) : EReal)))
               * (v (key j k) : EReal)) :=
  next_block (T := 4) (W := 1024) s v j st

/-- Key `k` of block `j` is key `1024 · j + k` of the row. -/
theorem key_val4 (j : Fin 4) (k : Fin 1024) : (key j k : Fin (4 * 1024)).val = j.val * 1024 + k.val := rfl

/-- Rows of real-valued entries are coercions of real rows, and attention may be computed on those. -/
theorem attend_congr_real {s v : Fin 4096 → EReal} (hs : ∀ m, IsReal (s m)) (hv : ∀ m, IsReal (v m)) :
    ∃ (s' v' : Fin 4096 → ℝ), (∀ m, s m = (s' m : EReal)) ∧ (∀ m, v m = (v' m : EReal))
      ∧ Cert.Spec.attend s v = Cert.Spec.attend (fun m => (s' m : EReal)) (fun m => (v' m : EReal)) := by
  obtain ⟨s', hs'⟩ := exists_real_fun hs
  obtain ⟨v', hv'⟩ := exists_real_fun hv
  have es : s = fun m => (s' m : EReal) := funext hs'
  have ev : v = fun m => (v' m : EReal) := funext hv'
  exact ⟨s', v', hs', hv', by rw [es, ev]⟩

end Cert.Bridge

end
-- ==== Proof.CoreBridge.lean ====
/-
  The kernel's arithmetic is the specification.

  For one pixel the kernel walks the 4096 keys in four blocks of 1024, carrying a running maximum, a running
  normaliser and a running weighted sum from `(-∞, 0, 0)`; the quotient of the last two is the softmax-weighted sum
  of the values over the whole row. The identity is one over the reals (it cancels the positive factors the running
  maximum introduces), so it is used for inputs whose entries are real: a projection of real entries is real, a
  score of real projections is real, and a row of real-valued extended reals is the coercion of a row of reals, on
  which the blockwise recurrence is known to end in the closed form. Contracting the quotients with the output
  weights and adding the bias and the input gives the result at an image position.
-/
import proofs.«133523_j46909632807722_2_alg».proof.Proof.Spec
import proofs.«133523_j46909632807722_2_alg».proof.Proof.StepE
import proofs.«133523_j46909632807722_2_alg».proof.Proof.AttendBridge
import proofs.«133523_j46909632807722_2_alg».proof.Proof.LibOnlineSoftmax
import proofs.«133523_j46909632807722_2_alg».proof.Proof.LibRealValued

noncomputable section

namespace Cert.Bridge

open Idealize.ShloMosaic Idealize.ShloMosaic.ValueIdx
open Cert.Lib.OnlineSoftmax Cert.Lib.RealValued Cert.Spec

/-! ## Real inputs give real projections and real scores -/

/-- A projection of real entries is real. -/
theorem isReal_proj {x : (⟨4, ![4, 64, 64, 256]⟩ : Shape).Idx → EReal} {w : (⟨2, ![256, 128]⟩ : Shape).Idx → EReal}
    {b : (⟨1, ![128]⟩ : Shape).Idx → EReal} (hx : ∀ i, IsReal (x i)) (hw : ∀ i, IsReal (w i)) (hb : ∀ i, IsReal (b i))
    (img : Fin 4) (n : Fin 4096) (d : Fin 128) : IsReal (proj x w b img n d) := by
  unfold Cert.Spec.proj
  exact (IsReal.sum _ fun c _ => (hx _).mul (hw _)).add (hb _)

/-- A score of real projections is real. -/
theorem isReal_score {kk qq : Fin 4 → Fin 4096 → Fin 128 → EReal} (hk : ∀ img n d, IsReal (kk img n d))
    (hq : ∀ img n d, IsReal (qq img n d)) (img : Fin 4) (n m : Fin 4096) : IsReal (score kk qq img n m) := by
  unfold Cert.Spec.score
  exact IsReal.sum _ fun d _ => (hk _ _ _).mul (hq _ _ _)

/-! ## One row -/

/-- An update by block `j` whose scores and values are the coercions of real rows at the block's keys is the
    update of the real rows by that block. -/
theorem stepE_eq_next (s' v' : Fin 4096 → ℝ) (j : Fin 4) (sj vj : Fin 1024 → EReal)
    (hs : ∀ k, sj k = ((s' (key (T := 4) (W := 1024) j k) : ℝ) : EReal))
    (hv : ∀ k, vj k = ((v' (key (T := 4) (W := 1024) j k) : ℝ) : EReal)) (st : EReal × EReal × EReal) :
    stepE sj vj st = next s' v' (block (T := 4) (W := 1024) j) st := by
  obtain rfl : sj = fun k => ((s' (key (T := 4) (W := 1024) j k) : ℝ) : EReal) := funext hs
  obtain rfl : vj = fun k => ((v' (key (T := 4) (W := 1024) j k) : ℝ) : EReal) := funext hv
  rw [step_eq]
  rfl

/-- The state carried through the four blocks of a row of scores `s` and values `v`, from `(-∞, 0, 0)`. -/
def rowState (s v : Fin 4096 → EReal) : EReal × EReal × EReal :=
  stepE (fun k : Fin 1024 => s (key (T := 4) (W := 1024) 3 k)) (fun k : Fin 1024 => v (key (T := 4) (W := 1024) 3 k))
    (stepE (fun k : Fin 1024 => s (key (T := 4) (W := 1024) 2 k)) (fun k : Fin 1024 => v (key (T := 4) (W := 1024) 2 k))
      (stepE (fun k : Fin 1024 => s (key (T := 4) (W := 1024) 1 k)) (fun k : Fin 1024 => v (key (T := 4) (W := 1024) 1 k))
        (stepE (fun k : Fin 1024 => s (key (T := 4) (W := 1024) 0 k)) (fun k : Fin 1024 => v (key (T := 4) (W := 1024) 0 k))
          (⊥, 0, 0))))

/-- For a real-valued row the quotient of the carried weighted sum by the carried normaliser is the row's attention. -/
theorem rowState_div {s v : Fin 4096 → EReal} (hs : ∀ m, IsReal (s m)) (hv : ∀ m, IsReal (v m)) :
    Ideal.div (rowState s v).2.2 (rowState s v).2.1 = attend s v := by
  obtain ⟨s', v', hs', hv', e⟩ := attend_congr_real hs hv
  have h (j : Fin 4) (st : EReal × EReal × EReal) :
      stepE (fun k : Fin 1024 => s (key (T := 4) (W := 1024) j k)) (fun k : Fin 1024 => v (key (T := 4) (W := 1024) j k)) st
        = next s' v' (block (T := 4) (W := 1024) j) st :=
    stepE_eq_next s' v' j _ _ (fun k => hs' _) (fun k => hv' _) st
  rw [e, attend_eq_run, run4]
  unfold rowState
  rw [h 0, h 1, h 2, h 3]

/-! ## The kernel's four steps for one pixel and one feature -/

/-- The quotient of the state after the four blocks is the attention of the pixel's row of scores over the row of
    values of feature `d`. -/
theorem four_steps (x : (⟨4, ![4, 64, 64, 256]⟩ : Shape).Idx → EReal)
    (wk : (⟨2, ![256, 128]⟩ : Shape).Idx → EReal) (bk : (⟨1, ![128]⟩ : Shape).Idx → EReal)
    (wq : (⟨2, ![256, 128]⟩ : Shape).Idx → EReal) (bq : (⟨1, ![128]⟩ : Shape).Idx → EReal)
    (wv : (⟨2, ![256, 128]⟩ : Shape).Idx → EReal) (bv : (⟨1, ![128]⟩ : Shape).Idx → EReal)
    (hx : ∀ i, IsReal (x i)) (hwk : ∀ i, IsReal (wk i)) (hbk : ∀ i, IsReal (bk i))
    (hwq : ∀ i, IsReal (wq i)) (hbq : ∀ i, IsReal (bq i)) (hwv : ∀ i, IsReal (wv i)) (hbv : ∀ i, IsReal (bv i))
    (img : Fin 4) (n : Fin 4096) (d : Fin 128) :
    let st := stepE (fun k : Fin 1024 => score (proj x wk bk) (proj x wq bq) img n (key (T := 4) (W := 1024) 3 k)) (fun k : Fin 1024 => proj x wv bv img (key (T := 4) (W := 1024) 3 k) d)
      (stepE (fun k : Fin 1024 => score (proj x wk bk) (proj x wq bq) img n (key (T := 4) (W := 1024) 2 k)) (fun k : Fin 1024 => proj x wv bv img (key (T := 4) (W := 1024) 2 k) d)
        (stepE (fun k : Fin 1024 => score (proj x wk bk) (proj x wq bq) img n (key (T := 4) (W := 1024) 1 k)) (fun k : Fin 1024 => proj x wv bv img (key (T := 4) (W := 1024) 1 k) d)
          (stepE (fun k : Fin 1024 => score (proj x wk bk) (proj x wq bq) img n (key (T := 4) (W := 1024) 0 k)) (fun k : Fin 1024 => proj x wv bv img (key (T := 4) (W := 1024) 0 k) d) (⊥, 0, 0))))
    Ideal.div st.2.2 st.2.1
      = attend (fun m => score (proj x wk bk) (proj x wq bq) img n m) (fun m => proj x wv bv img m d) := by
  intro st
  exact rowState_div (s := fun m => score (proj x wk bk) (proj x wq bq) img n m) (v := fun m => proj x wv bv img m d)
    (fun m => isReal_score (isReal_proj hx hwk hbk) (isReal_proj hx hwq hbq) img n m)
    (fun m => isReal_proj hx hwv hbv img m d)

/-! ## The result at an image position -/

/-- The quotients contracted with the output weights, plus the bias and the input, are the specification's result. -/
theorem kernel_formula (x : (⟨4, ![4, 64, 64, 256]⟩ : Shape).Idx → EReal)
    (wk : (⟨2, ![256, 128]⟩ : Shape).Idx → EReal) (bk : (⟨1, ![128]⟩ : Shape).Idx → EReal)
    (wq : (⟨2, ![256, 128]⟩ : Shape).Idx → EReal) (bq : (⟨1, ![128]⟩ : Shape).Idx → EReal)
    (wv : (⟨2, ![256, 128]⟩ : Shape).Idx → EReal) (bv : (⟨1, ![128]⟩ : Shape).Idx → EReal)
    (wo : (⟨2, ![128, 256]⟩ : Shape).Idx → EReal) (bo : (⟨1, ![256]⟩ : Shape).Idx → EReal)
    (hx : ∀ i, IsReal (x i)) (hwk : ∀ i, IsReal (wk i)) (hbk : ∀ i, IsReal (bk i))
    (hwq : ∀ i, IsReal (wq i)) (hbq : ∀ i, IsReal (bq i)) (hwv : ∀ i, IsReal (wv i)) (hbv : ∀ i, IsReal (bv i))
    (img : Fin 4) (h w : Fin 64) (ch : Fin 256) :
    let st := fun d : Fin 128 =>
      stepE (fun k : Fin 1024 => score (proj x wk bk) (proj x wq bq) img (pix h w) (key (T := 4) (W := 1024) 3 k)) (fun k : Fin 1024 => proj x wv bv img (key (T := 4) (W := 1024) 3 k) d)
        (stepE (fun k : Fin 1024 => score (proj x wk bk) (proj x wq bq) img (pix h w) (key (T := 4) (W := 1024) 2 k)) (fun k : Fin 1024 => proj x wv bv img (key (T := 4) (W := 1024) 2 k) d)
          (stepE (fun k : Fin 1024 => score (proj x wk bk) (proj x wq bq) img (pix h w) (key (T := 4) (W := 1024) 1 k)) (fun k : Fin 1024 => proj x wv bv img (key (T := 4) (W := 1024) 1 k) d)
            (stepE (fun k : Fin 1024 => score (proj x wk bk) (proj x wq bq) img (pix h w) (key (T := 4) (W := 1024) 0 k)) (fun k : Fin 1024 => proj x wv bv img (key (T := 4) (W := 1024) 0 k) d) (⊥, 0, 0))))
    ((∑ d : Fin 128, Ideal.div (st d).2.2 (st d).2.1 * wo (ix2 d ch)) + bo (ix1 ch)) + x (ix4 img h w ch)
      = Gat x wk bk wq bq wv bv wo bo img h w ch := by
  intro st
  unfold Cert.Spec.Gat
  refine congrArg (· + x (ix4 img h w ch)) (congrArg (· + bo (ix1 ch)) (Finset.sum_congr rfl fun d _ => ?_))
  exact congrArg (· * wo (ix2 d ch)) (four_steps x wk bk wq bq wv bv hx hwk hbk hwq hbq hwv hbv img (pix h w) d)

end Cert.Bridge

end
-- ==== Proof.FiniteInputs.lean ====
/-
  Finite inputs are real-valued arrays.

  The precondition says, for each of the nine float argument arrays x, that "all |x| < +∞" holds, the nine verdicts
  and-ed together: each is the reduction by "and", from the word 1, of the one-bit array whose entry at an index is the
  comparison |x i| < +∞, where |x| is max x (-x) on the extended reals and +∞ is what the pattern 0x7F800000 denotes.
  A conjunction of one-bit words is 1 only when each word is; a reduction by "and" over all axes is 1 only when each
  entry is; and max x (-x) < ⊤ rules out both infinities. So every entry of every argument array is a real number.
-/
import proofs.«133523_j46909632807722_2_alg».proof.Defs
import proofs.«133523_j46909632807722_2_alg».proof.Proof.Gen.KernelIdeal
import proofs.«133523_j46909632807722_2_alg».proof.Proof.Gen.Pre_finite_inputs
import proofs.«133523_j46909632807722_2_alg».proof.Proof.LibRealValued
import Idealize.ShloMosaic.Lib.ReduceAll
import Idealize.ShloMosaic.Lib.ValueIdx
import Idealize.ShloMosaic.Lib.IdealHost

noncomputable section

namespace Cert.Proof.Finite

open Idealize.ShloMosaic Idealize.ShloMosaic.ValueIdx Idealize.SL.Sem
open Cert.Lib.RealValued

/-- The scalar shape has one index. -/
instance : Subsingleton (⟨0, ![]⟩ : Shape).Idx := ⟨fun a b => funext fun d => d.elim0⟩

/-- The pattern 0x7F800000 denotes +∞. -/
theorem ofBits_inf : Ideal.ofBits .f32 0x7F800000#32 = (⊤ : EReal) := by simp [Ideal.ofBits, Ideal.ieee]

/-- One entry: the comparison |x| < +∞ came out 1, so x is a real number. -/
theorem isReal_of_cmp (x : Ideal .f32)
    (h : FloatOps.cmpf .olt (FloatOps.hostAbsf x) (FloatOps.ofBits (F := Ideal) .f32 0x7F800000#32) = 1#1) :
    IsReal (x : EReal) := by
  have h' : Ideal.cmp .olt (max (x : EReal) (-(x : EReal))) (Ideal.ofBits .f32 0x7F800000#32) = 1#1 := h
  rw [ofBits_inf] at h'
  unfold Ideal.cmp at h'
  refine isReal_of_abs_lt_top ?_
  by_contra hn
  simp [hn] at h'

/-- One array of any shape: "all |x| < +∞" came out 1, so every entry of x is a real number. -/
theorem isReal_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ix0 = 1#1)
    (i : s.Idx) : IsReal (x i) := by
  have h := Host.reduce_andi_all _ _ hr hu ix0 e i
  rw [cmpf_apply, broadcastInDim_scalar_apply] at h
  exact isReal_of_cmp (x i) h

/-- Every entry of every argument array is a real number. -/
theorem real_inputs (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg2) i))
      ∧ (∀ i, IsReal (m ((c.tc : Thread Cert.KernelIdeal.nD Cert.KernelIdeal.τ).loc Cert.KernelIdeal.main_arg3) i))
      ∧ (∀ i, IsReal (m ((c.tc : Thread Cert.KernelIdeal.nD Cert.KernelIdeal.τ).loc Cert.KernelIdeal.main_arg4) i))
      ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i)) := by
  have e := congrFun (h c) ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨e0, e1⟩, e2⟩, e3⟩, e4⟩, e5⟩, e6⟩, e7⟩, e8⟩ := e
  exact ⟨isReal_of_all _ _ _ _ e0, isReal_of_all _ _ _ _ e1, isReal_of_all _ _ _ _ e2, isReal_of_all _ _ _ _ e3,
    isReal_of_all _ _ _ _ e4, isReal_of_all _ _ _ _ e5, isReal_of_all _ _ _ _ e6, isReal_of_all _ _ _ _ e7,
    isReal_of_all _ _ _ _ e8⟩

end Cert.Proof.Finite

end
-- ==== Proof.ProjValue.lean ====
/-
  What the projection launch leaves in its three output arrays, as whole-array functions of the arrays it reads, on the
  extended reals.

  Point `t` of the 8-point grid forms, from pixel rows `2048·t … 2048·t + 2047` of the flattened image `X` [16384, 256],
  the concatenated weights `W` [256, 384] and the concatenated bias row `B` [1, 384], the product plus bias
  `P (p, q) = ∑ k, X (2048·t + p, k) · W (k, q) + B (0, q)` of those rows, and writes its column slices at offsets 0, 128 and
  256 (width 128) back as rows `2048·t …` of the three output arrays. The row blocks tile the arrays, so each output array
  ends holding, at `(r, d)`, `∑ k, X (r, k) · W (k, off + d) + B (0, off + d)` with `off` = 0, 128, 256: the k, q and v
  projections of pixel `r`. On the extended reals the changes of float format are the identity and the matrix unit's
  product into a zero accumulator is the plain sum, so nothing else is left of the body's arithmetic.
-/
import proofs.«133523_j46909632807722_2_alg».proof.Proof.ProjBodyIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjValue

open Cert.KernelIdeal Cert.KernelIdeal.Gen Cert.KernelIdeal.Proj
open Idealize.ShloMosaic Idealize.ShloMosaic.TcCoe Idealize.SL.Sem
open Idealize.ShloMosaic.ValueIdx
open Idealize.ShloMosaic.Pipeline (Dat)
open scoped BigOperators

/-! ## The body's arithmetic at an index -/

/-- At output index `(p, q)` and channel `k` the product's left factor sits in row `p` … -/
theorem lhs_row (i : S2048x384.Idx) (q : dot_S2048x256_S256x384_S2048x384_1_0_0_1_n_n.contr.Idx) :
    (dot_S2048x256_S256x384_S2048x384_1_0_0_1_n_n.lhsIdx i q 0).val = (i 0).val := by
  unfold DotDims.lhsIdx
  rw [dif_neg (show ¬(0 : Fin S2048x256.rank) ∈ dot_S2048x256_S256x384_S2048x384_1_0_0_1_n_n.lhsBatch by decide),
    dif_pos (show (0 : Fin S2048x256.rank) ∈ dot_S2048x256_S256x384_S2048x384_1_0_0_1_n_n.lhsNonContracting by decide)]
  rfl
/-- … and column `k`; -/
theorem lhs_col (i : S2048x384.Idx) (q : dot_S2048x256_S256x384_S2048x384_1_0_0_1_n_n.contr.Idx) :
    (dot_S2048x256_S256x384_S2048x384_1_0_0_1_n_n.lhsIdx i q 1).val = (q ⟨0, by decide⟩).val :=
  dot_S2048x256_S256x384_S2048x384_1_0_0_1_n_n.lhsIdx_val_of_single rfl i q
/-- the right factor in row `k` … -/
theorem rhs_row (i : S2048x384.Idx) (q : dot_S2048x256_S256x384_S2048x384_1_0_0_1_n_n.contr.Idx) :
    (dot_S2048x256_S256x384_S2048x384_1_0_0_1_n_n.rhsIdx i q 0).val = (q ⟨0, by decide⟩).val :=
  dot_S2048x256_S256x384_S2048x384_1_0_0_1_n_n.rhsIdx_val_of_single rfl i q
/-- … and column `q`. -/
theorem rhs_col (i : S2048x384.Idx) (q : dot_S2048x256_S256x384_S2048x384_1_0_0_1_n_n.contr.Idx) :
    (dot_S2048x256_S256x384_S2048x384_1_0_0_1_n_n.rhsIdx i q 1).val = (i 1).val := by
  unfold DotDims.rhsIdx
  rw [dif_neg (show ¬(1 : Fin S256x384.rank) ∈ dot_S2048x256_S256x384_S2048x384_1_0_0_1_n_n.rhsBatch by decide),
    dif_pos (show (1 : Fin S256x384.rank) ∈ dot_S2048x256_S256x384_S2048x384_1_0_0_1_n_n.rhsNonContracting by decide)]
  rfl

/-- The block product into a zero accumulator, at `(p, q)`: the sum over the 256 channels of the row's entries times
    the column's. -/
theorem product_apply (x : FVec Ideal S2048x256 .bf16) (w : FVec Ideal S256x384 .bf16) (p : Fin 2048) (q : Fin 384) :
    matmul dot_S2048x256_S256x384_S2048x384_1_0_0_1_n_n none x w (constant (F := Ideal) S2048x384 .f32 0x00000000#32) (ix2 p q)
      = ∑ k : Fin 256, x (ix2 p k) * w (ix2 k q) := by
  simp only [matmul]
  rw [Ideal.matmul_constant_zero_apply,
    ← Equiv.sum_comp (contrEquiv1 dot_S2048x256_S256x384_S2048x384_1_0_0_1_n_n 256 rfl rfl).symm]
  refine Finset.sum_congr rfl fun k _ => ?_
  have hk := contrEquiv1_symm_val dot_S2048x256_S256x384_S2048x384_1_0_0_1_n_n 256 rfl rfl k
  have el : dot_S2048x256_S256x384_S2048x384_1_0_0_1_n_n.lhsIdx (ix2 p q)
      ((contrEquiv1 dot_S2048x256_S256x384_S2048x384_1_0_0_1_n_n 256 rfl rfl).symm k) = ix2 p k :=
    funext fun a => Fin.ext (by
      match a with
      | ⟨0, _⟩ => exact lhs_row _ _
      | ⟨1, _⟩ => exact (lhs_col _ _).trans hk)
  have er : dot_S2048x256_S256x384_S2048x384_1_0_0_1_n_n.rhsIdx (ix2 p q)
      ((contrEquiv1 dot_S2048x256_S256x384_S2048x384_1_0_0_1_n_n 256 rfl rfl).symm k) = ix2 k q :=
    funext fun a => Fin.ext (by
      match a with
      | ⟨0, _⟩ => exact (rhs_row _ _).trans hk
      | ⟨1, _⟩ => exact rhs_col _ _)
  rw [el, er]

/-- The whole [2048, 384] product plus bias at `(p, q)`. -/
theorem pay1_apply (x : Vec Ideal S2048x256 .f32) (w : Vec Ideal S256x384 .f32) (b : Vec Ideal S1x384 .f32)
    (p : Fin 2048) (q : Fin 384) :
    k0_pay1 (F := Ideal) x w b (ix2 p q) = (∑ k : Fin 256, x (ix2 p k) * w (ix2 k q)) + b (ix2 (0 : Fin 1) q) := by
  unfold k0_pay1
  simp only [shapeCast_self]
  rw [truncf_apply, addf_apply, product_apply, broadcastTo_1b_ab_apply]
  rfl

/-- The k slice at `(p, d)`: columns `0 + d` of the product plus bias. -/
theorem pay2_apply (x : Vec Ideal S2048x256 .f32) (w : Vec Ideal S256x384 .f32) (b : Vec Ideal S1x384 .f32)
    (p : Fin 2048) (d : Fin 128) :
    k0_pay2 (F := Ideal) x w b (ix2 p d)
      = (∑ k : Fin 256, x (ix2 p k) * w (ix2 k ⟨0 + d.val, by omega⟩)) + b (ix2 (0 : Fin 1) ⟨0 + d.val, by omega⟩) := by
  unfold k0_pay2
  exact (slice2_axis1_eq 0 (k0_pay1 (F := Ideal) x w b) _ p d).trans (pay1_apply x w b p _)

/-- The q slice at `(p, d)`: columns `128 + d`. -/
theorem pay3_apply (x : Vec Ideal S2048x256 .f32) (w : Vec Ideal S256x384 .f32) (b : Vec Ideal S1x384 .f32)
    (p : Fin 2048) (d : Fin 128) :
    k0_pay3 (F := Ideal) x w b (ix2 p d)
      = (∑ k : Fin 256, x (ix2 p k) * w (ix2 k ⟨128 + d.val, by omega⟩)) + b (ix2 (0 : Fin 1) ⟨128 + d.val, by omega⟩) := by
  unfold k0_pay3
  exact (slice2_axis1_eq 128 (k0_pay1 (F := Ideal) x w b) _ p d).trans (pay1_apply x w b p _)

/-- The v slice at `(p, d)`: columns `256 + d`. -/
theorem pay4_apply (x : Vec Ideal S2048x256 .f32) (w : Vec Ideal S256x384 .f32) (b : Vec Ideal S1x384 .f32)
    (p : Fin 2048) (d : Fin 128) :
    k0_pay4 (F := Ideal) x w b (ix2 p d)
      = (∑ k : Fin 256, x (ix2 p k) * w (ix2 k ⟨256 + d.val, by omega⟩)) + b (ix2 (0 : Fin 1) ⟨256 + d.val, by omega⟩) := by
  unfold k0_pay4
  exact (slice2_axis1_eq 256 (k0_pay1 (F := Ideal) x w b) _ p d).trans (pay1_apply x w b p _)

/-! ## The arrays the launch reads, and the three projections -/

variable (V : (c : Dev nD) → (b : Ref sig .tc) → Buf (Elt Ideal) ((c : Thread nD τ).loc b))

/-- The flattened image [16384, 256] as the launch finds it, -/
abbrev image (c : Dev nD) : S16384x256.Idx → EReal := V c main_v1
/-- the concatenated weights [256, 384], -/
abbrev weights (c : Dev nD) : S256x384.Idx → EReal := V c main_v2
/-- and the concatenated bias row [1, 384]. -/
abbrev bias (c : Dev nD) : S1x384.Idx → EReal := V c main_v4

/-- Pixel row `r` projected onto output column `off + d` of the concatenated weights, plus that column's bias. -/
def projAt (c : Dev nD) (off : Nat) (hoff : off + 128 ≤ 384) (r : Fin 16384) (d : Fin 128) : EReal :=
  (∑ k : Fin 256, image V c (ix2 r k) * weights V c (ix2 k ⟨off + d.val, by omega⟩))
    + bias V c (ix2 (0 : Fin 1) ⟨off + d.val, by omega⟩)

/-! ## Which block each window holds at a point -/

/-- Decided over the 8 grid points: the image window and the three output windows sit at row block `t`; the weights and
    the bias row are whole, always at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The image block at point `t` is rows `2048·t …` of the flattened image. -/
theorem iblk0_apply (c : Dev nD) (t : Fin cfg0.N) (p : Fin 2048) (k : Fin 256) (r : Fin 16384)
    (hr : r.val = 2048 * t.val + p.val) :
    (iblk V c 0 t : Vec Ideal S2048x256 .f32) (ix2 p k) = image V c (ix2 r k) := by
  obtain ⟨e0, e1, -⟩ := index_facts t
  unfold iblk
  rw [View.read_apply]
  show image V c _ = image V c _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 256 + 1 * k.val = k.val; rw [e1]; omega

/-- The weights block at every point is the whole weight matrix. -/
theorem iblk1_apply (c : Dev nD) (t : Fin cfg0.N) (k : Fin 256) (q : Fin 384) :
    (iblk V c 1 t : Vec Ideal S256x384 .f32) (ix2 k q) = weights V c (ix2 k q) := by
  obtain ⟨-, -, e0, e1, -⟩ := index_facts t
  unfold iblk
  rw [View.read_apply]
  show weights V c _ = weights V c _
  congr 1
  funext a
  apply Fin.ext
  match a with
  | ⟨0, _⟩ => show win0_1.index t (0 : Fin 2) * 256 + 1 * k.val = k.val; rw [e0]; omega
  | ⟨1, _⟩ => show win0_1.index t (1 : Fin 2) * 384 + 1 * q.val = q.val; rw [e1]; omega

/-- The bias block at every point is the whole bias row. -/
theorem iblk2_apply (c : Dev nD) (t : Fin cfg0.N) (u : Fin 1) (q : Fin 384) :
    (iblk V c 2 t : Vec Ideal S1x384 .f32) (ix2 u q) = bias V c (ix2 u q) := by
  obtain ⟨-, -, -, -, e0, e1, -⟩ := index_facts t
  unfold iblk
  rw [View.read_apply]
  show bias V c _ = bias V c _
  congr 1
  funext a
  apply Fin.ext
  match a with
  | ⟨0, _⟩ => show win0_2.index t (0 : Fin 2) * 1 + 1 * u.val = u.val; rw [e0]; omega
  | ⟨1, _⟩ => show win0_2.index t (1 : Fin 2) * 384 + 1 * q.val = q.val; rw [e1]; omega

/-! ## From blocks to the arrays -/

/-- The zero offsets of a whole-buffer access. -/
theorem zero_offsets : (![0, 0] : Fin 2 → Nat) = fun _ => 0 := funext fun a => by fin_cases a <;> rfl

/-- What point `t` writes back to the k array: rows `2048·t …` of the projection at column offset 0. -/
theorem flushed_k (c : Dev nD) (t : Fin cfg0.N) :
    (dat (F := Ideal) V c).flushed 3 t
      = ((cfg0.win 3).blk t).view.read (Elt Ideal) (fun i : S16384x128.Idx => projAt V c 0 (by decide) (i 0) (i 1)) := by
  obtain ⟨-, -, -, -, -, -, e0, e1, -⟩ := index_facts t
  have ht : t.val < 8 := lt_of_lt_of_eq t.isLt N_0
  show (cfg0.win 3).cut (grid0.coords t) ((dat (F := Ideal) V c).after 3 t) = _
  rw [after_3]
  unfold outK
  rw [View.canon_unit_zero zero_offsets]
  simp only [View.ld_unit_zero (S := S2048x256) zero_offsets, View.ld_unit_zero (S := S256x384) zero_offsets,
    View.ld_unit_zero (S := S1x384) zero_offsets]
  funext j
  obtain ⟨p, d, rfl⟩ : ∃ (p : Fin 2048) (d : Fin 128), j = ix2 p d := ⟨j 0, j 1, eq_ix2 (n0 := 2048) (n1 := 128) j⟩
  have he : ((cfg0.win 3).blk t).view.emb (ix2 p d) = ix2 (⟨2048 * t.val + p.val, by omega⟩ : Fin 16384) d := by
    funext a; apply Fin.ext
    match a with
    | ⟨0, _⟩ => show win0_3.index t (0 : Fin 2) * 2048 + 1 * p.val = 2048 * t.val + p.val; rw [e0]; omega
    | ⟨1, _⟩ => show win0_3.index t (1 : Fin 2) * 128 + 1 * d.val = d.val; rw [e1]; omega
  rw [View.read_apply, he]
  show k0_pay2 (F := Ideal) (iblk V c 0 t) (iblk V c 1 t) (iblk V c 2 t) (ix2 p d)
    = projAt V c 0 (by decide) (⟨2048 * t.val + p.val, by omega⟩ : Fin 16384) d
  refine (pay2_apply (iblk V c 0 t) (iblk V c 1 t) (iblk V c 2 t) p d).trans ?_
  unfold projAt
  exact congrArg₂ (· + ·)
    (Finset.sum_congr rfl fun k _ => congrArg₂ (· * ·) (iblk0_apply V c t p k _ rfl) (iblk1_apply V c t k _))
    (iblk2_apply V c t _ _)

/-- An index of the k array is in point `t`'s block iff each coordinate is in the block's range on its axis. -/
theorem mem_blk_k (t : Fin cfg0.N) (i : S16384x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v6_0).slice (win0_3.rect t)).set ↔ _
  rw [View.set_slice_whole, Rect.mem_set_unit]
  exact Iff.rfl

/-- Row `r` of the k array is written back by point `r / 2048`: the row blocks tile the array. -/
theorem cover_k (i : S16384x128.Idx) :
    ∃ t : Fin cfg0.N, (cfg0.win 3).flush t = true ∧ i ∈ ((cfg0.win 3).blk t).view.set := by
  have h0 : (i 0).val < 16384 := idx2_lt0 i
  have h1 : (i 1).val < 128 := idx2_lt1 i
  have hN : cfg0.N = 8 := N_0
  have hlt : (i 0).val / 2048 < cfg0.N := by rw [hN]; omega
  obtain ⟨-, -, -, -, -, -, e0, e1, -⟩ := index_facts ⟨(i 0).val / 2048, hlt⟩
  have e0 : win0_3.index ⟨(i 0).val / 2048, hlt⟩ (0 : Fin 2) = (i 0).val / 2048 := e0
  refine ⟨⟨(i 0).val / 2048, hlt⟩, flush0_3 _, ?_⟩
  rw [mem_blk_k]
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    rw [e0]; omega
  | ⟨1, _⟩ =>
    show win0_3.index ⟨(i 0).val / 2048, hlt⟩ (1 : Fin 2) * 128 ≤ (i 1).val
      ∧ (i 1).val < win0_3.index ⟨(i 0).val / 2048, hlt⟩ (1 : Fin 2) * 128 + 128
    rw [e1]; omega

/-- THE K ARRAY after the launch: at `(r, d)` pixel row `r` projected onto column `0 + d`, plus bias. -/
theorem final_k (c : Dev nD) :
    (dat (F := Ideal) V c).arrAt 3 cfg0.N = fun i : S16384x128.Idx => projAt V c 0 (by decide) (i 0) (i 1) :=
  (dat (F := Ideal) V c).arrAt_eq_of_cover 3 _ (fun t _ => flushed_k V c t) cover_k

/-- What point `t` writes back to the q array: rows `2048·t …` of the projection at column offset 128. -/
theorem flushed_q (c : Dev nD) (t : Fin cfg0.N) :
    (dat (F := Ideal) V c).flushed 4 t
      = ((cfg0.win 4).blk t).view.read (Elt Ideal) (fun i : S16384x128.Idx => projAt V c 128 (by decide) (i 0) (i 1)) := by
  obtain ⟨-, -, -, -, -, -, -, -, e0, e1, -⟩ := index_facts t
  have ht : t.val < 8 := lt_of_lt_of_eq t.isLt N_0
  show (cfg0.win 4).cut (grid0.coords t) ((dat (F := Ideal) V c).after 4 t) = _
  rw [after_4]
  unfold outQ
  rw [View.canon_unit_zero zero_offsets]
  simp only [View.ld_unit_zero (S := S2048x256) zero_offsets, View.ld_unit_zero (S := S256x384) zero_offsets,
    View.ld_unit_zero (S := S1x384) zero_offsets]
  funext j
  obtain ⟨p, d, rfl⟩ : ∃ (p : Fin 2048) (d : Fin 128), j = ix2 p d := ⟨j 0, j 1, eq_ix2 (n0 := 2048) (n1 := 128) j⟩
  have he : ((cfg0.win 4).blk t).view.emb (ix2 p d) = ix2 (⟨2048 * t.val + p.val, by omega⟩ : Fin 16384) d := by
    funext a; apply Fin.ext
    match a with
    | ⟨0, _⟩ => show win0_4.index t (0 : Fin 2) * 2048 + 1 * p.val = 2048 * t.val + p.val; rw [e0]; omega
    | ⟨1, _⟩ => show win0_4.index t (1 : Fin 2) * 128 + 1 * d.val = d.val; rw [e1]; omega
  rw [View.read_apply, he]
  show k0_pay3 (F := Ideal) (iblk V c 0 t) (iblk V c 1 t) (iblk V c 2 t) (ix2 p d)
    = projAt V c 128 (by decide) (⟨2048 * t.val + p.val, by omega⟩ : Fin 16384) d
  refine (pay3_apply (iblk V c 0 t) (iblk V c 1 t) (iblk V c 2 t) p d).trans ?_
  unfold projAt
  exact congrArg₂ (· + ·)
    (Finset.sum_congr rfl fun k _ => congrArg₂ (· * ·) (iblk0_apply V c t p k _ rfl) (iblk1_apply V c t k _))
    (iblk2_apply V c t _ _)

/-- An index of the q array is in point `t`'s block iff each coordinate is in the block's range on its axis. -/
theorem mem_blk_q (t : Fin cfg0.N) (i : S16384x128.Idx) :
    i ∈ ((cfg0.win 4).blk t).view.set ↔ ∀ a : Fin 2, win0_4.index t a * S2048x128.size a ≤ (i a).val
      ∧ (i a).val < win0_4.index t a * S2048x128.size a + S2048x128.size a := by
  show i ∈ ((View.whole main_v6_1).slice (win0_4.rect t)).set ↔ _
  rw [View.set_slice_whole, Rect.mem_set_unit]
  exact Iff.rfl

/-- Row `r` of the q array is written back by point `r / 2048`: the row blocks tile the array. -/
theorem cover_q (i : S16384x128.Idx) :
    ∃ t : Fin cfg0.N, (cfg0.win 4).flush t = true ∧ i ∈ ((cfg0.win 4).blk t).view.set := by
  have h0 : (i 0).val < 16384 := idx2_lt0 i
  have h1 : (i 1).val < 128 := idx2_lt1 i
  have hN : cfg0.N = 8 := N_0
  have hlt : (i 0).val / 2048 < cfg0.N := by rw [hN]; omega
  obtain ⟨-, -, -, -, -, -, -, -, e0, e1, -⟩ := index_facts ⟨(i 0).val / 2048, hlt⟩
  have e0 : win0_4.index ⟨(i 0).val / 2048, hlt⟩ (0 : Fin 2) = (i 0).val / 2048 := e0
  refine ⟨⟨(i 0).val / 2048, hlt⟩, flush0_4 _, ?_⟩
  rw [mem_blk_q]
  intro a
  match a with
  | ⟨0, _⟩ =>
    show win0_4.index ⟨(i 0).val / 2048, hlt⟩ (0 : Fin 2) * 2048 ≤ (i 0).val
      ∧ (i 0).val < win0_4.index ⟨(i 0).val / 2048, hlt⟩ (0 : Fin 2) * 2048 + 2048
    rw [e0]; omega
  | ⟨1, _⟩ =>
    show win0_4.index ⟨(i 0).val / 2048, hlt⟩ (1 : Fin 2) * 128 ≤ (i 1).val
      ∧ (i 1).val < win0_4.index ⟨(i 0).val / 2048, hlt⟩ (1 : Fin 2) * 128 + 128
    rw [e1]; omega

/-- THE Q ARRAY after the launch: at `(r, d)` pixel row `r` projected onto column `128 + d`, plus bias. -/
theorem final_q (c : Dev nD) :
    (dat (F := Ideal) V c).arrAt 4 cfg0.N = fun i : S16384x128.Idx => projAt V c 128 (by decide) (i 0) (i 1) :=
  (dat (F := Ideal) V c).arrAt_eq_of_cover 4 _ (fun t _ => flushed_q V c t) cover_q

/-- What point `t` writes back to the v array: rows `2048·t …` of the projection at column offset 256. -/
theorem flushed_v (c : Dev nD) (t : Fin cfg0.N) :
    (dat (F := Ideal) V c).flushed 5 t
      = ((cfg0.win 5).blk t).view.read (Elt Ideal) (fun i : S16384x128.Idx => projAt V c 256 (by decide) (i 0) (i 1)) := by
  obtain ⟨-, -, -, -, -, -, -, -, -, -, e0, e1⟩ := index_facts t
  have ht : t.val < 8 := lt_of_lt_of_eq t.isLt N_0
  show (cfg0.win 5).cut (grid0.coords t) ((dat (F := Ideal) V c).after 5 t) = _
  rw [after_5]
  unfold outV
  rw [View.canon_unit_zero zero_offsets]
  simp only [View.ld_unit_zero (S := S2048x256) zero_offsets, View.ld_unit_zero (S := S256x384) zero_offsets,
    View.ld_unit_zero (S := S1x384) zero_offsets]
  funext j
  obtain ⟨p, d, rfl⟩ : ∃ (p : Fin 2048) (d : Fin 128), j = ix2 p d := ⟨j 0, j 1, eq_ix2 (n0 := 2048) (n1 := 128) j⟩
  have he : ((cfg0.win 5).blk t).view.emb (ix2 p d) = ix2 (⟨2048 * t.val + p.val, by omega⟩ : Fin 16384) d := by
    funext a; apply Fin.ext
    match a with
    | ⟨0, _⟩ => show win0_5.index t (0 : Fin 2) * 2048 + 1 * p.val = 2048 * t.val + p.val; rw [e0]; omega
    | ⟨1, _⟩ => show win0_5.index t (1 : Fin 2) * 128 + 1 * d.val = d.val; rw [e1]; omega
  rw [View.read_apply, he]
  show k0_pay4 (F := Ideal) (iblk V c 0 t) (iblk V c 1 t) (iblk V c 2 t) (ix2 p d)
    = projAt V c 256 (by decide) (⟨2048 * t.val + p.val, by omega⟩ : Fin 16384) d
  refine (pay4_apply (iblk V c 0 t) (iblk V c 1 t) (iblk V c 2 t) p d).trans ?_
  unfold projAt
  exact congrArg₂ (· + ·)
    (Finset.sum_congr rfl fun k _ => congrArg₂ (· * ·) (iblk0_apply V c t p k _ rfl) (iblk1_apply V c t k _))
    (iblk2_apply V c t _ _)

/-- An index of the v array is in point `t`'s block iff each coordinate is in the block's range on its axis. -/
theorem mem_blk_v (t : Fin cfg0.N) (i : S16384x128.Idx) :
    i ∈ ((cfg0.win 5).blk t).view.set ↔ ∀ a : Fin 2, win0_5.index t a * S2048x128.size a ≤ (i a).val
      ∧ (i a).val < win0_5.index t a * S2048x128.size a + S2048x128.size a := by
  show i ∈ ((View.whole main_v6_2).slice (win0_5.rect t)).set ↔ _
  rw [View.set_slice_whole, Rect.mem_set_unit]
  exact Iff.rfl

/-- Row `r` of the v array is written back by point `r / 2048`: the row blocks tile the array. -/
theorem cover_v (i : S16384x128.Idx) :
    ∃ t : Fin cfg0.N, (cfg0.win 5).flush t = true ∧ i ∈ ((cfg0.win 5).blk t).view.set := by
  have h0 : (i 0).val < 16384 := idx2_lt0 i
  have h1 : (i 1).val < 128 := idx2_lt1 i
  have hN : cfg0.N = 8 := N_0
  have hlt : (i 0).val / 2048 < cfg0.N := by rw [hN]; omega
  obtain ⟨-, -, -, -, -, -, -, -, -, -, e0, e1⟩ := index_facts ⟨(i 0).val / 2048, hlt⟩
  have e0 : win0_5.index ⟨(i 0).val / 2048, hlt⟩ (0 : Fin 2) = (i 0).val / 2048 := e0
  refine ⟨⟨(i 0).val / 2048, hlt⟩, flush0_5 _, ?_⟩
  rw [mem_blk_v]
  intro a
  match a with
  | ⟨0, _⟩ =>
    show win0_5.index ⟨(i 0).val / 2048, hlt⟩ (0 : Fin 2) * 2048 ≤ (i 0).val
      ∧ (i 0).val < win0_5.index ⟨(i 0).val / 2048, hlt⟩ (0 : Fin 2) * 2048 + 2048
    rw [e0]; omega
  | ⟨1, _⟩ =>
    show win0_5.index ⟨(i 0).val / 2048, hlt⟩ (1 : Fin 2) * 128 ≤ (i 1).val
      ∧ (i 1).val < win0_5.index ⟨(i 0).val / 2048, hlt⟩ (1 : Fin 2) * 128 + 128
    rw [e1]; omega

/-- THE V ARRAY after the launch: at `(r, d)` pixel row `r` projected onto column `256 + d`, plus bias. -/
theorem final_v (c : Dev nD) :
    (dat (F := Ideal) V c).arrAt 5 cfg0.N = fun i : S16384x128.Idx => projAt V c 256 (by decide) (i 0) (i 1) :=
  (dat (F := Ideal) V c).arrAt_eq_of_cover 5 _ (fun t _ => flushed_v V c t) cover_v

/-! ## The same, read at a pixel row and an output column -/

theorem final_k_apply (c : Dev nD) (r : Fin 16384) (d : Fin 128) :
    ((dat (F := Ideal) V c).arrAt 3 cfg0.N : S16384x128.Idx → EReal) (ix2 r d) = projAt V c 0 (by decide) r d :=
  congrFun (final_k V c) (ix2 r d)

theorem final_q_apply (c : Dev nD) (r : Fin 16384) (d : Fin 128) :
    ((dat (F := Ideal) V c).arrAt 4 cfg0.N : S16384x128.Idx → EReal) (ix2 r d) = projAt V c 128 (by decide) r d :=
  congrFun (final_q V c) (ix2 r d)

theorem final_v_apply (c : Dev nD) (r : Fin 16384) (d : Fin 128) :
    ((dat (F := Ideal) V c).arrAt 5 cfg0.N : S16384x128.Idx → EReal) (ix2 r d) = projAt V c 256 (by decide) r d :=
  congrFun (final_v V c) (ix2 r d)

end Cert.KernelIdeal.ProjValue

end
-- ==== Proof.HostGlue.lean ====
/-
  The host operations around the two launches, read at an index, on the extended reals.

  Before the projection launch the host flattens the image [4, 64, 64, 256] to pixel rows [16384, 256] (image `img`,
  pixel `n` = 64·row + column, at row `4096·img + n`), lays the three weight matrices [256, 128] side by side as
  [256, 384] and the three biases [128] end to end as one row [1, 384], and makes the output bias [256] a row [1, 256].
  Between the launches it cuts each projection [16384, 128] back into images [4, 4096, 128]; after the attention launch it
  folds the pixels [4, 4096, 256] back into rows and columns [4, 64, 64, 256]. None of these operations computes: each
  result element is one element of one operand, named here by coordinates.
-/
import proofs.«133523_j46909632807722_2_alg».proof.Proof.KernelRunIdeal
import proofs.«133523_j46909632807722_2_alg».proof.Proof.ProjValue
import proofs.«133523_j46909632807722_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Glue

open Cert.KernelIdeal Cert.KernelIdeal.Gen Cert.KernelIdeal.Run Cert.Spec
open Idealize.ShloMosaic Idealize.ShloMosaic.TcCoe Idealize.SL.Sem
open Idealize.ShloMosaic.ValueIdx
open scoped BigOperators

/-! ## Row and pixel arithmetic -/

/-- Pixel `n` of image `img` as a row of the flattened image. -/
def rowAll (img : Fin 4) (n : Fin 4096) : Fin 16384 := ⟨4096 * img.val + n.val, by omega⟩

/-! ## The reshapes at an index -/

/-- Images [4, 64, 64, C] as pixel lists [4, 4096, C]: pixel `n` is row `n / 64`, column `n % 64`. -/
theorem pixels_of_image_apply (x : S4x64x64x256.Idx → EReal) (img : Fin 4) (n : Fin 4096) (ch : Fin 256) :
    shapeCast S4x4096x256 x shapeCasts_S4x64x64x256_S4x4096x256 (ix3 img n ch) = x (ix4 img (hOf n) (wOf n) ch) :=
  shapeCast_apply x _ _ _ (by
    rw [Shape.rowMajor_val_four, Shape.rowMajor_val_three]
    show ((img.val * 64 + n.val / 64) * 64 + n.val % 64) * 256 + ch.val = (img.val * 4096 + n.val) * 256 + ch.val
    omega)

/-- Pixel lists [4, 4096, 256] as one list of rows [16384, 256]: pixel `n` of image `img` is row `4096·img + n`. -/
theorem rows_of_pixels_apply (x : S4x4096x256.Idx → EReal) (img : Fin 4) (n : Fin 4096) (k : Fin 256) :
    shapeCast S16384x256 x shapeCasts_S4x4096x256_S16384x256 (ix2 (rowAll img n) k) = x (ix3 img n k) :=
  shapeCast_apply x _ _ _ (by
    rw [Shape.rowMajor_val_three, Shape.rowMajor_val_two]
    show (img.val * 4096 + n.val) * 256 + k.val = (4096 * img.val + n.val) * 256 + k.val
    omega)

/-- Rows [16384, 128] cut back into images' pixel lists [4, 4096, 128]. -/
theorem pixels_of_rows_apply (x : S16384x128.Idx → EReal) (img : Fin 4) (n : Fin 4096) (e : Fin 128) :
    shapeCast S4x4096x128 x shapeCasts_S16384x128_S4x4096x128 (ix3 img n e) = x (ix2 (rowAll img n) e) :=
  shapeCast_apply x _ _ _ (by
    rw [Shape.rowMajor_val_three, Shape.rowMajor_val_two]
    show (4096 * img.val + n.val) * 128 + e.val = (img.val * 4096 + n.val) * 128 + e.val
    omega)

/-- Pixel lists [4, 4096, 256] folded back into rows and columns [4, 64, 64, 256]. -/
theorem image_of_pixels_apply (x : S4x4096x256.Idx → EReal) (img : Fin 4) (h w : Fin 64) (ch : Fin 256) :
    shapeCast S4x64x64x256 x shapeCasts_S4x4096x256_S4x64x64x256 (ix4 img h w ch) = x (ix3 img (pix h w) ch) :=
  shapeCast_apply x _ _ _ (by
    rw [Shape.rowMajor_val_four, Shape.rowMajor_val_three]
    show (img.val * 4096 + (64 * h.val + w.val)) * 256 + ch.val = ((img.val * 64 + h.val) * 64 + w.val) * 256 + ch.val
    omega)

/-! ## The first stretch of host operations, over any contents `X` of the buffers before it -/

section Stretch0
variable (X : Valuation τ sig (Elt Ideal))

/-- The pixel lists are the image reshaped. -/
theorem pixels_eq :
    (StableHlo.after hostOps0 X (Proc.devRef .tc main_v0) : S4x4096x256.Idx → EReal)
      = shapeCast S4x4096x256 (X (Proc.devRef .tc main_arg0) : S4x64x64x256.Idx → EReal) shapeCasts_S4x64x64x256_S4x4096x256 := by
  after_results; rfl

/-- The flattened image is the image reshaped twice. -/
theorem flat_image_eq :
    (StableHlo.after hostOps0 X (Proc.devRef .tc main_v1) : S16384x256.Idx → EReal)
      = shapeCast S16384x256 (shapeCast S4x4096x256 (X (Proc.devRef .tc main_arg0) : S4x64x64x256.Idx → EReal)
          shapeCasts_S4x64x64x256_S4x4096x256) shapeCasts_S4x4096x256_S16384x256 := by
  after_results; rfl

/-- The concatenated weights are the three weight matrices side by side. -/
theorem weights_eq :
    (StableHlo.after hostOps0 X (Proc.devRef .tc main_v2) : S256x384.Idx → EReal)
      = concatenate S256x384 1 [⟨S256x128, (X (Proc.devRef .tc main_arg1) : S256x128.Idx → EReal)⟩,
          ⟨S256x128, (X (Proc.devRef .tc main_arg3) : S256x128.Idx → EReal)⟩,
          ⟨S256x128, (X (Proc.devRef .tc main_arg5) : S256x128.Idx → EReal)⟩]
          concatenates_S256x128_S256x128_S256x128_S256x384_d1 := by
  after_results; rfl

/-- The bias row is the three biases end to end, as one row. -/
theorem bias_row_eq :
    (StableHlo.after hostOps0 X (Proc.devRef .tc main_v4) : S1x384.Idx → EReal)
      = broadcastInDim S1x384 ![1] bcast_S384_S1x384_1
          (concatenate S384 0 [⟨S128, (X (Proc.devRef .tc main_arg2) : S128.Idx → EReal)⟩,
            ⟨S128, (X (Proc.devRef .tc main_arg4) : S128.Idx → EReal)⟩,
            ⟨S128, (X (Proc.devRef .tc main_arg6) : S128.Idx → EReal)⟩]
            concatenates_S128_S128_S128_S384_d0) := by
  after_results; rfl

/-- The output bias as a row. -/
theorem out_bias_row_eq :
    (StableHlo.after hostOps0 X (Proc.devRef .tc main_v5) : S1x256.Idx → EReal)
      = broadcastInDim S1x256 ![1] bcast_S256_S1x256_1 (X (Proc.devRef .tc main_arg8) : S256.Idx → EReal) := by
  after_results

end Stretch0

/-! ## Concatenations and row broadcasts at an index -/

/-- Three [256, 128] matrices side by side: column `off + d` of the result is column `d` of the matrix whose band
    `[off, off + 128)` holds it. -/
theorem weights_cat_apply (w0 w1 w2 : S256x128.Idx → EReal) (k : Fin 256) (d : Fin 128) :
    concatenate S256x384 1 [⟨S256x128, w0⟩, ⟨S256x128, w1⟩, ⟨S256x128, w2⟩]
        concatenates_S256x128_S256x128_S256x128_S256x384_d1 (ix2 k ⟨0 + d.val, by omega⟩) = w0 (ix2 k d)
    ∧ concatenate S256x384 1 [⟨S256x128, w0⟩, ⟨S256x128, w1⟩, ⟨S256x128, w2⟩]
        concatenates_S256x128_S256x128_S256x128_S256x384_d1 (ix2 k ⟨128 + d.val, by omega⟩) = w1 (ix2 k d)
    ∧ concatenate S256x384 1 [⟨S256x128, w0⟩, ⟨S256x128, w1⟩, ⟨S256x128, w2⟩]
        concatenates_S256x128_S256x128_S256x128_S256x384_d1 (ix2 k ⟨256 + d.val, by omega⟩) = w2 (ix2 k d) := by
  refine ⟨?_, ?_, ?_⟩
  · exact concatenate_apply_piece (1 : Fin S256x384.rank) _ _ _ 0 (by show (0 : ℕ) < 3; decide) S256x128 w0 rfl rfl 0 rfl (ix2 k d)
      (fun b hb => by match b with | ⟨0, _⟩ => rfl | ⟨1, _⟩ => exact absurd rfl hb) rfl
  · exact concatenate_apply_piece (1 : Fin S256x384.rank) _ _ _ 1 (by show (1 : ℕ) < 3; decide) S256x128 w1 rfl rfl 128 rfl (ix2 k d)
      (fun b hb => by match b with | ⟨0, _⟩ => rfl | ⟨1, _⟩ => exact absurd rfl hb) rfl
  · exact concatenate_apply_piece (1 : Fin S256x384.rank) _ _ _ 2 (by show (2 : ℕ) < 3; decide) S256x128 w2 rfl rfl 256 rfl (ix2 k d)
      (fun b hb => by match b with | ⟨0, _⟩ => rfl | ⟨1, _⟩ => exact absurd rfl hb) rfl

/-- Three [128] vectors end to end: entry `off + d` is entry `d` of the vector whose span holds it. -/
theorem bias_cat_apply (b0 b1 b2 : S128.Idx → EReal) (d : Fin 128) :
    concatenate S384 0 [⟨S128, b0⟩, ⟨S128, b1⟩, ⟨S128, b2⟩] concatenates_S128_S128_S128_S384_d0
        (ix1 ⟨0 + d.val, by omega⟩) = b0 (ix1 d)
    ∧ concatenate S384 0 [⟨S128, b0⟩, ⟨S128, b1⟩, ⟨S128, b2⟩] concatenates_S128_S128_S128_S384_d0
        (ix1 ⟨128 + d.val, by omega⟩) = b1 (ix1 d)
    ∧ concatenate S384 0 [⟨S128, b0⟩, ⟨S128, b1⟩, ⟨S128, b2⟩] concatenates_S128_S128_S128_S384_d0
        (ix1 ⟨256 + d.val, by omega⟩) = b2 (ix1 d) := by
  refine ⟨?_, ?_, ?_⟩
  · exact concatenate_apply_piece (0 : Fin S384.rank) _ _ _ 0 (by show (0 : ℕ) < 3; decide) S128 b0 rfl rfl 0 rfl (ix1 d)
      (fun b hb => by match b with | ⟨0, _⟩ => exact absurd rfl hb) rfl
  · exact concatenate_apply_piece (0 : Fin S384.rank) _ _ _ 1 (by show (1 : ℕ) < 3; decide) S128 b1 rfl rfl 128 rfl (ix1 d)
      (fun b hb => by match b with | ⟨0, _⟩ => exact absurd rfl hb) rfl
  · exact concatenate_apply_piece (0 : Fin S384.rank) _ _ _ 2 (by show (2 : ℕ) < 3; decide) S128 b2 rfl rfl 256 rfl (ix1 d)
      (fun b hb => by match b with | ⟨0, _⟩ => exact absurd rfl hb) rfl

/-- A [384] vector as a row [1, 384]. -/
theorem row384_apply (v : S384.Idx → EReal) (u : Fin 1) (q : Fin 384) :
    broadcastInDim S1x384 ![1] bcast_S384_S1x384_1 v (ix2 u q) = v (ix1 q) :=
  broadcastInDim_apply _ _ v _ _ fun a => by
    match a with
    | ⟨0, _⟩ => show q.val = if (384 : ℕ) = 1 then 0 else q.val; rw [if_neg (by decide)]

/-- A [256] vector as a row [1, 256]. -/
theorem row256_apply (v : S256.Idx → EReal) (u : Fin 1) (q : Fin 256) :
    broadcastInDim S1x256 ![1] bcast_S256_S1x256_1 v (ix2 u q) = v (ix1 q) :=
  broadcastInDim_apply _ _ v _ _ fun a => by
    match a with
    | ⟨0, _⟩ => show q.val = if (256 : ℕ) = 1 then 0 else q.val; rw [if_neg (by decide)]

/-! ## The second and third stretches, over any contents of the buffers before them -/

section Stretch12
variable (Y : Valuation τ sig (Elt Ideal))

/-- The k projection as images' pixel lists is the k array reshaped; -/
theorem k_pixels_eq :
    (StableHlo.after hostOps1 Y (Proc.devRef .tc main_v7) : S4x4096x128.Idx → EReal)
      = shapeCast S4x4096x128 (Y (Proc.devRef .tc main_v6_0) : S16384x128.Idx → EReal) shapeCasts_S16384x128_S4x4096x128 := by
  after_results; rfl
/-- the q projection likewise; -/
theorem q_pixels_eq :
    (StableHlo.after hostOps1 Y (Proc.devRef .tc main_v8) : S4x4096x128.Idx → EReal)
      = shapeCast S4x4096x128 (Y (Proc.devRef .tc main_v6_1) : S16384x128.Idx → EReal) shapeCasts_S16384x128_S4x4096x128 := by
  after_results; rfl
/-- and the v projection. -/
theorem v_pixels_eq :
    (StableHlo.after hostOps1 Y (Proc.devRef .tc main_v9) : S4x4096x128.Idx → EReal)
      = shapeCast S4x4096x128 (Y (Proc.devRef .tc main_v6_2) : S16384x128.Idx → EReal) shapeCasts_S16384x128_S4x4096x128 := by
  after_results; rfl

/-- The result is the attention launch's output folded back into rows and columns. -/
theorem result_eq :
    (StableHlo.after hostOps2 Y (Proc.devRef .tc main_v11) : S4x64x64x256.Idx → EReal)
      = shapeCast S4x64x64x256 (Y (Proc.devRef .tc main_v10) : S4x4096x256.Idx → EReal) shapeCasts_S4x4096x256_S4x64x64x256 := by
  after_results; rfl

end Stretch12

/-! ## The program's buffers at each boundary, read at an index -/

variable (m : (ℓ : Loc nD τ sig) → Buf (Elt Ideal) ℓ) (ρ : Dev nD → PrngReg)

/-- The argument arrays as launched: the image, -/
abbrev A0 (c : Dev nD) : S4x64x64x256.Idx → EReal := m ((c : Thread nD τ).loc main_arg0)
/-- the k weights and bias, -/
abbrev A1 (c : Dev nD) : S256x128.Idx → EReal := m ((c : Thread nD τ).loc main_arg1)
abbrev A2 (c : Dev nD) : S128.Idx → EReal := m ((c : Thread nD τ).loc main_arg2)
/-- the q weights and bias, -/
abbrev A3 (c : Dev nD) : S256x128.Idx → EReal := m ((c : Thread nD τ).loc main_arg3)
abbrev A4 (c : Dev nD) : S128.Idx → EReal := m ((c : Thread nD τ).loc main_arg4)
/-- the v weights and bias, -/
abbrev A5 (c : Dev nD) : S256x128.Idx → EReal := m ((c : Thread nD τ).loc main_arg5)
abbrev A6 (c : Dev nD) : S128.Idx → EReal := m ((c : Thread nD τ).loc main_arg6)
/-- the output weights and bias. -/
abbrev A7 (c : Dev nD) : S128x256.Idx → EReal := m ((c : Thread nD τ).loc main_arg7)
abbrev A8 (c : Dev nD) : S256.Idx → EReal := m ((c : Thread nD τ).loc main_arg8)

/-! ### What the projection launch reads -/

/-- Row `4096·img + n` of the flattened image is pixel `n` of image `img`. -/
theorem flat_image_apply (c : Dev nD) (img : Fin 4) (n : Fin 4096) (k : Fin 256) :
    (Run.V1 m ρ c main_v1 : S16384x256.Idx → EReal) (ix2 (rowAll img n) k) = A0 m c (ix4 img (hOf n) (wOf n) k) :=
  (congrFun (flat_image_eq (W0 m ρ c)) _).trans ((rows_of_pixels_apply _ img n k).trans (pixels_of_image_apply _ img n k))

/-- Columns `[0, 128)` of the concatenated weights are the k weights, -/
theorem weights_k_apply (c : Dev nD) (k : Fin 256) (d : Fin 128) :
    (Run.V1 m ρ c main_v2 : S256x384.Idx → EReal) (ix2 k ⟨0 + d.val, by omega⟩) = A1 m c (ix2 k d) :=
  (congrFun (weights_eq (W0 m ρ c)) _).trans (weights_cat_apply _ _ _ k d).1
/-- columns `[128, 256)` the q weights, -/
theorem weights_q_apply (c : Dev nD) (k : Fin 256) (d : Fin 128) :
    (Run.V1 m ρ c main_v2 : S256x384.Idx → EReal) (ix2 k ⟨128 + d.val, by omega⟩) = A3 m c (ix2 k d) :=
  (congrFun (weights_eq (W0 m ρ c)) _).trans (weights_cat_apply _ _ _ k d).2.1
/-- columns `[256, 384)` the v weights. -/
theorem weights_v_apply (c : Dev nD) (k : Fin 256) (d : Fin 128) :
    (Run.V1 m ρ c main_v2 : S256x384.Idx → EReal) (ix2 k ⟨256 + d.val, by omega⟩) = A5 m c (ix2 k d) :=
  (congrFun (weights_eq (W0 m ρ c)) _).trans (weights_cat_apply _ _ _ k d).2.2

/-- Entries `[0, 128)` of the bias row are the k bias, -/
theorem bias_k_apply (c : Dev nD) (d : Fin 128) :
    (Run.V1 m ρ c main_v4 : S1x384.Idx → EReal) (ix2 (0 : Fin 1) ⟨0 + d.val, by omega⟩) = A2 m c (ix1 d) :=
  (congrFun (bias_row_eq (W0 m ρ c)) _).trans ((row384_apply _ 0 _).trans (bias_cat_apply _ _ _ d).1)
/-- entries `[128, 256)` the q bias, -/
theorem bias_q_apply (c : Dev nD) (d : Fin 128) :
    (Run.V1 m ρ c main_v4 : S1x384.Idx → EReal) (ix2 (0 : Fin 1) ⟨128 + d.val, by omega⟩) = A4 m c (ix1 d) :=
  (congrFun (bias_row_eq (W0 m ρ c)) _).trans ((row384_apply _ 0 _).trans (bias_cat_apply _ _ _ d).2.1)
/-- entries `[256, 384)` the v bias. -/
theorem bias_v_apply (c : Dev nD) (d : Fin 128) :
    (Run.V1 m ρ c main_v4 : S1x384.Idx → EReal) (ix2 (0 : Fin 1) ⟨256 + d.val, by omega⟩) = A6 m c (ix1 d) :=
  (congrFun (bias_row_eq (W0 m ρ c)) _).trans ((row384_apply _ 0 _).trans (bias_cat_apply _ _ _ d).2.2)

/-! ### What the attention launch reads -/

/-- The k projection of pixel `n` of image `img` is row `4096·img + n` of what the projection launch left in its k array, -/
theorem k_pixels_apply (c : Dev nD) (img : Fin 4) (n : Fin 4096) (e : Fin 128) :
    (Run.V3 m ρ c main_v7 : S4x4096x128.Idx → EReal) (ix3 img n e)
      = ((Proj.dat (Run.V1 m ρ) c).arrAt 3 cfg0.N : S16384x128.Idx → EReal) (ix2 (rowAll img n) e) :=
  (congrFun (k_pixels_eq (W2 m ρ c)) _).trans ((pixels_of_rows_apply _ img n e).trans (congrFun (W2_arr m ρ c 3) _))
/-- the q projection of its q array, -/
theorem q_pixels_apply (c : Dev nD) (img : Fin 4) (n : Fin 4096) (e : Fin 128) :
    (Run.V3 m ρ c main_v8 : S4x4096x128.Idx → EReal) (ix3 img n e)
      = ((Proj.dat (Run.V1 m ρ) c).arrAt 4 cfg0.N : S16384x128.Idx → EReal) (ix2 (rowAll img n) e) :=
  (congrFun (q_pixels_eq (W2 m ρ c)) _).trans ((pixels_of_rows_apply _ img n e).trans (congrFun (W2_arr m ρ c 4) _))
/-- the v projection of its v array. -/
theorem v_pixels_apply (c : Dev nD) (img : Fin 4) (n : Fin 4096) (e : Fin 128) :
    (Run.V3 m ρ c main_v9 : S4x4096x128.Idx → EReal) (ix3 img n e)
      = ((Proj.dat (Run.V1 m ρ) c).arrAt 5 cfg0.N : S16384x128.Idx → EReal) (ix2 (rowAll img n) e) :=
  (congrFun (v_pixels_eq (W2 m ρ c)) _).trans ((pixels_of_rows_apply _ img n e).trans (congrFun (W2_arr m ρ c 5) _))

/-- The pixel lists the attention launch adds back are the image's, untouched by the projection launch. -/
theorem pixels_apply (c : Dev nD) (img : Fin 4) (n : Fin 4096) (ch : Fin 256) :
    (Run.V3 m ρ c main_v0 : S4x4096x256.Idx → EReal) (ix3 img n ch) = A0 m c (ix4 img (hOf n) (wOf n) ch) := by
  have e : Run.V3 m ρ c main_v0 = W1 m ρ c (Proc.devRef .tc main_v0) :=
    (StableHlo.after_of_writes_sub hostOps1 _ hostOps1_writes (by decide)).trans (W2_of_ne m ρ c main_v0 (by decide))
  exact (congrFun e _).trans ((congrFun (pixels_eq (W0 m ρ c)) _).trans (pixels_of_image_apply _ img n ch))

/-- The output weights reach the attention launch as launched, -/
theorem out_weights_eq (c : Dev nD) : (Run.V3 m ρ c main_arg7 : S128x256.Idx → EReal) = A7 m c :=
  (StableHlo.after_of_writes_sub hostOps1 _ hostOps1_writes (by decide)).trans
    ((W2_of_ne m ρ c main_arg7 (by decide)).trans (StableHlo.after_of_writes_sub hostOps0 _ hostOps0_writes (by decide)))

/-- and the output bias as one row. -/
theorem out_bias_apply (c : Dev nD) (ch : Fin 256) :
    (Run.V3 m ρ c main_v5 : S1x256.Idx → EReal) (ix2 (0 : Fin 1) ch) = A8 m c (ix1 ch) := by
  have e : Run.V3 m ρ c main_v5 = W1 m ρ c (Proc.devRef .tc main_v5) :=
    (StableHlo.after_of_writes_sub hostOps1 _ hostOps1_writes (by decide)).trans (W2_of_ne m ρ c main_v5 (by decide))
  exact (congrFun e _).trans ((congrFun (out_bias_row_eq (W0 m ρ c)) _).trans (row256_apply _ 0 ch))

/-! ### The result -/

/-- The result at image `img`, row `h`, column `w` is pixel `64·h + w` of what the attention launch left in its array. -/
theorem result_apply (c : Dev nD) (img : Fin 4) (h w : Fin 64) (ch : Fin 256) :
    (W5 m ρ c (Proc.devRef .tc main_v11) : S4x64x64x256.Idx → EReal) (ix4 img h w ch)
      = ((Attn.dat (Run.V3 m ρ) c).arrAt 6 cfg1.N : S4x4096x256.Idx → EReal) (ix3 img (pix h w) ch) :=
  (congrFun (result_eq (W4 m ρ c)) _).trans ((image_of_pixels_apply _ img h w ch).trans (congrFun (W4_arr m ρ c 6) _))

/-! ### The three projections the attention launch reads, as functions of the arguments -/

/-- The k projection: the image's pixel against the k weights, plus the k bias. -/
theorem k_proj (c : Dev nD) (img : Fin 4) (n : Fin 4096) (e : Fin 128) :
    (Run.V3 m ρ c main_v7 : S4x4096x128.Idx → EReal) (ix3 img n e) = Cert.Spec.proj (A0 m c) (A1 m c) (A2 m c) img n e := by
  refine (k_pixels_apply m ρ c img n e).trans ((ProjValue.final_k_apply (Run.V1 m ρ) c (rowAll img n) e).trans ?_)
  unfold ProjValue.projAt Cert.Spec.proj
  exact congrArg₂ (· + ·)
    (Finset.sum_congr rfl fun k _ => congrArg₂ (· * ·) (flat_image_apply m ρ c img n k) (weights_k_apply m ρ c k e))
    (bias_k_apply m ρ c e)

/-- The q projection. -/
theorem q_proj (c : Dev nD) (img : Fin 4) (n : Fin 4096) (e : Fin 128) :
    (Run.V3 m ρ c main_v8 : S4x4096x128.Idx → EReal) (ix3 img n e) = Cert.Spec.proj (A0 m c) (A3 m c) (A4 m c) img n e := by
  refine (q_pixels_apply m ρ c img n e).trans ((ProjValue.final_q_apply (Run.V1 m ρ) c (rowAll img n) e).trans ?_)
  unfold ProjValue.projAt Cert.Spec.proj
  exact congrArg₂ (· + ·)
    (Finset.sum_congr rfl fun k _ => congrArg₂ (· * ·) (flat_image_apply m ρ c img n k) (weights_q_apply m ρ c k e))
    (bias_q_apply m ρ c e)

/-- The v projection. -/
theorem v_proj (c : Dev nD) (img : Fin 4) (n : Fin 4096) (e : Fin 128) :
    (Run.V3 m ρ c main_v9 : S4x4096x128.Idx → EReal) (ix3 img n e) = Cert.Spec.proj (A0 m c) (A5 m c) (A6 m c) img n e := by
  refine (v_pixels_apply m ρ c img n e).trans ((ProjValue.final_v_apply (Run.V1 m ρ) c (rowAll img n) e).trans ?_)
  unfold ProjValue.projAt Cert.Spec.proj
  exact congrArg₂ (· + ·)
    (Finset.sum_congr rfl fun k _ => congrArg₂ (· * ·) (flat_image_apply m ρ c img n k) (weights_v_apply m ρ c k e))
    (bias_v_apply m ρ c e)

end Cert.KernelIdeal.Glue

end
-- ==== Proof.AttnValue.lean ====
/-
  The attention launch's buffers after each grid point, as formulas.

  The grid runs over (image, block of 1024 rows, block of 1024 columns); the column block moves fastest, so four
  consecutive positions `4g, 4g+1, 4g+2, 4g+3` sweep the four column blocks of one row block. Three scratch buffers carry
  the online-softmax state of the row block from one position to the next: the running maximum and the running
  normaliser (columns [1024, 1]) and the running weighted sum ([1024, 128]). At a first column block the body first stores
  the initial state (−∞, 0, 0) and then updates it; at every other column block it updates what the position before left;
  at a last column block it also reads the new weighted sum and normaliser back, divides, projects, adds the bias and the
  residual block, and stores the output block.

  First, for each case and each buffer, the contents the case's list of stores leaves is the last store's payload applied
  to the input blocks and to the previous scratch contents (any float instance). Then, on the extended reals, the three
  scratch payloads read at a row are ONE function of the row's previous state, the row's scores against the block and the
  block's values — the update `stepE` —, so the state of a row after a position is that update of the initial state at a
  first column block and of the previous position's state otherwise; and the output block's entry at a last column block is
  the new weighted sum over the new normaliser, projected, plus bias and residual.
-/
import proofs.«133523_j46909632807722_2_alg».proof.Proof.AttnBodyIdeal
import proofs.«133523_j46909632807722_2_alg».proof.Proof.AttnPayload
import Idealize.ShloMosaic.Lib.Pipeline.Value
import Idealize.ShloMosaic.Lib.Tactic
import proofs.«133523_j46909632807722_2_alg».proof.Proof.StepE

set_option maxRecDepth 16384

noncomputable section

namespace Cert.KernelIdeal.AttnVal

open Cert.KernelIdeal Cert.KernelIdeal.Gen Cert.KernelIdeal.Attn Cert.KernelIdeal.AttnPay
open Idealize.ShloMosaic Idealize.ShloMosaic.TcCoe Idealize.ShloMosaic.Tactic Idealize.ShloMosaic.ValueIdx
open Idealize.SL Idealize.SL.Sem

variable {F : FTy → Type} [FloatOps F]

/-! ## Every access of the body is of a whole buffer -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case's stores leave, buffer by buffer

Each buffer is written by whole-buffer stores; the last one decides, so the contents the list of stores leaves is the last
store's payload. That payload reads the input buffers whole, and reads each scratch buffer either as the point before left
it or — in a first column block — as the initial store just made. The statements hold at any float instance. -/

section Pieces
variable (c : Dev nD) (i : grid1.Coords) (arg3 : Memref sig .tc .vmem S1x1024x256 .f32) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S128x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x1 .f32) (harg12 : arg12.IsWhole)
variable (x0 : Vec F S1x1024x256 .f32) (x1 : Vec F S1x1024x128 .bf16) (x2 : Vec F S1x1024x128 .bf16) (x3 : Vec F S1x1024x128 .bf16) (x4 : Vec F S128x256 .f32) (x5 : Vec F S1x256 .f32) (xsA : Vec F S1024x128 .f32) (xsM : Vec F S1024x1 .f32) (xsL : Vec F S1024x1 .f32)

/-- After a first column block the weighted-sum buffer holds the step from the zero state. -/
theorem pieceA_A (hc0 : cond0 i) (hc1 : ¬cond1 i) :
    View.canon (kernelRun_A (F := F) c i arg3 harg3 arg4 harg4 arg5 harg5 arg6 harg6 arg7 harg7 arg8 harg8 arg9 harg9 arg10 harg10 arg11 harg11 arg12 harg12 hc0 hc1 x0 x1 x2 x3 x4 x5).2.1
      = k1_pay1 (k1_pay7 x3) (k1_pay13 x1 x2 k1_pay4 k1_pay6) (k1_pay14 x1 x2 k1_pay4) (constant (F := F) S1024x128 .f32 0x00000000#32) := by
  unfold kernelRun_A
  dsimp only
  sl_unfold_words
  rw [View.canon_cons_unit_zero (S := S1024x128) hz2,
    View.readCov_unit_zero (S := S1024x1) _ hz2,
    View.readCov_unit_zero (S := S1024x128) _ hz2]
  simp only [View.readAt_eq_ld, harg3.read_unread, harg4.read_unread, harg5.read_unread, harg6.read_unread, harg7.read_unread,
    harg8.read_unread, harg10.read_unread, harg11.read_unread, harg12.read_unread, View.ld_unit_zero (S := S1x1024x128) hz3,
    View.ld_unit_zero (S := S1x1024x256) hz3, View.ld_unit_zero (S := S1024x128) hz2, View.ld_unit_zero (S := S1024x1) hz2,
    View.ld_unit_zero (S := S128x256) hz2, View.ld_unit_zero (S := S1x256) hz2]

/-- After a first column block the maximum buffer holds the step from −∞. -/
theorem pieceA_M (hc0 : cond0 i) (hc1 : ¬cond1 i) :
    View.canon (kernelRun_A (F := F) c i arg3 harg3 arg4 harg4 arg5 harg5 arg6 harg6 arg7 harg7 arg8 harg8 arg9 harg9 arg10 harg10 arg11 harg11 arg12 harg12 hc0 hc1 x0 x1 x2 x3 x4 x5).2.2.1
      = k1_pay2 (k1_pay9 x1 x2 k1_pay4) := by
  unfold kernelRun_A
  dsimp only
  sl_unfold_words
  rw [View.canon_cons_unit_zero (S := S1024x1) hz2,
    View.readCov_unit_zero (S := S1024x1) _ hz2]
  simp only [View.readAt_eq_ld, harg3.read_unread, harg4.read_unread, harg5.read_unread, harg6.read_unread, harg7.read_unread,
    harg8.read_unread, harg10.read_unread, harg11.read_unread, harg12.read_unread, View.ld_unit_zero (S := S1x1024x128) hz3,
    View.ld_unit_zero (S := S1x1024x256) hz3, View.ld_unit_zero (S := S1024x128) hz2, View.ld_unit_zero (S := S1024x1) hz2,
    View.ld_unit_zero (S := S128x256) hz2, View.ld_unit_zero (S := S1x256) hz2]

/-- After a first column block the normaliser buffer holds the step from the zero state. -/
theorem pieceA_L (hc0 : cond0 i) (hc1 : ¬cond1 i) :
    View.canon (kernelRun_A (F := F) c i arg3 harg3 arg4 harg4 arg5 harg5 arg6 harg6 arg7 harg7 arg8 harg8 arg9 harg9 arg10 harg10 arg11 harg11 arg12 harg12 hc0 hc1 x0 x1 x2 x3 x4 x5).2.2.2.1
      = k1_pay12 x1 x2 k1_pay4 k1_pay5 := by
  unfold kernelRun_A
  dsimp only
  sl_unfold_words
  rw [View.canon_cons_unit_zero (S := S1024x1) hz2,
    View.readCov_unit_zero (S := S1024x1) _ hz2,
    View.readCov_unit_zero (S := S1024x1) _ hz2]
  simp only [View.readAt_eq_ld, harg3.read_unread, harg4.read_unread, harg5.read_unread, harg6.read_unread, harg7.read_unread,
    harg8.read_unread, harg10.read_unread, harg11.read_unread, harg12.read_unread, View.ld_unit_zero (S := S1x1024x128) hz3,
    View.ld_unit_zero (S := S1x1024x256) hz3, View.ld_unit_zero (S := S1024x128) hz2, View.ld_unit_zero (S := S1024x1) hz2,
    View.ld_unit_zero (S := S128x256) hz2, View.ld_unit_zero (S := S1x256) hz2]

/-- After a middle column block the weighted-sum buffer holds the step from what it held before. -/
theorem pieceB_A (hc0 : ¬cond0 i) (hc1 : ¬cond1 i) :
    View.canon (kernelRun_B (F := F) c i arg3 harg3 arg4 harg4 arg5 harg5 arg6 harg6 arg7 harg7 arg8 harg8 arg9 harg9 arg10 harg10 arg11 harg11 arg12 harg12 hc0 hc1 x0 x1 x2 x3 x4 x5 xsA xsM xsL).2.1
      = k1_pay1 (k1_pay7 x3) (k1_pay13 x1 x2 xsM xsA) (k1_pay14 x1 x2 xsM) (constant (F := F) S1024x128 .f32 0x00000000#32) := by
  unfold kernelRun_B
  dsimp only
  sl_unfold_words
  rw [View.canon_cons_unit_zero (S := S1024x128) hz2]
  simp only [View.readAt_eq_ld, harg3.read_unread, harg4.read_unread, harg5.read_unread, harg6.read_unread, harg7.read_unread,
    harg8.read_unread, harg10.read_unread, harg11.read_unread, harg12.read_unread, View.ld_unit_zero (S := S1x1024x128) hz3,
    View.ld_unit_zero (S := S1x1024x256) hz3, View.ld_unit_zero (S := S1024x128) hz2, View.ld_unit_zero (S := S1024x1) hz2,
    View.ld_unit_zero (S := S128x256) hz2, View.ld_unit_zero (S := S1x256) hz2]

/-- After a middle column block the maximum buffer holds the step from what it held before. -/
theorem pieceB_M (hc0 : ¬cond0 i) (hc1 : ¬cond1 i) :
    View.canon (kernelRun_B (F := F) c i arg3 harg3 arg4 harg4 arg5 harg5 arg6 harg6 arg7 harg7 arg8 harg8 arg9 harg9 arg10 harg10 arg11 harg11 arg12 harg12 hc0 hc1 x0 x1 x2 x3 x4 x5 xsA xsM xsL).2.2.1
      = k1_pay2 (k1_pay9 x1 x2 xsM) := by
  unfold kernelRun_B
  dsimp only
  sl_unfold_words
  rw [View.canon_cons_unit_zero (S := S1024x1) hz2]
  simp only [View.readAt_eq_ld, harg3.read_unread, harg4.read_unread, harg5.read_unread, harg6.read_unread, harg7.read_unread,
    harg8.read_unread, harg10.read_unread, harg11.read_unread, harg12.read_unread, View.ld_unit_zero (S := S1x1024x128) hz3,
    View.ld_unit_zero (S := S1x1024x256) hz3, View.ld_unit_zero (S := S1024x128) hz2, View.ld_unit_zero (S := S1024x1) hz2,
    View.ld_unit_zero (S := S128x256) hz2, View.ld_unit_zero (S := S1x256) hz2]

/-- After a middle column block the normaliser buffer holds the step from what it held before. -/
theorem pieceB_L (hc0 : ¬cond0 i) (hc1 : ¬cond1 i) :
    View.canon (kernelRun_B (F := F) c i arg3 harg3 arg4 harg4 arg5 harg5 arg6 harg6 arg7 harg7 arg8 harg8 arg9 harg9 arg10 harg10 arg11 harg11 arg12 harg12 hc0 hc1 x0 x1 x2 x3 x4 x5 xsA xsM xsL).2.2.2.1
      = k1_pay12 x1 x2 xsM xsL := by
  unfold kernelRun_B
  dsimp only
  sl_unfold_words
  rw [View.canon_cons_unit_zero (S := S1024x1) hz2]
  simp only [View.readAt_eq_ld, harg3.read_unread, harg4.read_unread, harg5.read_unread, harg6.read_unread, harg7.read_unread,
    harg8.read_unread, harg10.read_unread, harg11.read_unread, harg12.read_unread, View.ld_unit_zero (S := S1x1024x128) hz3,
    View.ld_unit_zero (S := S1x1024x256) hz3, View.ld_unit_zero (S := S1024x128) hz2, View.ld_unit_zero (S := S1024x1) hz2,
    View.ld_unit_zero (S := S128x256) hz2, View.ld_unit_zero (S := S1x256) hz2]

/-- After the last column block the weighted-sum buffer holds the step from what it held before. -/
theorem pieceC_A (hc0 : ¬cond0 i) (hc1 : cond1 i) :
    View.canon (kernelRun_C (F := F) c i arg3 harg3 arg4 harg4 arg5 harg5 arg6 harg6 arg7 harg7 arg8 harg8 arg9 harg9 arg10 harg10 arg11 harg11 arg12 harg12 hc0 hc1 x0 x1 x2 x3 x4 x5 xsA xsM xsL).2.1
      = k1_pay1 (k1_pay7 x3) (k1_pay13 x1 x2 xsM xsA) (k1_pay14 x1 x2 xsM) (constant (F := F) S1024x128 .f32 0x00000000#32) := by
  unfold kernelRun_C
  dsimp only
  sl_unfold_words
  rw [View.canon_cons_unit_zero (S := S1024x128) hz2]
  simp only [View.readAt_eq_ld, harg3.read_unread, harg4.read_unread, harg5.read_unread, harg6.read_unread, harg7.read_unread,
    harg8.read_unread, harg10.read_unread, harg11.read_unread, harg12.read_unread, View.ld_unit_zero (S := S1x1024x128) hz3,
    View.ld_unit_zero (S := S1x1024x256) hz3, View.ld_unit_zero (S := S1024x128) hz2, View.ld_unit_zero (S := S1024x1) hz2,
    View.ld_unit_zero (S := S128x256) hz2, View.ld_unit_zero (S := S1x256) hz2]

/-- After the last column block the maximum buffer holds the step from what it held before. -/
theorem pieceC_M (hc0 : ¬cond0 i) (hc1 : cond1 i) :
    View.canon (kernelRun_C (F := F) c i arg3 harg3 arg4 harg4 arg5 harg5 arg6 harg6 arg7 harg7 arg8 harg8 arg9 harg9 arg10 harg10 arg11 harg11 arg12 harg12 hc0 hc1 x0 x1 x2 x3 x4 x5 xsA xsM xsL).2.2.1
      = k1_pay2 (k1_pay9 x1 x2 xsM) := by
  unfold kernelRun_C
  dsimp only
  sl_unfold_words
  rw [View.canon_cons_unit_zero (S := S1024x1) hz2]
  simp only [View.readAt_eq_ld, harg3.read_unread, harg4.read_unread, harg5.read_unread, harg6.read_unread, harg7.read_unread,
    harg8.read_unread, harg10.read_unread, harg11.read_unread, harg12.read_unread, View.ld_unit_zero (S := S1x1024x128) hz3,
    View.ld_unit_zero (S := S1x1024x256) hz3, View.ld_unit_zero (S := S1024x128) hz2, View.ld_unit_zero (S := S1024x1) hz2,
    View.ld_unit_zero (S := S128x256) hz2, View.ld_unit_zero (S := S1x256) hz2]

/-- After the last column block the normaliser buffer holds the step from what it held before. -/
theorem pieceC_L (hc0 : ¬cond0 i) (hc1 : cond1 i) :
    View.canon (kernelRun_C (F := F) c i arg3 harg3 arg4 harg4 arg5 harg5 arg6 harg6 arg7 harg7 arg8 harg8 arg9 harg9 arg10 harg10 arg11 harg11 arg12 harg12 hc0 hc1 x0 x1 x2 x3 x4 x5 xsA xsM xsL).2.2.2.1
      = k1_pay12 x1 x2 xsM xsL := by
  unfold kernelRun_C
  dsimp only
  sl_unfold_words
  rw [View.canon_cons_unit_zero (S := S1024x1) hz2]
  simp only [View.readAt_eq_ld, harg3.read_unread, harg4.read_unread, harg5.read_unread, harg6.read_unread, harg7.read_unread,
    harg8.read_unread, harg10.read_unread, harg11.read_unread, harg12.read_unread, View.ld_unit_zero (S := S1x1024x128) hz3,
    View.ld_unit_zero (S := S1x1024x256) hz3, View.ld_unit_zero (S := S1024x128) hz2, View.ld_unit_zero (S := S1024x1) hz2,
    View.ld_unit_zero (S := S128x256) hz2, View.ld_unit_zero (S := S1x256) hz2]

/-- After the last column block the output block is the normalised, projected and shifted new weighted sum: the body reads the two scratch buffers back after storing them. -/
theorem pieceC_O (hc0 : ¬cond0 i) (hc1 : cond1 i) :
    View.canon (kernelRun_C (F := F) c i arg3 harg3 arg4 harg4 arg5 harg5 arg6 harg6 arg7 harg7 arg8 harg8 arg9 harg9 arg10 harg10 arg11 harg11 arg12 harg12 hc0 hc1 x0 x1 x2 x3 x4 x5 xsA xsM xsL).1
      = k1_pay3 (k1_pay1 (k1_pay7 x3) (k1_pay13 x1 x2 xsM xsA) (k1_pay14 x1 x2 xsM) (constant (F := F) S1024x128 .f32 0x00000000#32)) (k1_pay12 x1 x2 xsM xsL) x4 x5 x0 := by
  unfold kernelRun_C
  dsimp only
  sl_unfold_words
  rw [View.canon_cons_unit_zero (S := S1x1024x256) hz3,
    View.readCov_unit_zero (S := S1024x128) _ hz2,
    View.readCov_unit_zero (S := S1024x1) _ hz2]
  simp only [View.readAt_eq_ld, harg3.read_unread, harg4.read_unread, harg5.read_unread, harg6.read_unread, harg7.read_unread,
    harg8.read_unread, harg10.read_unread, harg11.read_unread, harg12.read_unread, View.ld_unit_zero (S := S1x1024x128) hz3,
    View.ld_unit_zero (S := S1x1024x256) hz3, View.ld_unit_zero (S := S1024x128) hz2, View.ld_unit_zero (S := S1024x1) hz2,
    View.ld_unit_zero (S := S128x256) hz2, View.ld_unit_zero (S := S1x256) hz2]

end Pieces

/-! ## The same at a grid point: the buffers are the launch's, the blocks the point's

`p` is what the point before left in the three scratch buffers: (weighted sum, maximum, normaliser). The stores of each
case cover the buffer, so reading the buffer back gives what the list of stores leaves. -/

section AtPoint
variable (V : (c : Dev nD) → (b : Ref sig .tc) → Buf (Elt F) ((c : Thread nD τ).loc b))

theorem stA_A (c : Dev nD) (t : Fin cfg1.N) (h0 : t.val % 4 = 0) :
    (stA V c t h0).2.1 = k1_pay1 (k1_pay7 (iblk V c 3 t)) (k1_pay13 (iblk V c 1 t) (iblk V c 2 t) k1_pay4 k1_pay6) (k1_pay14 (iblk V c 1 t) (iblk V c 2 t) k1_pay4) (constant (F := F) S1024x128 .f32 0x00000000#32) := by
  unfold stA
  dsimp only
  rw [View.read_writes_eq_canon _ _ _ (scover_A_A V c t h0)]
  exact pieceA_A c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) (iblk V c 0 t) (iblk V c 1 t) (iblk V c 2 t) (iblk V c 3 t) (iblk V c 4 t) (iblk V c 5 t) ((hcond0 t).mpr h0) (fun h => not3_of_0 h0 ((hcond1 t).mp h))

theorem stA_M (c : Dev nD) (t : Fin cfg1.N) (h0 : t.val % 4 = 0) :
    (stA V c t h0).2.2.1 = k1_pay2 (k1_pay9 (iblk V c 1 t) (iblk V c 2 t) k1_pay4) := by
  unfold stA
  dsimp only
  rw [View.read_writes_eq_canon _ _ _ (scover_A_M V c t h0)]
  exact pieceA_M c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) (iblk V c 0 t) (iblk V c 1 t) (iblk V c 2 t) (iblk V c 3 t) (iblk V c 4 t) (iblk V c 5 t) ((hcond0 t).mpr h0) (fun h => not3_of_0 h0 ((hcond1 t).mp h))

theorem stA_L (c : Dev nD) (t : Fin cfg1.N) (h0 : t.val % 4 = 0) :
    (stA V c t h0).2.2.2 = k1_pay12 (iblk V c 1 t) (iblk V c 2 t) k1_pay4 k1_pay5 := by
  unfold stA
  dsimp only
  rw [View.read_writes_eq_canon _ _ _ (scover_A_L V c t h0)]
  exact pieceA_L c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) (iblk V c 0 t) (iblk V c 1 t) (iblk V c 2 t) (iblk V c 3 t) (iblk V c 4 t) (iblk V c 5 t) ((hcond0 t).mpr h0) (fun h => not3_of_0 h0 ((hcond1 t).mp h))

theorem stB_A (c : Dev nD) (t : Fin cfg1.N) (h0 : ¬ t.val % 4 = 0) (h3 : ¬ t.val % 4 = 3) (p : Vec F S1024x128 .f32 × Vec F S1024x1 .f32 × Vec F S1024x1 .f32) :
    (stB V c t h0 h3 p).2.1 = k1_pay1 (k1_pay7 (iblk V c 3 t)) (k1_pay13 (iblk V c 1 t) (iblk V c 2 t) p.2.1 p.1) (k1_pay14 (iblk V c 1 t) (iblk V c 2 t) p.2.1) (constant (F := F) S1024x128 .f32 0x00000000#32) := by
  unfold stB
  dsimp only
  rw [View.read_writes_eq_canon _ _ _ (scover_B_A V c t h0 h3 p)]
  exact pieceB_A c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) (iblk V c 0 t) (iblk V c 1 t) (iblk V c 2 t) (iblk V c 3 t) (iblk V c 4 t) (iblk V c 5 t) p.1 p.2.1 p.2.2 (fun h => h0 ((hcond0 t).mp h)) (fun h => h3 ((hcond1 t).mp h))

theorem stB_M (c : Dev nD) (t : Fin cfg1.N) (h0 : ¬ t.val % 4 = 0) (h3 : ¬ t.val % 4 = 3) (p : Vec F S1024x128 .f32 × Vec F S1024x1 .f32 × Vec F S1024x1 .f32) :
    (stB V c t h0 h3 p).2.2.1 = k1_pay2 (k1_pay9 (iblk V c 1 t) (iblk V c 2 t) p.2.1) := by
  unfold stB
  dsimp only
  rw [View.read_writes_eq_canon _ _ _ (scover_B_M V c t h0 h3 p)]
  exact pieceB_M c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) (iblk V c 0 t) (iblk V c 1 t) (iblk V c 2 t) (iblk V c 3 t) (iblk V c 4 t) (iblk V c 5 t) p.1 p.2.1 p.2.2 (fun h => h0 ((hcond0 t).mp h)) (fun h => h3 ((hcond1 t).mp h))

theorem stB_L (c : Dev nD) (t : Fin cfg1.N) (h0 : ¬ t.val % 4 = 0) (h3 : ¬ t.val % 4 = 3) (p : Vec F S1024x128 .f32 × Vec F S1024x1 .f32 × Vec F S1024x1 .f32) :
    (stB V c t h0 h3 p).2.2.2 = k1_pay12 (iblk V c 1 t) (iblk V c 2 t) p.2.1 p.2.2 := by
  unfold stB
  dsimp only
  rw [View.read_writes_eq_canon _ _ _ (scover_B_L V c t h0 h3 p)]
  exact pieceB_L c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) (iblk V c 0 t) (iblk V c 1 t) (iblk V c 2 t) (iblk V c 3 t) (iblk V c 4 t) (iblk V c 5 t) p.1 p.2.1 p.2.2 (fun h => h0 ((hcond0 t).mp h)) (fun h => h3 ((hcond1 t).mp h))

theorem stC_A (c : Dev nD) (t : Fin cfg1.N) (h0 : ¬ t.val % 4 = 0) (h3 : t.val % 4 = 3) (p : Vec F S1024x128 .f32 × Vec F S1024x1 .f32 × Vec F S1024x1 .f32) :
    (stC V c t h0 h3 p).2.1 = k1_pay1 (k1_pay7 (iblk V c 3 t)) (k1_pay13 (iblk V c 1 t) (iblk V c 2 t) p.2.1 p.1) (k1_pay14 (iblk V c 1 t) (iblk V c 2 t) p.2.1) (constant (F := F) S1024x128 .f32 0x00000000#32) := by
  unfold stC
  dsimp only
  rw [View.read_writes_eq_canon _ _ _ (scover_C_A V c t h0 h3 p)]
  exact pieceC_A c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) (iblk V c 0 t) (iblk V c 1 t) (iblk V c 2 t) (iblk V c 3 t) (iblk V c 4 t) (iblk V c 5 t) p.1 p.2.1 p.2.2 (fun h => h0 ((hcond0 t).mp h)) ((hcond1 t).mpr h3)

theorem stC_M (c : Dev nD) (t : Fin cfg1.N) (h0 : ¬ t.val % 4 = 0) (h3 : t.val % 4 = 3) (p : Vec F S1024x128 .f32 × Vec F S1024x1 .f32 × Vec F S1024x1 .f32) :
    (stC V c t h0 h3 p).2.2.1 = k1_pay2 (k1_pay9 (iblk V c 1 t) (iblk V c 2 t) p.2.1) := by
  unfold stC
  dsimp only
  rw [View.read_writes_eq_canon _ _ _ (scover_C_M V c t h0 h3 p)]
  exact pieceC_M c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) (iblk V c 0 t) (iblk V c 1 t) (iblk V c 2 t) (iblk V c 3 t) (iblk V c 4 t) (iblk V c 5 t) p.1 p.2.1 p.2.2 (fun h => h0 ((hcond0 t).mp h)) ((hcond1 t).mpr h3)

theorem stC_L (c : Dev nD) (t : Fin cfg1.N) (h0 : ¬ t.val % 4 = 0) (h3 : t.val % 4 = 3) (p : Vec F S1024x128 .f32 × Vec F S1024x1 .f32 × Vec F S1024x1 .f32) :
    (stC V c t h0 h3 p).2.2.2 = k1_pay12 (iblk V c 1 t) (iblk V c 2 t) p.2.1 p.2.2 := by
  unfold stC
  dsimp only
  rw [View.read_writes_eq_canon _ _ _ (scover_C_L V c t h0 h3 p)]
  exact pieceC_L c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) (iblk V c 0 t) (iblk V c 1 t) (iblk V c 2 t) (iblk V c 3 t) (iblk V c 4 t) (iblk V c 5 t) p.1 p.2.1 p.2.2 (fun h => h0 ((hcond0 t).mp h)) ((hcond1 t).mpr h3)

theorem stC_O (c : Dev nD) (t : Fin cfg1.N) (h0 : ¬ t.val % 4 = 0) (h3 : t.val % 4 = 3) (p : Vec F S1024x128 .f32 × Vec F S1024x1 .f32 × Vec F S1024x1 .f32) :
    (stC V c t h0 h3 p).1 = k1_pay3 (k1_pay1 (k1_pay7 (iblk V c 3 t)) (k1_pay13 (iblk V c 1 t) (iblk V c 2 t) p.2.1 p.1) (k1_pay14 (iblk V c 1 t) (iblk V c 2 t) p.2.1) (constant (F := F) S1024x128 .f32 0x00000000#32)) (k1_pay12 (iblk V c 1 t) (iblk V c 2 t) p.2.1 p.2.2) (iblk V c 4 t) (iblk V c 5 t) (iblk V c 0 t) := by
  unfold stC
  dsimp only
  rw [View.read_writes_eq_canon _ _ _ (cover_C_6 V c t h0 h3 p)]
  exact pieceC_O c (grid1.coords t) (ms_0 t) (hs_0 t) (ms_1 t) (hs_1 t) (ms_2 t) (hs_2 t) (ms_3 t) (hs_3 t) (ms_4 t) (hs_4 t) (ms_5 t) (hs_5 t) (ms_6 t) (hs_6 t) scA (Memref.isWhole_whole _) scM (Memref.isWhole_whole _) scL (Memref.isWhole_whole _) (iblk V c 0 t) (iblk V c 1 t) (iblk V c 2 t) (iblk V c 3 t) (iblk V c 4 t) (iblk V c 5 t) p.1 p.2.1 p.2.2 (fun h => h0 ((hcond0 t).mp h)) ((hcond1 t).mpr h3)

end AtPoint

/-! ## One step at an entry, on the extended reals

The three scratch payloads read at row `r` (and feature `d` for the weighted sum) are the online-softmax update of the
row's previous state by the block's scores `sc kb qb r ·` and values `vb[·, d]`. -/

section Step
open Cert.Bridge

theorem step_apply (kb qb vb : Vec Ideal S1x1024x128 .bf16) (mp lp : Vec Ideal S1024x1 .f32) (ap : Vec Ideal S1024x128 .f32)
    (r : Fin 1024) (d : Fin 128) :
    (k1_pay2 (k1_pay9 kb qb mp) (ix2 r (0 : Fin 1)), k1_pay12 kb qb mp lp (ix2 r (0 : Fin 1)),
      k1_pay1 (k1_pay7 vb) (k1_pay13 kb qb mp ap) (k1_pay14 kb qb mp) (constant (F := Ideal) S1024x128 .f32 0x00000000#32) (ix2 r d))
      = stepE (fun k => sc kb qb r k) (fun k => vb (ix3 (0 : Fin 1) k d))
          (mp (ix2 r (0 : Fin 1)), lp (ix2 r (0 : Fin 1)), ap (ix2 r d)) := by
  rw [pay2_apply, pay9_apply, pay12_apply, pay1_apply]
  rfl

end Step

/-! ## The recursion over a group of four column blocks, row by row -/

section Rows
open Cert.Bridge
variable (V : (c : Dev nD) → (b : Ref sig .tc) → Buf (Elt Ideal) ((c : Thread nD τ).loc b))

/-- The state of row `r` (with feature `d` of its weighted sum) after grid position `n`: (maximum, normaliser,
    weighted sum), read off the three scratch buffers. -/
def rowState (c : Dev nD) (n : ℕ) (hn : n < cfg1.N) (r : Fin 1024) (d : Fin 128) : EReal × EReal × EReal :=
  ((outsAt V c n hn).2.2.1 (ix2 r (0 : Fin 1)), (outsAt V c n hn).2.2.2 (ix2 r (0 : Fin 1)), (outsAt V c n hn).2.1 (ix2 r d))

/-- At a first column block the row's state is one update of the initial state (−∞, 0, 0). -/
theorem rowState_A (c : Dev nD) (t : Fin cfg1.N) (r : Fin 1024) (d : Fin 128) (h0 : t.val % 4 = 0) :
    rowState V c t.val t.isLt r d
      = stepE (fun k => sc (iblk V c 1 t) (iblk V c 2 t) r k) (fun k => iblk V c 3 t (ix3 (0 : Fin 1) k d)) (⊥, 0, 0) := by
  unfold rowState
  rw [outsAt_A V c t h0, stA_M, stA_L, stA_A]
  refine (step_apply (iblk V c 1 t) (iblk V c 2 t) (iblk V c 3 t) (k1_pay4 (F := Ideal)) (k1_pay5 (F := Ideal)) (k1_pay6 (F := Ideal)) r d).trans ?_
  rw [pay4_apply, pay5_apply, pay6_apply]

/-- At any other column block it is one update of the state the position before left. -/
theorem rowState_BC (c : Dev nD) (t : Fin cfg1.N) (r : Fin 1024) (d : Fin 128) (h0 : t.val % 4 ≠ 0) :
    rowState V c t.val t.isLt r d
      = stepE (fun k => sc (iblk V c 1 t) (iblk V c 2 t) r k) (fun k => iblk V c 3 t (ix3 (0 : Fin 1) k d))
          (rowState V c (t.val - 1) (Nat.lt_of_le_of_lt (Nat.sub_le t.val 1) t.isLt) r d) := by
  unfold rowState
  by_cases h3 : t.val % 4 = 3
  · rw [outsAt_C V c t h0 h3, stC_M, stC_L, stC_A]
    generalize outsAt V c (t.val - 1) (Nat.lt_of_le_of_lt (Nat.sub_le t.val 1) t.isLt) = q
    exact step_apply (iblk V c 1 t) (iblk V c 2 t) (iblk V c 3 t) q.2.2.1 q.2.2.2 q.2.1 r d
  · rw [outsAt_B V c t h0 h3, stB_M, stB_L, stB_A]
    generalize outsAt V c (t.val - 1) (Nat.lt_of_le_of_lt (Nat.sub_le t.val 1) t.isLt) = q
    exact step_apply (iblk V c 1 t) (iblk V c 2 t) (iblk V c 3 t) q.2.2.1 q.2.2.2 q.2.1 r d

/-- At a last column block the output block's entry `(0, r, ch)` is the row's new weighted sum divided by its new
    normaliser, projected by column `ch` of the output weights, plus the bias and the residual entry. -/
theorem out_C (c : Dev nD) (t : Fin cfg1.N) (r : Fin 1024) (ch : Fin 256) (h3 : t.val % 4 = 3) :
    (outsAt V c t.val t.isLt).1 (ix3 (0 : Fin 1) r ch)
      = ((∑ d : Fin 128, Ideal.div ((rowState V c t.val t.isLt r d).2.2) ((rowState V c t.val t.isLt r d).2.1)
            * iblk V c 4 t (ix2 d ch)) + iblk V c 5 t (ix2 (0 : Fin 1) ch)) + iblk V c 0 t (ix3 (0 : Fin 1) r ch) := by
  have h0 : ¬ t.val % 4 = 0 := by omega
  have hO : (outsAt V c t.val t.isLt).1
      = k1_pay3 (outsAt V c t.val t.isLt).2.1 (outsAt V c t.val t.isLt).2.2.2 (iblk V c 4 t) (iblk V c 5 t) (iblk V c 0 t) := by
    rw [outsAt_C V c t h0 h3, stC_O, stC_A, stC_L]
  rw [hO]
  unfold rowState
  exact pay3_apply r ch (outsAt V c t.val t.isLt).2.1 (outsAt V c t.val t.isLt).2.2.2 (iblk V c 4 t) (iblk V c 5 t) (iblk V c 0 t)

end Rows

end Cert.KernelIdeal.AttnVal

end
-- ==== Proof.KernelIsG.lean ====
/-
  The idealized kernel program's result array is the specification's function of the argument arrays.

  For one output element (image `img`, image row `h`, column `w`, channel `ch`) let `n = 64·h + w` be the pixel, in row
  block `qi = n / 1024` at place `r = n % 1024`. The attention launch visits the four points (img, qi, 0 … 3) in order;
  the three scratch buffers carry, for row `r` and feature `d`, the running maximum, normaliser and weighted sum, started
  at `(-∞, 0, 0)` at key block 0 and updated by one block of 1024 keys at each point, so at key block 3 they hold the
  fourfold update. There the output block receives the quotients contracted with the output weights, plus the bias,
  plus the input row; that block is the one of the final array holding the element. Each block the body reads is its
  array at the block's place, the arrays the launch finds are the projections of the inputs, and the scores of key
  block `j` are the pixel's scores against the keys `1024·j + k`. For real-valued inputs the fourfold update ends in
  the softmax-weighted sum, which is the specification.
-/
import proofs.«133523_j46909632807722_2_alg».proof.Proof.AttnFinal
import proofs.«133523_j46909632807722_2_alg».proof.Proof.AttnPayload
import proofs.«133523_j46909632807722_2_alg».proof.Proof.CoreBridge
import proofs.«133523_j46909632807722_2_alg».proof.Proof.FiniteInputs
import proofs.«133523_j46909632807722_2_alg».proof.Proof.KernelRunIdeal
import proofs.«133523_j46909632807722_2_alg».proof.Proof.HostGlue
import proofs.«133523_j46909632807722_2_alg».proof.Proof.AttnValue

set_option maxRecDepth 16384

noncomputable section

namespace Cert.KernelIdeal.IsG

open Cert.KernelIdeal Cert.KernelIdeal.Gen Cert.KernelIdeal.Attn Cert.KernelIdeal.AttnFin
open Idealize.ShloMosaic Idealize.ShloMosaic.TcCoe Idealize.ShloMosaic.ValueIdx Idealize.SL.Sem
open Cert.Spec Cert.Lib.RealValued
open Cert.Lib.OnlineSoftmax (key)
open Cert.Bridge (stepE)

/-! ## Places -/

/-- Place `k` of key block `j` is key `1024·j + k` either way it is written. -/
theorem rowOf_eq_key (j : Fin 4) (k : Fin 1024) : rowOf j k = key (T := 4) (W := 1024) j k :=
  Fin.ext (by rw [rowOf_val]; show _ = j.val * 1024 + k.val; omega)

/-- The row block of a pixel. -/
def qiOf (n : Fin 4096) : Fin 4 := ⟨n.val / 1024, by have := n.isLt; omega⟩
/-- Its place in the block. -/
def rOf (n : Fin 4096) : Fin 1024 := ⟨n.val % 1024, by omega⟩

theorem rowOf_qiOf_rOf (n : Fin 4096) : rowOf (qiOf n) (rOf n) = n :=
  Fin.ext (by rw [rowOf_val]; show 1024 * (n.val / 1024) + n.val % 1024 = n.val; omega)

/-! ## The recursion over the four key blocks, unrolled -/

/-- A quantity that restarts at a point whose index is a multiple of 4 and steps from its predecessor elsewhere is,
    three points later, the fourfold step. -/
theorem unroll4 {N : ℕ} (rs : (n : ℕ) → n < N → EReal × EReal × EReal)
    (sj vj : Fin N → Fin 1024 → EReal)
    (hA : ∀ t : Fin N, t.val % 4 = 0 → rs t.val t.isLt = stepE (sj t) (vj t) (⊥, 0, 0))
    (hBC : ∀ (t : Fin N) (h : t.val % 4 ≠ 0),
      rs t.val t.isLt = stepE (sj t) (vj t) (rs (t.val - 1) (Nat.lt_of_le_of_lt (Nat.sub_le _ _) t.isLt)))
    (t0 t1 t2 t3 : Fin N) (h0 : t0.val % 4 = 0) (h1 : t1.val = t0.val + 1) (h2 : t2.val = t0.val + 2)
    (h3 : t3.val = t0.val + 3) :
    rs t3.val t3.isLt
      = stepE (sj t3) (vj t3) (stepE (sj t2) (vj t2) (stepE (sj t1) (vj t1) (stepE (sj t0) (vj t0) (⊥, 0, 0)))) := by
  have p : ∀ (n n' : ℕ) (hn : n < N) (hn' : n' < N), n = n' → rs n hn = rs n' hn' := by
    intro n n' hn hn' e; subst e; rfl
  rw [hBC t3 (by omega), p (t3.val - 1) t2.val _ t2.isLt (by omega),
    hBC t2 (by omega), p (t2.val - 1) t1.val _ t1.isLt (by omega),
    hBC t1 (by omega), p (t1.val - 1) t0.val _ t0.isLt (by omega), hA t0 h0]

section Core

variable (V : (c : Dev nD) → (b : Ref sig .tc) → Buf (Elt Ideal) ((c : Thread nD τ).loc b)) (c : Dev nD)
variable (A0 : (⟨4, ![4, 64, 64, 256]⟩ : Shape).Idx → EReal)
  (A1 : (⟨2, ![256, 128]⟩ : Shape).Idx → EReal) (A2 : (⟨1, ![128]⟩ : Shape).Idx → EReal)
  (A3 : (⟨2, ![256, 128]⟩ : Shape).Idx → EReal) (A4 : (⟨1, ![128]⟩ : Shape).Idx → EReal)
  (A5 : (⟨2, ![256, 128]⟩ : Shape).Idx → EReal) (A6 : (⟨1, ![128]⟩ : Shape).Idx → EReal)
  (A7 : (⟨2, ![128, 256]⟩ : Shape).Idx → EReal) (A8 : (⟨1, ![256]⟩ : Shape).Idx → EReal)

/-! ## One block's scores and values -/

/-- The scores the body forms at point (img, qi, j) for row `r` are the pixel's scores against key block `j`. -/
theorem scores_eq
    (gk : ∀ (img : Fin 4) (n : Fin 4096) (e : Fin 128), V c main_v7 (ix3 img n e : S4x4096x128.Idx) = proj A0 A1 A2 img n e)
    (gq : ∀ (img : Fin 4) (n : Fin 4096) (e : Fin 128), V c main_v8 (ix3 img n e : S4x4096x128.Idx) = proj A0 A3 A4 img n e)
    (t : Fin cfg1.N) (img qi j : Fin 4) (ht : t.val = 16 * img.val + 4 * qi.val + j.val) (r : Fin 1024) :
    (fun k : Fin 1024 => AttnPay.sc (iblk V c 1 t) (iblk V c 2 t) r k)
      = fun k : Fin 1024 => score (proj A0 A1 A2) (proj A0 A3 A4) img (rowOf qi r) (key (T := 4) (W := 1024) j k) := by
  funext k
  unfold AttnPay.sc Cert.Spec.score
  refine Finset.sum_congr rfl fun e _ => ?_
  rw [iblk_1 V c t img qi j ht r e, iblk_2 V c t img qi j ht k e, gk, gq, rowOf_eq_key j k]

/-- The values the body reads at point (img, qi, j) for feature `d` are the third projection at key block `j`. -/
theorem values_eq
    (gv : ∀ (img : Fin 4) (n : Fin 4096) (d : Fin 128), V c main_v9 (ix3 img n d : S4x4096x128.Idx) = proj A0 A5 A6 img n d)
    (t : Fin cfg1.N) (img qi j : Fin 4) (ht : t.val = 16 * img.val + 4 * qi.val + j.val) (d : Fin 128) :
    (fun k : Fin 1024 => iblk V c 3 t (ix3 (0 : Fin 1) k d : S1x1024x128.Idx))
      = fun k : Fin 1024 => proj A0 A5 A6 img (key (T := 4) (W := 1024) j k) d := by
  funext k
  rw [iblk_3 V c t img qi j ht k d, gv, rowOf_eq_key j k]

/-! ## The state after the four key blocks -/

/-- The fourfold update for pixel `n` and feature `d`, from `(-∞, 0, 0)`, over the projections of the inputs. -/
def fourSteps (img : Fin 4) (n : Fin 4096) (d : Fin 128) : EReal × EReal × EReal :=
  stepE (fun k : Fin 1024 => score (proj A0 A1 A2) (proj A0 A3 A4) img n (key (T := 4) (W := 1024) 3 k))
      (fun k : Fin 1024 => proj A0 A5 A6 img (key (T := 4) (W := 1024) 3 k) d)
      (stepE (fun k : Fin 1024 => score (proj A0 A1 A2) (proj A0 A3 A4) img n (key (T := 4) (W := 1024) 2 k))
      (fun k : Fin 1024 => proj A0 A5 A6 img (key (T := 4) (W := 1024) 2 k) d)
      (stepE (fun k : Fin 1024 => score (proj A0 A1 A2) (proj A0 A3 A4) img n (key (T := 4) (W := 1024) 1 k))
      (fun k : Fin 1024 => proj A0 A5 A6 img (key (T := 4) (W := 1024) 1 k) d)
      (stepE (fun k : Fin 1024 => score (proj A0 A1 A2) (proj A0 A3 A4) img n (key (T := 4) (W := 1024) 0 k))
      (fun k : Fin 1024 => proj A0 A5 A6 img (key (T := 4) (W := 1024) 0 k) d)
      (⊥, 0, 0))))

/-- A grid point with given coordinates. -/
theorem exists_point (img qi j : Fin 4) : ∃ t : Fin cfg1.N, t.val = 16 * img.val + 4 * qi.val + j.val :=
  ⟨⟨16 * img.val + 4 * qi.val + j.val, by
    have := img.isLt; have := qi.isLt; have := j.isLt; have hN : cfg1.N = 64 := N_1; omega⟩, rfl⟩

theorem outsAt_congr (n n' : ℕ) (hn : n < cfg1.N) (hn' : n' < cfg1.N) (e : n = n') : outsAt V c n hn = outsAt V c n' hn' := by
  subst e; rfl

/-- What the scratch buffers hold for row `r` and feature `d` after the point (img, qi, 3) is the fourfold update for the
    pixel `1024·qi + r`. -/
theorem state_eq
    (gk : ∀ (img : Fin 4) (n : Fin 4096) (e : Fin 128), V c main_v7 (ix3 img n e : S4x4096x128.Idx) = proj A0 A1 A2 img n e)
    (gq : ∀ (img : Fin 4) (n : Fin 4096) (e : Fin 128), V c main_v8 (ix3 img n e : S4x4096x128.Idx) = proj A0 A3 A4 img n e)
    (gv : ∀ (img : Fin 4) (n : Fin 4096) (d : Fin 128), V c main_v9 (ix3 img n d : S4x4096x128.Idx) = proj A0 A5 A6 img n d)
    (rs : (n : ℕ) → n < cfg1.N → Fin 1024 → Fin 128 → EReal × EReal × EReal)
    (hA : ∀ (t : Fin cfg1.N) (r : Fin 1024) (d : Fin 128), t.val % 4 = 0 →
      rs t.val t.isLt r d = stepE (fun k : Fin 1024 => AttnPay.sc (iblk V c 1 t) (iblk V c 2 t) r k) (fun k : Fin 1024 => iblk V c 3 t (ix3 (0 : Fin 1) k d : S1x1024x128.Idx)) (⊥, 0, 0))
    (hBC : ∀ (t : Fin cfg1.N) (r : Fin 1024) (d : Fin 128), t.val % 4 ≠ 0 →
      rs t.val t.isLt r d = stepE (fun k : Fin 1024 => AttnPay.sc (iblk V c 1 t) (iblk V c 2 t) r k) (fun k : Fin 1024 => iblk V c 3 t (ix3 (0 : Fin 1) k d : S1x1024x128.Idx))
        (rs (t.val - 1) (Nat.lt_of_le_of_lt (Nat.sub_le _ _) t.isLt) r d))
    (img qi : Fin 4) (r : Fin 1024) (d : Fin 128) (t0 t1 t2 t3 : Fin cfg1.N)
    (ht0 : t0.val = 16 * img.val + 4 * qi.val + (0 : Fin 4).val) (ht1 : t1.val = 16 * img.val + 4 * qi.val + (1 : Fin 4).val)
    (ht2 : t2.val = 16 * img.val + 4 * qi.val + (2 : Fin 4).val) (ht3 : t3.val = 16 * img.val + 4 * qi.val + (3 : Fin 4).val) :
    rs t3.val t3.isLt r d = fourSteps A0 A1 A2 A3 A4 A5 A6 img (rowOf qi r) d := by
  have v0 : ((0 : Fin 4).val) = 0 := rfl
  have v1 : ((1 : Fin 4).val) = 1 := rfl
  have v2 : ((2 : Fin 4).val) = 2 := rfl
  have v3 : ((3 : Fin 4).val) = 3 := rfl
  have hu := unroll4 (fun n hn => rs n hn r d) (fun t => (fun k : Fin 1024 => AttnPay.sc (iblk V c 1 t) (iblk V c 2 t) r k)) (fun t => (fun k : Fin 1024 => iblk V c 3 t (ix3 (0 : Fin 1) k d : S1x1024x128.Idx)))
    (fun t h => hA t r d h) (fun t h => hBC t r d h) t0 t1 t2 t3 (by omega) (by omega) (by omega) (by omega)
  refine hu.trans ?_
  rw [scores_eq V c A0 A1 A2 A3 A4 gk gq t3 img qi 3 ht3 r, scores_eq V c A0 A1 A2 A3 A4 gk gq t2 img qi 2 ht2 r,
    scores_eq V c A0 A1 A2 A3 A4 gk gq t1 img qi 1 ht1 r, scores_eq V c A0 A1 A2 A3 A4 gk gq t0 img qi 0 ht0 r,
    values_eq V c A0 A5 A6 gv t3 img qi 3 ht3 d, values_eq V c A0 A5 A6 gv t2 img qi 2 ht2 d,
    values_eq V c A0 A5 A6 gv t1 img qi 1 ht1 d, values_eq V c A0 A5 A6 gv t0 img qi 0 ht0 d]
  rfl

/-! ## One element of the launch's output array -/

/-- The element (img, pixel (h, w), ch) of the output array after the attention launch is the specification's result,
    when the arrays the launch finds are the projections, the weights, the bias and the input, and the inputs are real. -/
theorem core
    (g0 : ∀ (img : Fin 4) (n : Fin 4096) (ch : Fin 256), V c main_v0 (ix3 img n ch : S4x4096x256.Idx) = A0 (ix4 img (hOf n) (wOf n) ch))
    (gw : ∀ (d : Fin 128) (ch : Fin 256), V c main_arg7 (ix2 d ch : S128x256.Idx) = A7 (ix2 d ch))
    (gb : ∀ ch : Fin 256, V c main_v5 (ix2 (0 : Fin 1) ch : S1x256.Idx) = A8 (ix1 ch))
    (gk : ∀ (img : Fin 4) (n : Fin 4096) (e : Fin 128), V c main_v7 (ix3 img n e : S4x4096x128.Idx) = proj A0 A1 A2 img n e)
    (gq : ∀ (img : Fin 4) (n : Fin 4096) (e : Fin 128), V c main_v8 (ix3 img n e : S4x4096x128.Idx) = proj A0 A3 A4 img n e)
    (gv : ∀ (img : Fin 4) (n : Fin 4096) (d : Fin 128), V c main_v9 (ix3 img n d : S4x4096x128.Idx) = proj A0 A5 A6 img n d)
    (rs : (n : ℕ) → n < cfg1.N → Fin 1024 → Fin 128 → EReal × EReal × EReal)
    (hA : ∀ (t : Fin cfg1.N) (r : Fin 1024) (d : Fin 128), t.val % 4 = 0 →
      rs t.val t.isLt r d = stepE (fun k : Fin 1024 => AttnPay.sc (iblk V c 1 t) (iblk V c 2 t) r k) (fun k : Fin 1024 => iblk V c 3 t (ix3 (0 : Fin 1) k d : S1x1024x128.Idx)) (⊥, 0, 0))
    (hBC : ∀ (t : Fin cfg1.N) (r : Fin 1024) (d : Fin 128), t.val % 4 ≠ 0 →
      rs t.val t.isLt r d = stepE (fun k : Fin 1024 => AttnPay.sc (iblk V c 1 t) (iblk V c 2 t) r k) (fun k : Fin 1024 => iblk V c 3 t (ix3 (0 : Fin 1) k d : S1x1024x128.Idx))
        (rs (t.val - 1) (Nat.lt_of_le_of_lt (Nat.sub_le _ _) t.isLt) r d))
    (hC : ∀ (t : Fin cfg1.N) (r : Fin 1024) (ch : Fin 256), t.val % 4 = 3 →
      (outsAt V c t.val t.isLt).1 (ix3 (0 : Fin 1) r ch : S1x1024x256.Idx)
        = ((∑ d : Fin 128, Ideal.div (rs t.val t.isLt r d).2.2 (rs t.val t.isLt r d).2.1 * iblk V c 4 t (ix2 d ch : S128x256.Idx))
            + iblk V c 5 t (ix2 (0 : Fin 1) ch : S1x256.Idx)) + iblk V c 0 t (ix3 (0 : Fin 1) r ch : S1x1024x256.Idx))
    (hx : ∀ i, IsReal (A0 i)) (hwk : ∀ i, IsReal (A1 i)) (hbk : ∀ i, IsReal (A2 i)) (hwq : ∀ i, IsReal (A3 i))
    (hbq : ∀ i, IsReal (A4 i)) (hwv : ∀ i, IsReal (A5 i)) (hbv : ∀ i, IsReal (A6 i))
    (img : Fin 4) (h w : Fin 64) (ch : Fin 256) :
    (dat V c).arrAt 6 cfg1.N (ix3 img (pix h w) ch : S4x4096x256.Idx) = Gat A0 A1 A2 A3 A4 A5 A6 A7 A8 img h w ch := by
  obtain ⟨qi, r, hn⟩ : ∃ (qi : Fin 4) (r : Fin 1024), rowOf qi r = pix h w :=
    ⟨qiOf (pix h w), rOf (pix h w), rowOf_qiOf_rOf _⟩
  obtain ⟨t0, ht0⟩ := exists_point img qi 0
  obtain ⟨t1, ht1⟩ := exists_point img qi 1
  obtain ⟨t2, ht2⟩ := exists_point img qi 2
  obtain ⟨t3, ht3⟩ := exists_point img qi 3
  have v3 : ((3 : Fin 4).val) = 3 := rfl
  have ks := Cert.Bridge.kernel_formula A0 A1 A2 A3 A4 A5 A6 A7 A8 hx hwk hbk hwq hbq hwv hbv img h w ch
  dsimp only at ks
  have hL : (dat V c).arrAt 6 cfg1.N (ix3 img (pix h w) ch : S4x4096x256.Idx)
      = (outsAt V c t3.val t3.isLt).1 (ix3 (0 : Fin 1) r ch : S1x1024x256.Idx) := by
    rw [← hn, final_out V c img qi r ch, outsAt_congr V c _ t3.val _ t3.isLt (by omega)]
  have h0 : iblk V c 0 t3 (ix3 (0 : Fin 1) r ch : S1x1024x256.Idx) = A0 (ix4 img h w ch) := by
    rw [iblk_0 V c t3 img qi 3 ht3 r ch, g0, hn, hOf_pix, wOf_pix]
  have hst : ∀ d : Fin 128, rs t3.val t3.isLt r d = fourSteps A0 A1 A2 A3 A4 A5 A6 img (pix h w) d := fun d => by
    rw [← hn]
    exact state_eq V c A0 A1 A2 A3 A4 A5 A6 gk gq gv rs hA hBC img qi r d t0 t1 t2 t3 ht0 ht1 ht2 ht3
  rw [hL, hC t3 r ch (by omega), iblk_5 V c t3 ch, gb, h0]
  refine Eq.trans ?_ ks
  refine congrArg (· + A0 (ix4 img h w ch)) (congrArg (· + A8 (ix1 ch)) (Finset.sum_congr rfl fun d _ => ?_))
  rw [iblk_4 V c t3 d ch, gw, hst d]
  rfl

end Core

/-! ## The result array -/

section Final

variable (m : (ℓ : Loc nD τ sig) → Buf (Elt Ideal) ℓ) (ρ : Dev nD → PrngReg)

/-- Under the precondition (every input entry finite), the result array the idealized kernel program leaves is the
    specification's function of the nine argument arrays. -/
theorem result_eq_G
    (hpre : Cert.Pre_KernelIdeal (hPre_finite_inputs := Cert.Pre_finite_inputs.Gen.facts) m) (c : Dev nD) :
    Cert.KernelIdeal.Run.W5 m ρ c (Proc.devRef .tc main_v11)
      = Cert.Spec.G (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8)) := by
  obtain ⟨r0, r1, r2, r3, r4, r5, r6, -, -⟩ := Cert.Proof.Finite.real_inputs m hpre c
  funext i
  obtain ⟨img, h, w, ch, rfl⟩ : ∃ (img : Fin 4) (h w : Fin 64) (ch : Fin 256), i = ix4 img h w ch :=
    ⟨i 0, i 1, i 2, i 3, eq_ix4 i⟩
  rw [Cert.Spec.G_ix4]
  refine (Glue.result_apply m ρ c img h w ch).trans ?_
  exact core (Run.V3 m ρ) c (Glue.A0 m c) (Glue.A1 m c) (Glue.A2 m c) (Glue.A3 m c) (Glue.A4 m c) (Glue.A5 m c)
    (Glue.A6 m c) (Glue.A7 m c) (Glue.A8 m c)
    (Glue.pixels_apply m ρ c) (fun d ch => congrFun (Glue.out_weights_eq m ρ c) (ix2 d ch)) (Glue.out_bias_apply m ρ c)
    (Glue.k_proj m ρ c) (Glue.q_proj m ρ c) (Glue.v_proj m ρ c)
    (AttnVal.rowState (Run.V3 m ρ) c)
    (fun t r d h => AttnVal.rowState_A (Run.V3 m ρ) c t r d h)
    (fun t r d h => AttnVal.rowState_BC (Run.V3 m ρ) c t r d h)
    (fun t r ch h => AttnVal.out_C (Run.V3 m ρ) c t r ch h)
    r0 r1 r2 r3 r4 r5 r6 img h w ch

end Final

end Cert.KernelIdeal.IsG

end
-- ==== Proof.lean ====
/-
  Self-attention over the 4096 pixels of each of 4 images, against its plain reference statement.

  The kernel's program: the three 1x1 projections k = x·wk + bk, q = x·wq + bq, v = x·wv + bv are computed once, as ONE
  matrix product of the flattened pixels [16384, 256] with the concatenated weights [256, 384] (row blocks of 2048
  pixels), and cut back into three [16384, 128] arrays. A second launch walks a grid (image, block of 1024 query rows,
  block of 1024 key columns): for each block of rows it carries, across the four column blocks, the running row maximum
  m, the running normaliser l and the running weighted sum acc of an online softmax of the scores k·qᵀ — each step
  rescales l and acc by exp(m_old − m_new) and adds the block's exp(s − m_new) terms — and at the last column block
  writes (acc / l)·wo + bo + x. The reference forms the whole 4096×4096 score matrix per image, takes
  exp(s − rowmax) / rowsum, and applies v, wo, bo and the residual.

  On the extended reals the two are one function of finite inputs: the rescaling identity
  exp(a − b)·exp(s − a) = exp(s − b) on the reals turns the four-step recurrence into the sums over all 4096 columns
  at the global row maximum, and a common positive divisor may be taken inside or outside a finite sum of reals
  (Proof/LibOnlineSoftmax.lean states both facts for any finite set of keys cut into any blocks).

  Finiteness is what the identities need: every score and every value is a finite sum of products of finite inputs,
  hence a real number (Proof/LibRealValued.lean), and the identities above hold on the reals but not at the infinities.

  The modules: Proof/Spec.lean states the common function G; Proof/RefIsG.lean reads the reference's run as G;
  Proof/ProjBody*.lean and Proof/AttnRuns*.lean, AttnRunA/B/C*.lean, AttnBody*.lean run the two kernel bodies (once for
  each of the two kernel programs — the word-level one and its reading on the extended reals — which have one text) and Proof/KernelRun*.lean chains the host operations and the two
  launches into a run of the whole program with every buffer's final contents named; Proof/ProjValue.lean,
  Proof/AttnPayload.lean, Proof/AttnValue.lean, Proof/AttnFinal.lean and Proof/HostGlue.lean read those contents at an
  index; Proof/StepE.lean, Proof/AttendBridge.lean and Proof/CoreBridge.lean turn the four-step recurrence into the
  softmax of the specification; Proof/FiniteInputs.lean reads the precondition; Proof/KernelIsG.lean composes them.
-/
import proofs.«133523_j46909632807722_2_alg».proof.Defs
import proofs.«133523_j46909632807722_2_alg».proof.Proof.Gen.Kernel
import proofs.«133523_j46909632807722_2_alg».proof.Proof.Gen.KernelIdeal
import proofs.«133523_j46909632807722_2_alg».proof.Proof.Gen.ReferenceIdeal
import proofs.«133523_j46909632807722_2_alg».proof.Proof.Gen.Pre_finite_inputs
import proofs.«133523_j46909632807722_2_alg».proof.Proof.Gen.ReferenceIdeal.Run
import proofs.«133523_j46909632807722_2_alg».proof.Proof.LibOnlineSoftmax
import proofs.«133523_j46909632807722_2_alg».proof.Proof.LibRealValued
import proofs.«133523_j46909632807722_2_alg».proof.Proof.KernelRunBits
import proofs.«133523_j46909632807722_2_alg».proof.Proof.KernelRunIdeal
import proofs.«133523_j46909632807722_2_alg».proof.Proof.RefIsG
import proofs.«133523_j46909632807722_2_alg».proof.Proof.KernelIsG
import Idealize.ShloMosaic.Adequacy
import Idealize.ShloMosaic.Init

noncomputable section

namespace Cert.Proof

open Idealize.ShloMosaic Idealize.SL.Sem

/-- The word-level kernel program runs to its end and leaves its arguments as they were. -/
theorem frame_k : Cert.frame_Kernel := fun m ρ _ => Cert.Kernel.Run.frame (F := Bits) m ρ

/-- So does its reading on the extended reals. -/
theorem frame_ki : Cert.frame_KernelIdeal := fun m ρ _ => Cert.KernelIdeal.Run.frame (F := Ideal) m ρ

/-- The reference runs to its end and leaves its arguments as they were: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- On finite inputs both programs end with the specification's array: the kernel program's last buffer fold read as G
    (the composition of the launches' values), the reference's run read as G, from arguments that agree. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun _ h c => ⟨?_, (h c _ (Cert.KernelIdeal.Run.mem_uc Cert.KernelIdeal.main_arg0 (by decide))).trans (Cert.KernelIdeal.Run.W5_main_arg0 m ρ c),
      (h c _ (Cert.KernelIdeal.Run.mem_uc Cert.KernelIdeal.main_arg1 (by decide))).trans (Cert.KernelIdeal.Run.W5_main_arg1 m ρ c),
      (h c _ (Cert.KernelIdeal.Run.mem_uc Cert.KernelIdeal.main_arg2 (by decide))).trans (Cert.KernelIdeal.Run.W5_main_arg2 m ρ c),
      (h c _ (Cert.KernelIdeal.Run.mem_uc Cert.KernelIdeal.main_arg3 (by decide))).trans (Cert.KernelIdeal.Run.W5_main_arg3 m ρ c),
      (h c _ (Cert.KernelIdeal.Run.mem_uc Cert.KernelIdeal.main_arg4 (by decide))).trans (Cert.KernelIdeal.Run.W5_main_arg4 m ρ c),
      (h c _ (Cert.KernelIdeal.Run.mem_uc Cert.KernelIdeal.main_arg5 (by decide))).trans (Cert.KernelIdeal.Run.W5_main_arg5 m ρ c),
      (h c _ (Cert.KernelIdeal.Run.mem_uc Cert.KernelIdeal.main_arg6 (by decide))).trans (Cert.KernelIdeal.Run.W5_main_arg6 m ρ c),
      (h c _ (Cert.KernelIdeal.Run.mem_uc Cert.KernelIdeal.main_arg7 (by decide))).trans (Cert.KernelIdeal.Run.W5_main_arg7 m ρ c),
      (h c _ (Cert.KernelIdeal.Run.mem_uc Cert.KernelIdeal.main_arg8 (by decide))).trans (Cert.KernelIdeal.Run.W5_main_arg8 m ρ c)⟩)
      (Cert.KernelIdeal.Run.run_all (F := Ideal) m ρ)
    exact (h c _ (Cert.KernelIdeal.Run.mem_uc Cert.KernelIdeal.main_v11 (by decide))).trans (Cert.KernelIdeal.IsG.result_eq_G m ρ hpre c)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq_G, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
